-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v112)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v112) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v157) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000 : Shape := ⟨1, ![100000]⟩
abbrev S64x128 : Shape := ⟨2, ![64, 128]⟩
abbrev S64 : Shape := ⟨1, ![64]⟩
abbrev S64x64 : Shape := ⟨2, ![64, 64]⟩
abbrev S10x64 : Shape := ⟨2, ![10, 64]⟩
abbrev S10 : Shape := ⟨1, ![10]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S10x64 : S_.BroadcastsInDim S10x64 (![] : Fin 0 → Fin S10x64.rank)
  reducesTo_S10x64_S_d0_1 : S10x64.ReducesTo [0, 1] S_
  bcast_S_S10 : S_.BroadcastsInDim S10 (![] : Fin 0 → Fin S10.rank)
  reducesTo_S10_S_d0 : S10.ReducesTo [0] S_

variable [Facts]

def fn_part4 {F : FTy → Type} [FloatOps F] (main_arg16 : FVec F S64 .f32) (main_arg17 : FVec F S10x64 .f32) (main_arg18 : FVec F S10 .f32) (main_v63 : IVec S_ 1) (main_v67 : IVec S_ 1) : IVec S_ 1 :=
  let main_v68 : IVec S_ 1 := andi main_v63 main_v67
  let main_v69 : FVec F S64 .f32 := Host.absf main_arg16
  let main_cst_26 : FVec F S_ .f32 := constant S_ .f32 0x7F800000#32
  let main_v70 : FVec F S64 .f32 := broadcastInDim S64 ![] bcast_S_S64 main_cst_26
  let main_v71 : IVec S64 1 := cmpf .olt main_v69 main_v70
  let main_c_27 : IVec S_ 1 := constantI S_ 1 1#1
  let main_v72 : IVec S_ 1 := (fun x v => Host.reduce IntOp.andi x v reducesTo_S64_S_d0 h_S_) main_v71 main_c_27
  let main_v73 : IVec S_ 1 := andi main_v68 main_v72
  let main_v74 : FVec F S10x64 .f32 := Host.absf main_arg17
  let main_cst_28 : FVec F S_ .f32 := constant S_ .f32 0x7F800000#32
  let main_v75 : FVec F S10x64 .f32 := broadcastInDim S10x64 ![] bcast_S_S10x64 main_cst_28
  let main_v76 : IVec S10x64 1 := cmpf .olt main_v74 main_v75
  let main_c_29 : IVec S_ 1 := constantI S_ 1 1#1
  let main_v77 : IVec S_ 1 := (fun x v => Host.reduce IntOp.andi x v reducesTo_S10x64_S_d0_1 h_S_) main_v76 main_c_29
  let main_v78 : IVec S_ 1 := andi main_v73 main_v77
  let main_v79 : FVec F S10 .f32 := Host.absf main_arg18
  let main_cst_30 : FVec F S_ .f32 := constant S_ .f32 0x7F800000#32
  let main_v80 : FVec F S10 .f32 := broadcastInDim S10 ![] bcast_S_S10 main_cst_30
  let main_v81 : IVec S10 1 := cmpf .olt main_v79 main_v80
  let main_c_31 : IVec S_ 1 := constantI S_ 1 1#1
  let main_v82 : IVec S_ 1 := (fun x v => Host.reduce IntOp.andi x v reducesTo_S10_S_d0 h_S_) main_v81 main_c_31
  let main_v83 : IVec S_ 1 := andi main_v78 main_v82
  main_v83

def fn_part3 {F : FTy → Type} [FloatOps F] (main_arg13 : FVec F S64 .f32) (main_arg14 : FVec F S64 .f32) (main_arg15 : FVec F S64x64 .f32) (main_arg16 : FVec F S64 .f32) (main_arg17 : FVec F S10x64 .f32) (main_arg18 : FVec F S10 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64 .f32 := Host.absf main_arg13
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64 .f32 := Host.absf main_arg14
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64x64 .f32 := Host.absf main_arg15
  let main_cst_24 : FVec F S_ .f32 := constant S_ .f32 0x7F800000#32
  let main_v65 : FVec F S64x64 .f32 := broadcastInDim S64x64 ![] bcast_S_S64x64 main_cst_24
  let main_v66 : IVec S64x64 1 := cmpf .olt main_v64 main_v65
  let main_c_25 : IVec S_ 1 := constantI S_ 1 1#1
  let main_v67 : IVec S_ 1 := (fun x v => Host.reduce IntOp.andi x v reducesTo_S64x64_S_d0_1 h_S_) main_v66 main_c_25
  fn_part4 (F := F) main_arg16 main_arg17 main_arg18 main_v63 main_v67

def fn_part2 {F : FTy → Type} [FloatOps F] (main_arg9 : FVec F S64 .f32) (main_arg10 : FVec F S64 .f32) (main_arg11 : FVec F S64x64 .f32) (main_arg12 : FVec F S64 .f32) (main_arg13 : FVec F S64 .f32) (main_arg14 : FVec F S64 .f32) (main_arg15 : FVec F S64x64 .f32) (main_arg16 : FVec F S64 .f32) (main_arg17 : FVec F S10x64 .f32) (main_arg18 : FVec F S10 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x64 .f32 := Host.absf main_arg11
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  let main_v49 : FVec F S64 .f32 := Host.absf main_arg12
  let main_cst_18 : FVec F S_ .f32 := constant S_ .f32 0x7F800000#32
  let main_v50 : FVec F S64 .f32 := broadcastInDim S64 ![] bcast_S_S64 main_cst_18
  fn_part3 (F := F) main_arg13 main_arg14 main_arg15 main_arg16 main_arg17 main_arg18 main_v48 main_v49 main_v50

def fn_part1 {F : FTy → Type} [FloatOps F] (main_arg6 : FVec F S64 .f32) (main_arg7 : FVec F S64x64 .f32) (main_arg8 : FVec F S64 .f32) (main_arg9 : FVec F S64 .f32) (main_arg10 : FVec F S64 .f32) (main_arg11 : FVec F S64x64 .f32) (main_arg12 : FVec F S64 .f32) (main_arg13 : FVec F S64 .f32) (main_arg14 : FVec F S64 .f32) (main_arg15 : FVec F S64x64 .f32) (main_arg16 : FVec F S64 .f32) (main_arg17 : FVec F S10x64 .f32) (main_arg18 : FVec F S10 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg7
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_arg11 main_arg12 main_arg13 main_arg14 main_arg15 main_arg16 main_arg17 main_arg18 main_v33

def fn {F : FTy → Type} [FloatOps F] (main_arg0 : FVec F S100000x128 .f32) (main_arg1 : IVec S2x1600000 32) (main_arg2 : IVec S100000 32) (main_arg3 : FVec F S64x128 .f32) (main_arg4 : FVec F S64 .f32) (main_arg5 : FVec F S64 .f32) (main_arg6 : FVec F S64 .f32) (main_arg7 : FVec F S64x64 .f32) (main_arg8 : FVec F S64 .f32) (main_arg9 : FVec F S64 .f32) (main_arg10 : FVec F S64 .f32) (main_arg11 : FVec F S64x64 .f32) (main_arg12 : FVec F S64 .f32) (main_arg13 : FVec F S64 .f32) (main_arg14 : FVec F S64 .f32) (main_arg15 : FVec F S64x64 .f32) (main_arg16 : FVec F S64 .f32) (main_arg17 : FVec F S10x64 .f32) (main_arg18 : FVec F S10 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S64x128 .f32 := Host.absf main_arg3
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_arg8 main_arg9 main_arg10 main_arg11 main_arg12 main_arg13 main_arg14 main_arg15 main_arg16 main_arg17 main_arg18 main_v13 main_v16
-- ==== Kernel.lean ====
abbrev S100000x128 : Shape := ⟨2, ![100000, 128]⟩
abbrev S2x1600000 : Shape := ⟨2, ![2, 1600000]⟩
abbrev S100000 : Shape := ⟨1, ![100000]⟩
abbrev S64x128 : Shape := ⟨2, ![64, 128]⟩
abbrev S64 : Shape := ⟨1, ![64]⟩
abbrev S64x64 : Shape := ⟨2, ![64, 64]⟩
abbrev S10x64 : Shape := ⟨2, ![10, 64]⟩
abbrev S10 : Shape := ⟨1, ![10]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S128x64 : Shape := ⟨2, ![128, 64]⟩
abbrev S1x64 : Shape := ⟨2, ![1, 64]⟩
abbrev S100000x64 : Shape := ⟨2, ![100000, 64]⟩
abbrev S5000x128 : Shape := ⟨2, ![5000, 128]⟩
abbrev S5000x64 : Shape := ⟨2, ![5000, 64]⟩
abbrev S1700000x64 : Shape := ⟨2, ![1700000, 64]⟩
abbrev S100000x1 : Shape := ⟨2, ![100000, 1]⟩
abbrev S64x10 : Shape := ⟨2, ![64, 10]⟩
abbrev S1x10 : Shape := ⟨2, ![1, 10]⟩
abbrev S128x10 : Shape := ⟨2, ![128, 10]⟩

abbrev nBuf : Space → Nat
  | .hbm => 227
  | .vmem => 48
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S64x128, .f32⟩
  | 4 => ⟨S64, .f32⟩
  | 5 => ⟨S64, .f32⟩
  | 6 => ⟨S64, .f32⟩
  | 7 => ⟨S64x64, .f32⟩
  | 8 => ⟨S64, .f32⟩
  | 9 => ⟨S64, .f32⟩
  | 10 => ⟨S64, .f32⟩
  | 11 => ⟨S64x64, .f32⟩
  | 12 => ⟨S64, .f32⟩
  | 13 => ⟨S64, .f32⟩
  | 14 => ⟨S64, .f32⟩
  | 15 => ⟨S64x64, .f32⟩
  | 16 => ⟨S64, .f32⟩
  | 17 => ⟨S10x64, .f32⟩
  | 18 => ⟨S10, .f32⟩
  | 19 => ⟨S1x1600000, .i32⟩
  | 20 => ⟨S1600000, .i32⟩
  | 21 => ⟨S1x1600000, .i32⟩
  | 22 => ⟨S1600000, .i32⟩
  | 23 => ⟨S100000, .i32⟩
  | 24 => ⟨S1700000, .i32⟩
  | 25 => ⟨S1700000, .i32⟩
  | 26 => ⟨S_, .f32⟩
  | 27 => ⟨S1700000, .f32⟩
  | 28 => ⟨S_, .f32⟩
  | 29 => ⟨S100000, .f32⟩
  | 30 => ⟨S1700000x1, .i32⟩
  | 31 => ⟨S100000, .f32⟩
  | 32 => ⟨S_, .i32⟩
  | 33 => ⟨S1700000, .i32⟩
  | 34 => ⟨S1700000, .i1⟩
  | 35 => ⟨S_, .i32⟩
  | 36 => ⟨S1700000, .i32⟩
  | 37 => ⟨S1700000, .i32⟩
  | 38 => ⟨S1700000, .i32⟩
  | 39 => ⟨S1700000x1, .i32⟩
  | 40 => ⟨S1700000, .f32⟩
  | 41 => ⟨S_, .i32⟩
  | 42 => ⟨S1700000, .i32⟩
  | 43 => ⟨S1700000, .i1⟩
  | 44 => ⟨S_, .i32⟩
  | 45 => ⟨S1700000, .i32⟩
  | 46 => ⟨S1700000, .i32⟩
  | 47 => ⟨S1700000, .i32⟩
  | 48 => ⟨S1700000x1, .i32⟩
  | 49 => ⟨S1700000, .f32⟩
  | 50 => ⟨S1700000, .f32⟩
  | 51 => ⟨S_, .f32⟩
  | 52 => ⟨S1700000, .f32⟩
  | 53 => ⟨S1700000, .f32⟩
  | 54 => ⟨S1700000, .f32⟩
  | 55 => ⟨S_, .f32⟩
  | 56 => ⟨S1700000, .f32⟩
  | 57 => ⟨S1700000, .i1⟩
  | 58 => ⟨S_, .f32⟩
  | 59 => ⟨S_, .f32⟩
  | 60 => ⟨S1700000, .f32⟩
  | 61 => ⟨S1700000, .f32⟩
  | 62 => ⟨S128x64, .f32⟩
  | 63 => ⟨S1x64, .f32⟩
  | 64 => ⟨S100000x64, .f32⟩
  | 65 => ⟨S_, .i32⟩
  | 66 => ⟨S1700000, .i32⟩
  | 67 => ⟨S1700000, .i1⟩
  | 68 => ⟨S_, .i32⟩
  | 69 => ⟨S1700000, .i32⟩
  | 70 => ⟨S1700000, .i32⟩
  | 71 => ⟨S1700000, .i32⟩
  | 72 => ⟨S1700000x1, .i32⟩
  | 73 => ⟨S1700000x64, .f32⟩
  | 74 => ⟨S1700000x1, .f32⟩
  | 75 => ⟨S1700000x64, .f32⟩
  | 76 => ⟨S1700000x64, .f32⟩
  | 77 => ⟨S_, .f32⟩
  | 78 => ⟨S100000x64, .f32⟩
  | 79 => ⟨S1700000x1, .i32⟩
  | 80 => ⟨S100000x64, .f32⟩
  | 81 => ⟨S_, .f32⟩
  | 82 => ⟨S64, .f32⟩
  | 83 => ⟨S_, .f32⟩
  | 84 => ⟨S64, .f32⟩
  | 85 => ⟨S64, .f32⟩
  | 86 => ⟨S_, .i32⟩
  | 87 => ⟨S_, .f32⟩
  | 88 => ⟨S64, .f32⟩
  | 89 => ⟨S1x64, .f32⟩
  | 90 => ⟨S_, .f32⟩
  | 91 => ⟨S1x64, .f32⟩
  | 92 => ⟨S1x64, .f32⟩
  | 93 => ⟨S100000x64, .f32⟩
  | 94 => ⟨S100000x64, .f32⟩
  | 95 => ⟨S100000x64, .f32⟩
  | 96 => ⟨S_, .f32⟩
  | 97 => ⟨S_, .f32⟩
  | 98 => ⟨S_, .f32⟩
  | 99 => ⟨S_, .f32⟩
  | 100 => ⟨S64, .f32⟩
  | 101 => ⟨S64, .f32⟩
  | 102 => ⟨S64, .f32⟩
  | 103 => ⟨S_, .f32⟩
  | 104 => ⟨S_, .i1⟩
  | 105 => ⟨S_, .f32⟩
  | 106 => ⟨S_, .f32⟩
  | 107 => ⟨S64, .f32⟩
  | 108 => ⟨S64, .f32⟩
  | 109 => ⟨S1x64, .f32⟩
  | 110 => ⟨S1x64, .f32⟩
  | 111 => ⟨S1x64, .f32⟩
  | 112 => ⟨S1x64, .f32⟩
  | 113 => ⟨S100000x64, .f32⟩
  | 114 => ⟨S64x64, .f32⟩
  | 115 => ⟨S1x64, .f32⟩
  | 116 => ⟨S100000x64, .f32⟩
  | 117 => ⟨S_, .i32⟩
  | 118 => ⟨S1700000, .i32⟩
  | 119 => ⟨S1700000, .i1⟩
  | 120 => ⟨S_, .i32⟩
  | 121 => ⟨S1700000, .i32⟩
  | 122 => ⟨S1700000, .i32⟩
  | 123 => ⟨S1700000, .i32⟩
  | 124 => ⟨S1700000x1, .i32⟩
  | 125 => ⟨S1700000x64, .f32⟩
  | 126 => ⟨S1700000x1, .f32⟩
  | 127 => ⟨S1700000x64, .f32⟩
  | _ => ⟨S100000x128, .f32⟩

abbrev hbmTy0_1 (i : Nat) : BufTy := match i % 128 with
  | 0 => ⟨S1700000x64, .f32⟩
  | 1 => ⟨S_, .f32⟩
  | 2 => ⟨S100000x64, .f32⟩
  | 3 => ⟨S1700000x1, .i32⟩
  | 4 => ⟨S100000x64, .f32⟩
  | 5 => ⟨S_, .f32⟩
  | 6 => ⟨S64, .f32⟩
  | 7 => ⟨S_, .f32⟩
  | 8 => ⟨S64, .f32⟩
  | 9 => ⟨S64, .f32⟩
  | 10 => ⟨S_, .i32⟩
  | 11 => ⟨S_, .f32⟩
  | 12 => ⟨S64, .f32⟩
  | 13 => ⟨S1x64, .f32⟩
  | 14 => ⟨S_, .f32⟩
  | 15 => ⟨S1x64, .f32⟩
  | 16 => ⟨S1x64, .f32⟩
  | 17 => ⟨S100000x64, .f32⟩
  | 18 => ⟨S100000x64, .f32⟩
  | 19 => ⟨S100000x64, .f32⟩
  | 20 => ⟨S_, .f32⟩
  | 21 => ⟨S_, .f32⟩
  | 22 => ⟨S_, .f32⟩
  | 23 => ⟨S_, .f32⟩
  | 24 => ⟨S64, .f32⟩
  | 25 => ⟨S64, .f32⟩
  | 26 => ⟨S64, .f32⟩
  | 27 => ⟨S_, .f32⟩
  | 28 => ⟨S_, .i1⟩
  | 29 => ⟨S_, .f32⟩
  | 30 => ⟨S_, .f32⟩
  | 31 => ⟨S64, .f32⟩
  | 32 => ⟨S64, .f32⟩
  | 33 => ⟨S1x64, .f32⟩
  | 34 => ⟨S1x64, .f32⟩
  | 35 => ⟨S1x64, .f32⟩
  | 36 => ⟨S1x64, .f32⟩
  | 37 => ⟨S100000x64, .f32⟩
  | 38 => ⟨S64x64, .f32⟩
  | 39 => ⟨S1x64, .f32⟩
  | 40 => ⟨S100000x64, .f32⟩
  | 41 => ⟨S_, .i32⟩
  | 42 => ⟨S1700000, .i32⟩
  | 43 => ⟨S1700000, .i1⟩
  | 44 => ⟨S_, .i32⟩
  | 45 => ⟨S1700000, .i32⟩
  | 46 => ⟨S1700000, .i32⟩
  | 47 => ⟨S1700000, .i32⟩
  | 48 => ⟨S1700000x1, .i32⟩
  | 49 => ⟨S1700000x64, .f32⟩
  | 50 => ⟨S1700000x1, .f32⟩
  | 51 => ⟨S1700000x64, .f32⟩
  | 52 => ⟨S1700000x64, .f32⟩
  | 53 => ⟨S_, .f32⟩
  | 54 => ⟨S100000x64, .f32⟩
  | 55 => ⟨S1700000x1, .i32⟩
  | 56 => ⟨S100000x64, .f32⟩
  | 57 => ⟨S_, .f32⟩
  | 58 => ⟨S64, .f32⟩
  | 59 => ⟨S_, .f32⟩
  | 60 => ⟨S64, .f32⟩
  | 61 => ⟨S64, .f32⟩
  | 62 => ⟨S_, .i32⟩
  | 63 => ⟨S_, .f32⟩
  | 64 => ⟨S64, .f32⟩
  | 65 => ⟨S1x64, .f32⟩
  | 66 => ⟨S_, .f32⟩
  | 67 => ⟨S1x64, .f32⟩
  | 68 => ⟨S1x64, .f32⟩
  | 69 => ⟨S100000x64, .f32⟩
  | 70 => ⟨S100000x64, .f32⟩
  | 71 => ⟨S100000x64, .f32⟩
  | 72 => ⟨S_, .f32⟩
  | 73 => ⟨S_, .f32⟩
  | 74 => ⟨S_, .f32⟩
  | 75 => ⟨S_, .f32⟩
  | 76 => ⟨S64, .f32⟩
  | 77 => ⟨S64, .f32⟩
  | 78 => ⟨S64, .f32⟩
  | 79 => ⟨S_, .f32⟩
  | 80 => ⟨S_, .i1⟩
  | 81 => ⟨S_, .f32⟩
  | 82 => ⟨S_, .f32⟩
  | 83 => ⟨S64, .f32⟩
  | 84 => ⟨S64, .f32⟩
  | 85 => ⟨S1x64, .f32⟩
  | 86 => ⟨S1x64, .f32⟩
  | 87 => ⟨S1x64, .f32⟩
  | 88 => ⟨S1x64, .f32⟩
  | 89 => ⟨S100000x64, .f32⟩
  | 90 => ⟨S_, .f32⟩
  | 91 => ⟨S128x64, .f32⟩
  | 92 => ⟨S100000x1, .i32⟩
  | 93 => ⟨S128x64, .f32⟩
  | 94 => ⟨S64x64, .f32⟩
  | 95 => ⟨S64x10, .f32⟩
  | 96 => ⟨S1x64, .f32⟩
  | 97 => ⟨S1x10, .f32⟩
  | 98 => ⟨S128x10, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S1x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S1x64, .f32⟩
  | .local _ .vmem, ⟨9, _⟩ => ⟨S1x64, .f32⟩
  | .local _ .vmem, ⟨10, _⟩ => ⟨S1x64, .f32⟩
  | .local _ .vmem, ⟨11, _⟩ => ⟨S1x64, .f32⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S64x64, .f32⟩
  | .local _ .vmem, ⟨17, _⟩ => ⟨S1x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S1x64, .f32⟩
  | .local _ .vmem, ⟨23, _⟩ => ⟨S1x64, .f32⟩
  | .local _ .vmem, ⟨24, _⟩ => ⟨S1x64, .f32⟩
  | .local _ .vmem, ⟨25, _⟩ => ⟨S1x64, .f32⟩
  | .local _ .vmem, ⟨26, _⟩ => ⟨S5000x64, .f32⟩
  | .local _ .vmem, ⟨27, _⟩ => ⟨S5000x64, .f32⟩
  | .local _ .vmem, ⟨28, _⟩ => ⟨S5000x64, .f32⟩
  | .local _ .vmem, ⟨29, _⟩ => ⟨S5000x64, .f32⟩
  | .local _ .vmem, ⟨30, _⟩ => ⟨S64x64, .f32⟩
  | .local _ .vmem, ⟨31, _⟩ => ⟨S1x64, .f32⟩
  | .local _ .vmem, ⟨32, _⟩ => ⟨S5000x64, .f32⟩
  | .local _ .vmem, ⟨33, _⟩ => ⟨S5000x64, .f32⟩
  | .local _ .vmem, ⟨34, _⟩ => ⟨S5000x64, .f32⟩
  | .local _ .vmem, ⟨35, _⟩ => ⟨S5000x64, .f32⟩
  | .local _ .vmem, ⟨36, _⟩ => ⟨S1x64, .f32⟩
  | .local _ .vmem, ⟨37, _⟩ => ⟨S1x64, .f32⟩
  | .local _ .vmem, ⟨38, _⟩ => ⟨S1x64, .f32⟩
  | .local _ .vmem, ⟨39, _⟩ => ⟨S1x64, .f32⟩
  | .local _ .vmem, ⟨40, _⟩ => ⟨S5000x64, .f32⟩
  | .local _ .vmem, ⟨41, _⟩ => ⟨S5000x64, .f32⟩
  | .local _ .vmem, ⟨42, _⟩ => ⟨S128x64, .f32⟩
  | .local _ .vmem, ⟨43, _⟩ => ⟨S64x64, .f32⟩
  | .local _ .vmem, ⟨44, _⟩ => ⟨S1x64, .f32⟩
  | .local _ .vmem, ⟨45, _⟩ => ⟨S64x10, .f32⟩
  | .local _ .vmem, ⟨46, _⟩ => ⟨S1x10, .f32⟩
  | .local _ .vmem, ⟨47, _⟩ => ⟨S128x10, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_cst : Ref sig .tc := ⟨.hbm, 26, rfl⟩
abbrev main_v7 : Ref sig .tc := ⟨.hbm, 27, rfl⟩
abbrev main_cst_0 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_c : Ref sig .tc := ⟨.hbm, 32, rfl⟩
abbrev main_v11 : Ref sig .tc := ⟨.hbm, 33, rfl⟩
abbrev main_v12 : Ref sig .tc := ⟨.hbm, 34, rfl⟩
abbrev main_c_1 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_c_2 : Ref sig .tc := ⟨.hbm, 41, rfl⟩
abbrev main_v18 : Ref sig .tc := ⟨.hbm, 42, rfl⟩
abbrev main_v19 : Ref sig .tc := ⟨.hbm, 43, rfl⟩
abbrev main_c_3 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_cst_4 : Ref sig .tc := ⟨.hbm, 51, rfl⟩
abbrev main_v26 : Ref sig .tc := ⟨.hbm, 52, rfl⟩
abbrev main_v27 : Ref sig .tc := ⟨.hbm, 53, rfl⟩
abbrev main_call0_v0 : Ref sig .tc := ⟨.hbm, 54, rfl⟩
abbrev main_call0_cst : Ref sig .tc := ⟨.hbm, 55, rfl⟩
abbrev main_call0_v1 : Ref sig .tc := ⟨.hbm, 56, rfl⟩
abbrev main_v28 : Ref sig .tc := ⟨.hbm, 57, rfl⟩
abbrev main_cst_5 : Ref sig .tc := ⟨.hbm, 58, rfl⟩
abbrev main_call1_v0 : Ref sig .tc := ⟨.hbm, 59, rfl⟩
abbrev main_call1_v1 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_c_6 : Ref sig .tc := ⟨.hbm, 65, rfl⟩
abbrev main_v33 : Ref sig .tc := ⟨.hbm, 66, rfl⟩
abbrev main_v34 : Ref sig .tc := ⟨.hbm, 67, rfl⟩
abbrev main_c_7 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_cst_8 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_cst_9 : Ref sig .tc := ⟨.hbm, 81, rfl⟩
abbrev main_v46 : Ref sig .tc := ⟨.hbm, 82, rfl⟩
abbrev main_cst_10 : Ref sig .tc := ⟨.hbm, 83, rfl⟩
abbrev main_v47 : Ref sig .tc := ⟨.hbm, 84, rfl⟩
abbrev main_v48 : Ref sig .tc := ⟨.hbm, 85, rfl⟩
abbrev main_c_11 : Ref sig .tc := ⟨.hbm, 86, rfl⟩
abbrev main_call2_cst : Ref sig .tc := ⟨.hbm, 87, rfl⟩
abbrev main_call2_v0 : Ref sig .tc := ⟨.hbm, 88, rfl⟩
abbrev main_call2_v1 : Ref sig .tc := ⟨.hbm, 89, rfl⟩
abbrev main_call2_cst_0 : Ref sig .tc := ⟨.hbm, 90, rfl⟩
abbrev main_call2_v2 : Ref sig .tc := ⟨.hbm, 91, rfl⟩
abbrev main_call2_v3 : Ref sig .tc := ⟨.hbm, 92, rfl⟩
abbrev main_call2_v4 : Ref sig .tc := ⟨.hbm, 93, rfl⟩
abbrev main_call2_v5 : Ref sig .tc := ⟨.hbm, 94, rfl⟩
abbrev main_call2_v6 : Ref sig .tc := ⟨.hbm, 95, rfl⟩
abbrev main_call2_v7 : Ref sig .tc := ⟨.hbm, 96, rfl⟩
abbrev main_call2_cst_1 : Ref sig .tc := ⟨.hbm, 97, rfl⟩
abbrev main_call2_v8 : Ref sig .tc := ⟨.hbm, 98, rfl⟩
abbrev main_call2_cst_2 : Ref sig .tc := ⟨.hbm, 99, rfl⟩
abbrev main_call2_v9 : Ref sig .tc := ⟨.hbm, 100, rfl⟩
abbrev main_call2_v10 : Ref sig .tc := ⟨.hbm, 101, rfl⟩
abbrev main_call2_v11 : Ref sig .tc := ⟨.hbm, 102, rfl⟩
abbrev main_call2_cst_3 : Ref sig .tc := ⟨.hbm, 103, rfl⟩
abbrev main_call2_v12 : Ref sig .tc := ⟨.hbm, 104, rfl⟩
abbrev main_call2_cst_4 : Ref sig .tc := ⟨.hbm, 105, rfl⟩
abbrev main_call2_call0_v0 : Ref sig .tc := ⟨.hbm, 106, rfl⟩
abbrev main_call2_call0_v1 : Ref sig .tc := ⟨.hbm, 107, rfl⟩
abbrev main_v49 : Ref sig .tc := ⟨.hbm, 108, rfl⟩
abbrev main_v50 : Ref sig .tc := ⟨.hbm, 109, rfl⟩
abbrev main_v51 : Ref sig .tc := ⟨.hbm, 110, rfl⟩
abbrev main_v52 : Ref sig .tc := ⟨.hbm, 111, rfl⟩
abbrev main_v53 : Ref sig .tc := ⟨.hbm, 112, rfl⟩
abbrev main_v54 : Ref sig .tc := ⟨.hbm, 113, rfl⟩
abbrev main_v55 : Ref sig .tc := ⟨.hbm, 114, rfl⟩
abbrev main_v56 : Ref sig .tc := ⟨.hbm, 115, rfl⟩
abbrev main_v57 : Ref sig .tc := ⟨.hbm, 116, rfl⟩
abbrev main_c_12 : Ref sig .tc := ⟨.hbm, 117, rfl⟩
abbrev main_v58 : Ref sig .tc := ⟨.hbm, 118, rfl⟩
abbrev main_v59 : Ref sig .tc := ⟨.hbm, 119, rfl⟩
abbrev main_c_13 : Ref sig .tc := ⟨.hbm, 120, rfl⟩
abbrev main_v60 : Ref sig .tc := ⟨.hbm, 121, rfl⟩
abbrev main_v61 : Ref sig .tc := ⟨.hbm, 122, rfl⟩
abbrev main_v62 : Ref sig .tc := ⟨.hbm, 123, rfl⟩
abbrev main_v63 : Ref sig .tc := ⟨.hbm, 124, rfl⟩
abbrev main_v64 : Ref sig .tc := ⟨.hbm, 125, rfl⟩
abbrev main_v65 : Ref sig .tc := ⟨.hbm, 126, rfl⟩
abbrev main_v66 : Ref sig .tc := ⟨.hbm, 127, rfl⟩
abbrev main_v67 : Ref sig .tc := ⟨.hbm, 128, rfl⟩
abbrev main_cst_14 : Ref sig .tc := ⟨.hbm, 129, rfl⟩
abbrev main_v68 : Ref sig .tc := ⟨.hbm, 130, rfl⟩
abbrev main_v69 : Ref sig .tc := ⟨.hbm, 131, rfl⟩
abbrev main_v70 : Ref sig .tc := ⟨.hbm, 132, rfl⟩
abbrev main_cst_15 : Ref sig .tc := ⟨.hbm, 133, rfl⟩
abbrev main_v71 : Ref sig .tc := ⟨.hbm, 134, rfl⟩
abbrev main_cst_16 : Ref sig .tc := ⟨.hbm, 135, rfl⟩
abbrev main_v72 : Ref sig .tc := ⟨.hbm, 136, rfl⟩
abbrev main_v73 : Ref sig .tc := ⟨.hbm, 137, rfl⟩
abbrev main_c_17 : Ref sig .tc := ⟨.hbm, 138, rfl⟩
abbrev main_call3_cst : Ref sig .tc := ⟨.hbm, 139, rfl⟩
abbrev main_call3_v0 : Ref sig .tc := ⟨.hbm, 140, rfl⟩
abbrev main_call3_v1 : Ref sig .tc := ⟨.hbm, 141, rfl⟩
abbrev main_call3_cst_0 : Ref sig .tc := ⟨.hbm, 142, rfl⟩
abbrev main_call3_v2 : Ref sig .tc := ⟨.hbm, 143, rfl⟩
abbrev main_call3_v3 : Ref sig .tc := ⟨.hbm, 144, rfl⟩
abbrev main_call3_v4 : Ref sig .tc := ⟨.hbm, 145, rfl⟩
abbrev main_call3_v5 : Ref sig .tc := ⟨.hbm, 146, rfl⟩
abbrev main_call3_v6 : Ref sig .tc := ⟨.hbm, 147, rfl⟩
abbrev main_call3_v7 : Ref sig .tc := ⟨.hbm, 148, rfl⟩
abbrev main_call3_cst_1 : Ref sig .tc := ⟨.hbm, 149, rfl⟩
abbrev main_call3_v8 : Ref sig .tc := ⟨.hbm, 150, rfl⟩
abbrev main_call3_cst_2 : Ref sig .tc := ⟨.hbm, 151, rfl⟩
abbrev main_call3_v9 : Ref sig .tc := ⟨.hbm, 152, rfl⟩
abbrev main_call3_v10 : Ref sig .tc := ⟨.hbm, 153, rfl⟩
abbrev main_call3_v11 : Ref sig .tc := ⟨.hbm, 154, rfl⟩
abbrev main_call3_cst_3 : Ref sig .tc := ⟨.hbm, 155, rfl⟩
abbrev main_call3_v12 : Ref sig .tc := ⟨.hbm, 156, rfl⟩
abbrev main_call3_cst_4 : Ref sig .tc := ⟨.hbm, 157, rfl⟩
abbrev main_call3_call0_v0 : Ref sig .tc := ⟨.hbm, 158, rfl⟩
abbrev main_call3_call0_v1 : Ref sig .tc := ⟨.hbm, 159, rfl⟩
abbrev main_v74 : Ref sig .tc := ⟨.hbm, 160, rfl⟩
abbrev main_v75 : Ref sig .tc := ⟨.hbm, 161, rfl⟩
abbrev main_v76 : Ref sig .tc := ⟨.hbm, 162, rfl⟩
abbrev main_v77 : Ref sig .tc := ⟨.hbm, 163, rfl⟩
abbrev main_v78 : Ref sig .tc := ⟨.hbm, 164, rfl⟩
abbrev main_v79 : Ref sig .tc := ⟨.hbm, 165, rfl⟩
abbrev main_v80 : Ref sig .tc := ⟨.hbm, 166, rfl⟩
abbrev main_v81 : Ref sig .tc := ⟨.hbm, 167, rfl⟩
abbrev main_v82 : Ref sig .tc := ⟨.hbm, 168, rfl⟩
abbrev main_c_18 : Ref sig .tc := ⟨.hbm, 169, rfl⟩
abbrev main_v83 : Ref sig .tc := ⟨.hbm, 170, rfl⟩
abbrev main_v84 : Ref sig .tc := ⟨.hbm, 171, rfl⟩
abbrev main_c_19 : Ref sig .tc := ⟨.hbm, 172, rfl⟩
abbrev main_v85 : Ref sig .tc := ⟨.hbm, 173, rfl⟩
abbrev main_v86 : Ref sig .tc := ⟨.hbm, 174, rfl⟩
abbrev main_v87 : Ref sig .tc := ⟨.hbm, 175, rfl⟩
abbrev main_v88 : Ref sig .tc := ⟨.hbm, 176, rfl⟩
abbrev main_v89 : Ref sig .tc := ⟨.hbm, 177, rfl⟩
abbrev main_v90 : Ref sig .tc := ⟨.hbm, 178, rfl⟩
abbrev main_v91 : Ref sig .tc := ⟨.hbm, 179, rfl⟩
abbrev main_v92 : Ref sig .tc := ⟨.hbm, 180, rfl⟩
abbrev main_cst_20 : Ref sig .tc := ⟨.hbm, 181, rfl⟩
abbrev main_v93 : Ref sig .tc := ⟨.hbm, 182, rfl⟩
abbrev main_v94 : Ref sig .tc := ⟨.hbm, 183, rfl⟩
abbrev main_v95 : Ref sig .tc := ⟨.hbm, 184, rfl⟩
abbrev main_cst_21 : Ref sig .tc := ⟨.hbm, 185, rfl⟩
abbrev main_v96 : Ref sig .tc := ⟨.hbm, 186, rfl⟩
abbrev main_cst_22 : Ref sig .tc := ⟨.hbm, 187, rfl⟩
abbrev main_v97 : Ref sig .tc := ⟨.hbm, 188, rfl⟩
abbrev main_v98 : Ref sig .tc := ⟨.hbm, 189, rfl⟩
abbrev main_c_23 : Ref sig .tc := ⟨.hbm, 190, rfl⟩
abbrev main_call4_cst : Ref sig .tc := ⟨.hbm, 191, rfl⟩
abbrev main_call4_v0 : Ref sig .tc := ⟨.hbm, 192, rfl⟩
abbrev main_call4_v1 : Ref sig .tc := ⟨.hbm, 193, rfl⟩
abbrev main_call4_cst_0 : Ref sig .tc := ⟨.hbm, 194, rfl⟩
abbrev main_call4_v2 : Ref sig .tc := ⟨.hbm, 195, rfl⟩
abbrev main_call4_v3 : Ref sig .tc := ⟨.hbm, 196, rfl⟩
abbrev main_call4_v4 : Ref sig .tc := ⟨.hbm, 197, rfl⟩
abbrev main_call4_v5 : Ref sig .tc := ⟨.hbm, 198, rfl⟩
abbrev main_call4_v6 : Ref sig .tc := ⟨.hbm, 199, rfl⟩
abbrev main_call4_v7 : Ref sig .tc := ⟨.hbm, 200, rfl⟩
abbrev main_call4_cst_1 : Ref sig .tc := ⟨.hbm, 201, rfl⟩
abbrev main_call4_v8 : Ref sig .tc := ⟨.hbm, 202, rfl⟩
abbrev main_call4_cst_2 : Ref sig .tc := ⟨.hbm, 203, rfl⟩
abbrev main_call4_v9 : Ref sig .tc := ⟨.hbm, 204, rfl⟩
abbrev main_call4_v10 : Ref sig .tc := ⟨.hbm, 205, rfl⟩
abbrev main_call4_v11 : Ref sig .tc := ⟨.hbm, 206, rfl⟩
abbrev main_call4_cst_3 : Ref sig .tc := ⟨.hbm, 207, rfl⟩
abbrev main_call4_v12 : Ref sig .tc := ⟨.hbm, 208, rfl⟩
abbrev main_call4_cst_4 : Ref sig .tc := ⟨.hbm, 209, rfl⟩
abbrev main_call4_call0_v0 : Ref sig .tc := ⟨.hbm, 210, rfl⟩
abbrev main_call4_call0_v1 : Ref sig .tc := ⟨.hbm, 211, rfl⟩
abbrev main_v99 : Ref sig .tc := ⟨.hbm, 212, rfl⟩
abbrev main_v100 : Ref sig .tc := ⟨.hbm, 213, rfl⟩
abbrev main_v101 : Ref sig .tc := ⟨.hbm, 214, rfl⟩
abbrev main_v102 : Ref sig .tc := ⟨.hbm, 215, rfl⟩
abbrev main_v103 : Ref sig .tc := ⟨.hbm, 216, rfl⟩
abbrev main_v104 : Ref sig .tc := ⟨.hbm, 217, rfl⟩
abbrev main_cst_24 : Ref sig .tc := ⟨.hbm, 218, rfl⟩
abbrev main_v105 : Ref sig .tc := ⟨.hbm, 219, rfl⟩
abbrev main_v106 : Ref sig .tc := ⟨.hbm, 220, rfl⟩
abbrev main_v107 : Ref sig .tc := ⟨.hbm, 221, rfl⟩
abbrev main_v108 : Ref sig .tc := ⟨.hbm, 222, rfl⟩
abbrev main_v109 : Ref sig .tc := ⟨.hbm, 223, rfl⟩
abbrev main_v110 : Ref sig .tc := ⟨.hbm, 224, rfl⟩
abbrev main_v111 : Ref sig .tc := ⟨.hbm, 225, rfl⟩
abbrev main_v112 : Ref sig .tc := ⟨.hbm, 226, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg5_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg3_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg2_0 : Ref sig .tc := ⟨.vmem, 23, rfl⟩
abbrev cc3_stg3_0 : Ref sig .tc := ⟨.vmem, 24, rfl⟩
abbrev cc3_stg4_0 : Ref sig .tc := ⟨.vmem, 25, rfl⟩
abbrev cc3_stg5_0 : Ref sig .tc := ⟨.vmem, 26, rfl⟩
abbrev cc3_stg5_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg3_0 : Ref sig .tc := ⟨.vmem, 32, rfl⟩
abbrev cc4_stg3_1 : Ref sig .tc := ⟨.vmem, 33, rfl⟩
abbrev cc5_stg0_0 : Ref sig .tc := ⟨.vmem, 34, rfl⟩
abbrev cc5_stg0_1 : Ref sig .tc := ⟨.vmem, 35, rfl⟩
abbrev cc5_stg1_0 : Ref sig .tc := ⟨.vmem, 36, rfl⟩
abbrev cc5_stg2_0 : Ref sig .tc := ⟨.vmem, 37, rfl⟩
abbrev cc5_stg3_0 : Ref sig .tc := ⟨.vmem, 38, rfl⟩
abbrev cc5_stg4_0 : Ref sig .tc := ⟨.vmem, 39, rfl⟩
abbrev cc5_stg5_0 : Ref sig .tc := ⟨.vmem, 40, rfl⟩
abbrev cc5_stg5_1 : Ref sig .tc := ⟨.vmem, 41, rfl⟩
abbrev cc6_stg0_0 : Ref sig .tc := ⟨.vmem, 42, rfl⟩
abbrev cc6_stg1_0 : Ref sig .tc := ⟨.vmem, 43, rfl⟩
abbrev cc6_stg2_0 : Ref sig .tc := ⟨.vmem, 44, rfl⟩
abbrev cc6_stg3_0 : Ref sig .tc := ⟨.vmem, 45, rfl⟩
abbrev cc6_stg4_0 : Ref sig .tc := ⟨.vmem, 46, rfl⟩
abbrev cc6_stg5_0 : Ref sig .tc := ⟨.vmem, 47, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem5_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem3_0 : DmaSem sig := 18
abbrev cc2_sem3_1 : DmaSem sig := 19
abbrev cc3_sem0_0 : DmaSem sig := 20
abbrev cc3_sem0_1 : DmaSem sig := 21
abbrev cc3_sem1_0 : DmaSem sig := 22
abbrev cc3_sem2_0 : DmaSem sig := 23
abbrev cc3_sem3_0 : DmaSem sig := 24
abbrev cc3_sem4_0 : DmaSem sig := 25
abbrev cc3_sem5_0 : DmaSem sig := 26
abbrev cc3_sem5_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem3_0 : DmaSem sig := 32
abbrev cc4_sem3_1 : DmaSem sig := 33
abbrev cc5_sem0_0 : DmaSem sig := 34
abbrev cc5_sem0_1 : DmaSem sig := 35
abbrev cc5_sem1_0 : DmaSem sig := 36
abbrev cc5_sem2_0 : DmaSem sig := 37
abbrev cc5_sem3_0 : DmaSem sig := 38
abbrev cc5_sem4_0 : DmaSem sig := 39
abbrev cc5_sem5_0 : DmaSem sig := 40
abbrev cc5_sem5_1 : DmaSem sig := 41
abbrev cc6_sem0_0 : DmaSem sig := 42
abbrev cc6_sem1_0 : DmaSem sig := 43
abbrev cc6_sem2_0 : DmaSem sig := 44
abbrev cc6_sem3_0 : DmaSem sig := 45
abbrev cc6_sem4_0 : DmaSem sig := 46
abbrev cc6_sem5_0 : DmaSem sig := 47

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S5000x64 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x64 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S5000x64 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![1], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 1 → Memref sig .tc .vmem S128x64 .f32 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![false]

abbrev stage6_1 : Fin 1 → Memref sig .tc .vmem S64x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S64x10 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x10 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S128x10 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  transposes_S64x128_S128x64_1_0 : S64x128.Transposes [1, 0] S128x64
  shapeCasts_S64_S1x64 : S64.ShapeCasts S1x64
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  reducesTo_S100000x64_S64_d0 : S100000x64.ReducesTo [0] S64
  h_S_ : 0 < S_.numel
  bcast_S_S64 : S_.BroadcastsInDim S64 (![] : Fin 0 → Fin S64.rank)
  bcast_S64_S1x64_1 : S64.BroadcastsInDim S1x64 (![1] : Fin 1 → Fin S1x64.rank)
  bcast_S_S1x64 : S_.BroadcastsInDim S1x64 (![] : Fin 0 → Fin S1x64.rank)
  bcast_S1x64_S100000x64_0_1 : S1x64.BroadcastsInDim S100000x64 (![0, 1] : Fin 2 → Fin S100000x64.rank)
  shapeCasts_S5000x64_S5000x64 : S5000x64.ShapeCasts S5000x64
  transposes_S64x64_S64x64_1_0 : S64x64.Transposes [1, 0] S64x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  bcast_S_S128x64 : S_.BroadcastsInDim S128x64 (![] : Fin 0 → Fin S128x64.rank)
  bcast_S100000_S100000x1_0 : S100000.BroadcastsInDim S100000x1 (![0] : Fin 1 → Fin S100000x1.rank)
  transposes_S10x64_S64x10_1_0 : S10x64.Transposes [1, 0] S64x10
  shapeCasts_S10_S1x10 : S10.ShapeCasts S1x10
  broadcasts_S1x64_S128x64 : S1x64.Broadcasts S128x64
  inb_S64x10_S64x10_0_0 : ∀ a, (![0, 0] : Fin 2 → Nat) a + S64x10.size a ≤ S64x10.size a
  h_S64x10 : 0 < S64x10.numel
  shapeCasts_S64x10_S64x10 : S64x10.ShapeCasts S64x10
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S128x10 : S1x10.Broadcasts S128x10
  inb_S128x10_S128x10_0_0 : ∀ a, (![0, 0] : Fin 2 → Nat) a + S128x10.size a ≤ S128x10.size a
  h_S128x10 : 0 < S128x10.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x128_S128x64_S5000x64_1_0_0_1_n_n_wf : DotDims.WF S5000x128 S128x64 S5000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S5000x64_S64x64_S5000x64_1_0_0_1_n_n_wf : DotDims.WF S5000x64 S64x64 S5000x64 [1] [0] [0] [1] [] []
  scatter_S128x64_S100000x1_S100000x64_1_0_0_1_wf : ScatterDims.WF S128x64 S100000x1 S100000x64 [1] [0] [0] 1
  dot_S128x64_S64x64_S128x64_1_0_0_1_n_n_wf : DotDims.WF S128x64 S64x64 S128x64 [1] [0] [0] [1] [] []
  dot_S128x64_S64x10_S128x10_1_0_0_1_n_n_wf : DotDims.WF S128x64 S64x10 S128x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S100000x64.size a
  hwx0_3 : ∀ i : grid0.Coords, EltTy.bits .f32 = 32 ∨ (Rect.block (s := S100000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S100000x64.size a
  hwx1_5 : ∀ i : grid1.Coords, EltTy.bits .f32 = 32 ∨ (Rect.block (s := S100000x64) S5000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x64.size a ≤ S100000x64.size a
  hwx2_3 : ∀ i : grid2.Coords, EltTy.bits .f32 = 32 ∨ (Rect.block (s := S100000x64) S5000x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x64.size a ≤ S100000x64.size a
  hwx3_5 : ∀ i : grid3.Coords, EltTy.bits .f32 = 32 ∨ (Rect.block (s := S100000x64) S5000x64.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S100000x64.size a
  hwx4_0 : ∀ i : grid4.Coords, EltTy.bits .f32 = 32 ∨ (Rect.block (s := S100000x64) S5000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x64.size a ≤ S64x64.size a
  hwx4_1 : ∀ i : grid4.Coords, EltTy.bits .f32 = 32 ∨ (Rect.block (s := S64x64) S64x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x64.size a ≤ S1x64.size a
  hwx4_2 : ∀ i : grid4.Coords, EltTy.bits .f32 = 32 ∨ (Rect.block (s := S1x64) S1x64.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x64.size a ≤ S100000x64.size a
  hwx4_3 : ∀ i : grid4.Coords, EltTy.bits .f32 = 32 ∨ (Rect.block (s := S100000x64) S5000x64.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S100000x64.size a
  hwx5_0 : ∀ i : grid5.Coords, EltTy.bits .f32 = 32 ∨ (Rect.block (s := S100000x64) S5000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x64.size a ≤ S1x64.size a
  hwx5_1 : ∀ i : grid5.Coords, EltTy.bits .f32 = 32 ∨ (Rect.block (s := S1x64) S1x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x64.size a ≤ S1x64.size a
  hwx5_2 : ∀ i : grid5.Coords, EltTy.bits .f32 = 32 ∨ (Rect.block (s := S1x64) S1x64.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x64.size a ≤ S1x64.size a
  hwx5_3 : ∀ i : grid5.Coords, EltTy.bits .f32 = 32 ∨ (Rect.block (s := S1x64) S1x64.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x64.size a ≤ S1x64.size a
  hwx5_4 : ∀ i : grid5.Coords, EltTy.bits .f32 = 32 ∨ (Rect.block (s := S1x64) S1x64.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S5000x64.size a ≤ S100000x64.size a
  hwx5_5 : ∀ i : grid5.Coords, EltTy.bits .f32 = 32 ∨ (Rect.block (s := S100000x64) S5000x64.size (cc5_transform_5 i) (hinb5_5 i)).WholeWords (EltTy.packing .f32)
  hrank6 : 0 < grid6.rank
  hstage6_0 : ∀ j, (stage6_0 j).IsWhole
  nbuf6_0 : grid6.bufCount reads6_0 true = 1
  hreads6_0 : ∀ i i' : grid6.Coords, (∀ a, reads6_0 a = true → i a = i' a) → cc6_transform_0 i = cc6_transform_0 i'
  hinb6_0 : ∀ (i : grid6.Coords) a, (cc6_transform_0 i a + 1) * S128x64.size a ≤ S128x64.size a
  hwx6_0 : ∀ i : grid6.Coords, EltTy.bits .f32 = 32 ∨ (Rect.block (s := S128x64) S128x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S64x64.size a ≤ S64x64.size a
  hwx6_1 : ∀ i : grid6.Coords, EltTy.bits .f32 = 32 ∨ (Rect.block (s := S64x64) S64x64.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x64.size a ≤ S1x64.size a
  hwx6_2 : ∀ i : grid6.Coords, EltTy.bits .f32 = 32 ∨ (Rect.block (s := S1x64) S1x64.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S64x10.size a ≤ S64x10.size a
  hwx6_3 : ∀ i : grid6.Coords, EltTy.bits .f32 = 32 ∨ (Rect.block (s := S64x10) S64x10.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x10.size a ≤ S1x10.size a
  hwx6_4 : ∀ i : grid6.Coords, EltTy.bits .f32 = 32 ∨ (Rect.block (s := S1x10) S1x10.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S128x10.size a ≤ S128x10.size a
  hwx6_5 : ∀ i : grid6.Coords, EltTy.bits .f32 = 32 ∨ (Rect.block (s := S128x10) S128x10.size (cc6_transform_5 i) (hinb6_5 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def scatter_S128x64_S100000x1_S100000x64_1_0_0_1 : ScatterDims S128x64 S100000x1 S100000x64 where
  updateWindowDims := [1]
  insertedWindowDims := [0]
  scatterDimsToOperandDims := [0]
  indexVectorDim := 1
  wf := scatter_S128x64_S100000x1_S100000x64_1_0_0_1_wf
def dot_S128x64_S64x64_S128x64_1_0_0_1_n_n : DotDims S128x64 S64x64 S128x64 where
  lhsContracting := [1]
  rhsContracting := [0]
  lhsNonContracting := [0]
  rhsNonContracting := [1]
  lhsBatch := []
  rhsBatch := []
  wf := dot_S128x64_S64x64_S128x64_1_0_0_1_n_n_wf
def dot_S128x64_S64x10_S128x10_1_0_0_1_n_n : DotDims S128x64 S64x10 S128x10 where
  lhsContracting := [1]
  rhsContracting := [0]
  lhsNonContracting := [0]
  rhsNonContracting := [1]
  lhsBatch := []
  rhsBatch := []
  wf := dot_S128x64_S64x10_S128x10_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v30) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v32) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v45) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v50) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v51) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v52) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v53) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v54) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v54) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v55) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v56) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v57) S5000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v70) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v75) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v76) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v77) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v78) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v79) S5000x64.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v79) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v80) S64x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v81) S1x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v82) S5000x64.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v95) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v100) S1x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v101) S1x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v102) S1x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v103) S1x64.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v104) S5000x64.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v107) S128x64.size cc6_transform_0 reads6_0 false true 1 stage6_0 sem6_0
    hrank6 hreads6_0 hinb6_0 nbuf6_0 (Memref.isWhole_whole _) hwx6_0 hstage6_0

abbrev win6_1 : Pipeline.Window sig grid6 :=
  Pipeline.Window.ofSpec (Memref.whole main_v108) S64x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v110) S1x64.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v109) S64x10.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v111) S1x10.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v112) S128x10.size cc6_transform_5 reads6_5 true true 1 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S100000 : Shape := ⟨1, ![100000]⟩
abbrev S64x128 : Shape := ⟨2, ![64, 128]⟩
abbrev S64 : Shape := ⟨1, ![64]⟩
abbrev S64x64 : Shape := ⟨2, ![64, 64]⟩
abbrev S10x64 : Shape := ⟨2, ![10, 64]⟩
abbrev S10 : Shape := ⟨1, ![10]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S128x64 : Shape := ⟨2, ![128, 64]⟩
abbrev S100000x64 : Shape := ⟨2, ![100000, 64]⟩
abbrev S1x64 : Shape := ⟨2, ![1, 64]⟩
abbrev S1700000x64 : Shape := ⟨2, ![1700000, 64]⟩
abbrev S100000x1 : Shape := ⟨2, ![100000, 1]⟩
abbrev S64x10 : Shape := ⟨2, ![64, 10]⟩
abbrev S128x10 : Shape := ⟨2, ![128, 10]⟩
abbrev S1x10 : Shape := ⟨2, ![1, 10]⟩

abbrev nBuf : Space → Nat
  | .hbm => 283
  | .vmem => 0
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S64x128, .f32⟩
  | 4 => ⟨S64, .f32⟩
  | 5 => ⟨S64, .f32⟩
  | 6 => ⟨S64, .f32⟩
  | 7 => ⟨S64x64, .f32⟩
  | 8 => ⟨S64, .f32⟩
  | 9 => ⟨S64, .f32⟩
  | 10 => ⟨S64, .f32⟩
  | 11 => ⟨S64x64, .f32⟩
  | 12 => ⟨S64, .f32⟩
  | 13 => ⟨S64, .f32⟩
  | 14 => ⟨S64, .f32⟩
  | 15 => ⟨S64x64, .f32⟩
  | 16 => ⟨S64, .f32⟩
  | 17 => ⟨S10x64, .f32⟩
  | 18 => ⟨S10, .f32⟩
  | 19 => ⟨S1x1600000, .i32⟩
  | 20 => ⟨S1600000, .i32⟩
  | 21 => ⟨S1x1600000, .i32⟩
  | 22 => ⟨S1600000, .i32⟩
  | 23 => ⟨S100000, .i32⟩
  | 24 => ⟨S1700000, .i32⟩
  | 25 => ⟨S1700000, .i32⟩
  | 26 => ⟨S_, .f32⟩
  | 27 => ⟨S1700000, .f32⟩
  | 28 => ⟨S_, .f32⟩
  | 29 => ⟨S100000, .f32⟩
  | 30 => ⟨S1700000x1, .i32⟩
  | 31 => ⟨S100000, .f32⟩
  | 32 => ⟨S_, .i32⟩
  | 33 => ⟨S1700000, .i32⟩
  | 34 => ⟨S1700000, .i1⟩
  | 35 => ⟨S_, .i32⟩
  | 36 => ⟨S1700000, .i32⟩
  | 37 => ⟨S1700000, .i32⟩
  | 38 => ⟨S1700000, .i32⟩
  | 39 => ⟨S1700000x1, .i32⟩
  | 40 => ⟨S1700000, .f32⟩
  | 41 => ⟨S_, .i32⟩
  | 42 => ⟨S1700000, .i32⟩
  | 43 => ⟨S1700000, .i1⟩
  | 44 => ⟨S_, .i32⟩
  | 45 => ⟨S1700000, .i32⟩
  | 46 => ⟨S1700000, .i32⟩
  | 47 => ⟨S1700000, .i32⟩
  | 48 => ⟨S1700000x1, .i32⟩
  | 49 => ⟨S1700000, .f32⟩
  | 50 => ⟨S1700000, .f32⟩
  | 51 => ⟨S_, .f32⟩
  | 52 => ⟨S1700000, .f32⟩
  | 53 => ⟨S1700000, .f32⟩
  | 54 => ⟨S1700000, .f32⟩
  | 55 => ⟨S_, .f32⟩
  | 56 => ⟨S1700000, .f32⟩
  | 57 => ⟨S1700000, .i1⟩
  | 58 => ⟨S_, .f32⟩
  | 59 => ⟨S_, .f32⟩
  | 60 => ⟨S1700000, .f32⟩
  | 61 => ⟨S1700000, .f32⟩
  | 62 => ⟨S128x64, .f32⟩
  | 63 => ⟨S100000x64, .f32⟩
  | 64 => ⟨S1x64, .f32⟩
  | 65 => ⟨S100000x64, .f32⟩
  | 66 => ⟨S100000x64, .f32⟩
  | 67 => ⟨S_, .i32⟩
  | 68 => ⟨S1700000, .i32⟩
  | 69 => ⟨S1700000, .i1⟩
  | 70 => ⟨S_, .i32⟩
  | 71 => ⟨S1700000, .i32⟩
  | 72 => ⟨S1700000, .i32⟩
  | 73 => ⟨S1700000, .i32⟩
  | 74 => ⟨S1700000x1, .i32⟩
  | 75 => ⟨S1700000x64, .f32⟩
  | 76 => ⟨S1700000x1, .f32⟩
  | 77 => ⟨S1700000x64, .f32⟩
  | 78 => ⟨S1700000x64, .f32⟩
  | 79 => ⟨S_, .f32⟩
  | 80 => ⟨S100000x64, .f32⟩
  | 81 => ⟨S1700000x1, .i32⟩
  | 82 => ⟨S100000x64, .f32⟩
  | 83 => ⟨S_, .f32⟩
  | 84 => ⟨S64, .f32⟩
  | 85 => ⟨S_, .f32⟩
  | 86 => ⟨S64, .f32⟩
  | 87 => ⟨S64, .f32⟩
  | 88 => ⟨S_, .i32⟩
  | 89 => ⟨S_, .f32⟩
  | 90 => ⟨S64, .f32⟩
  | 91 => ⟨S1x64, .f32⟩
  | 92 => ⟨S_, .f32⟩
  | 93 => ⟨S1x64, .f32⟩
  | 94 => ⟨S1x64, .f32⟩
  | 95 => ⟨S100000x64, .f32⟩
  | 96 => ⟨S100000x64, .f32⟩
  | 97 => ⟨S100000x64, .f32⟩
  | 98 => ⟨S_, .f32⟩
  | 99 => ⟨S_, .f32⟩
  | 100 => ⟨S_, .f32⟩
  | 101 => ⟨S_, .f32⟩
  | 102 => ⟨S64, .f32⟩
  | 103 => ⟨S64, .f32⟩
  | 104 => ⟨S64, .f32⟩
  | 105 => ⟨S_, .f32⟩
  | 106 => ⟨S_, .i1⟩
  | 107 => ⟨S_, .f32⟩
  | 108 => ⟨S_, .f32⟩
  | 109 => ⟨S64, .f32⟩
  | 110 => ⟨S64, .f32⟩
  | 111 => ⟨S1x64, .f32⟩
  | 112 => ⟨S100000x64, .f32⟩
  | 113 => ⟨S100000x64, .f32⟩
  | 114 => ⟨S1x64, .f32⟩
  | 115 => ⟨S100000x64, .f32⟩
  | 116 => ⟨S100000x64, .f32⟩
  | 117 => ⟨S_, .f32⟩
  | 118 => ⟨S64, .f32⟩
  | 119 => ⟨S64, .f32⟩
  | 120 => ⟨S64, .f32⟩
  | 121 => ⟨S1x64, .f32⟩
  | 122 => ⟨S100000x64, .f32⟩
  | 123 => ⟨S100000x64, .f32⟩
  | 124 => ⟨S1x64, .f32⟩
  | 125 => ⟨S100000x64, .f32⟩
  | 126 => ⟨S100000x64, .f32⟩
  | 127 => ⟨S_, .f32⟩
  | _ => ⟨S100000x128, .f32⟩

abbrev hbmTy0_1 (i : Nat) : BufTy := match i % 128 with
  | 0 => ⟨S100000x64, .f32⟩
  | 1 => ⟨S100000x64, .f32⟩
  | 2 => ⟨S64x64, .f32⟩
  | 3 => ⟨S100000x64, .f32⟩
  | 4 => ⟨S1x64, .f32⟩
  | 5 => ⟨S100000x64, .f32⟩
  | 6 => ⟨S100000x64, .f32⟩
  | 7 => ⟨S_, .i32⟩
  | 8 => ⟨S1700000, .i32⟩
  | 9 => ⟨S1700000, .i1⟩
  | 10 => ⟨S_, .i32⟩
  | 11 => ⟨S1700000, .i32⟩
  | 12 => ⟨S1700000, .i32⟩
  | 13 => ⟨S1700000, .i32⟩
  | 14 => ⟨S1700000x1, .i32⟩
  | 15 => ⟨S1700000x64, .f32⟩
  | 16 => ⟨S1700000x1, .f32⟩
  | 17 => ⟨S1700000x64, .f32⟩
  | 18 => ⟨S1700000x64, .f32⟩
  | 19 => ⟨S_, .f32⟩
  | 20 => ⟨S100000x64, .f32⟩
  | 21 => ⟨S1700000x1, .i32⟩
  | 22 => ⟨S100000x64, .f32⟩
  | 23 => ⟨S_, .f32⟩
  | 24 => ⟨S64, .f32⟩
  | 25 => ⟨S_, .f32⟩
  | 26 => ⟨S64, .f32⟩
  | 27 => ⟨S64, .f32⟩
  | 28 => ⟨S_, .i32⟩
  | 29 => ⟨S_, .f32⟩
  | 30 => ⟨S64, .f32⟩
  | 31 => ⟨S1x64, .f32⟩
  | 32 => ⟨S_, .f32⟩
  | 33 => ⟨S1x64, .f32⟩
  | 34 => ⟨S1x64, .f32⟩
  | 35 => ⟨S100000x64, .f32⟩
  | 36 => ⟨S100000x64, .f32⟩
  | 37 => ⟨S100000x64, .f32⟩
  | 38 => ⟨S_, .f32⟩
  | 39 => ⟨S_, .f32⟩
  | 40 => ⟨S_, .f32⟩
  | 41 => ⟨S_, .f32⟩
  | 42 => ⟨S64, .f32⟩
  | 43 => ⟨S64, .f32⟩
  | 44 => ⟨S64, .f32⟩
  | 45 => ⟨S_, .f32⟩
  | 46 => ⟨S_, .i1⟩
  | 47 => ⟨S_, .f32⟩
  | 48 => ⟨S_, .f32⟩
  | 49 => ⟨S64, .f32⟩
  | 50 => ⟨S64, .f32⟩
  | 51 => ⟨S1x64, .f32⟩
  | 52 => ⟨S100000x64, .f32⟩
  | 53 => ⟨S100000x64, .f32⟩
  | 54 => ⟨S1x64, .f32⟩
  | 55 => ⟨S100000x64, .f32⟩
  | 56 => ⟨S100000x64, .f32⟩
  | 57 => ⟨S_, .f32⟩
  | 58 => ⟨S64, .f32⟩
  | 59 => ⟨S64, .f32⟩
  | 60 => ⟨S64, .f32⟩
  | 61 => ⟨S1x64, .f32⟩
  | 62 => ⟨S100000x64, .f32⟩
  | 63 => ⟨S100000x64, .f32⟩
  | 64 => ⟨S1x64, .f32⟩
  | 65 => ⟨S100000x64, .f32⟩
  | 66 => ⟨S100000x64, .f32⟩
  | 67 => ⟨S_, .f32⟩
  | 68 => ⟨S100000x64, .f32⟩
  | 69 => ⟨S100000x64, .f32⟩
  | 70 => ⟨S64x64, .f32⟩
  | 71 => ⟨S100000x64, .f32⟩
  | 72 => ⟨S1x64, .f32⟩
  | 73 => ⟨S100000x64, .f32⟩
  | 74 => ⟨S100000x64, .f32⟩
  | 75 => ⟨S_, .i32⟩
  | 76 => ⟨S1700000, .i32⟩
  | 77 => ⟨S1700000, .i1⟩
  | 78 => ⟨S_, .i32⟩
  | 79 => ⟨S1700000, .i32⟩
  | 80 => ⟨S1700000, .i32⟩
  | 81 => ⟨S1700000, .i32⟩
  | 82 => ⟨S1700000x1, .i32⟩
  | 83 => ⟨S1700000x64, .f32⟩
  | 84 => ⟨S1700000x1, .f32⟩
  | 85 => ⟨S1700000x64, .f32⟩
  | 86 => ⟨S1700000x64, .f32⟩
  | 87 => ⟨S_, .f32⟩
  | 88 => ⟨S100000x64, .f32⟩
  | 89 => ⟨S1700000x1, .i32⟩
  | 90 => ⟨S100000x64, .f32⟩
  | 91 => ⟨S_, .f32⟩
  | 92 => ⟨S64, .f32⟩
  | 93 => ⟨S_, .f32⟩
  | 94 => ⟨S64, .f32⟩
  | 95 => ⟨S64, .f32⟩
  | 96 => ⟨S_, .i32⟩
  | 97 => ⟨S_, .f32⟩
  | 98 => ⟨S64, .f32⟩
  | 99 => ⟨S1x64, .f32⟩
  | 100 => ⟨S_, .f32⟩
  | 101 => ⟨S1x64, .f32⟩
  | 102 => ⟨S1x64, .f32⟩
  | 103 => ⟨S100000x64, .f32⟩
  | 104 => ⟨S100000x64, .f32⟩
  | 105 => ⟨S100000x64, .f32⟩
  | 106 => ⟨S_, .f32⟩
  | 107 => ⟨S_, .f32⟩
  | 108 => ⟨S_, .f32⟩
  | 109 => ⟨S_, .f32⟩
  | 110 => ⟨S64, .f32⟩
  | 111 => ⟨S64, .f32⟩
  | 112 => ⟨S64, .f32⟩
  | 113 => ⟨S_, .f32⟩
  | 114 => ⟨S_, .i1⟩
  | 115 => ⟨S_, .f32⟩
  | 116 => ⟨S_, .f32⟩
  | 117 => ⟨S64, .f32⟩
  | 118 => ⟨S64, .f32⟩
  | 119 => ⟨S1x64, .f32⟩
  | 120 => ⟨S100000x64, .f32⟩
  | 121 => ⟨S100000x64, .f32⟩
  | 122 => ⟨S1x64, .f32⟩
  | 123 => ⟨S100000x64, .f32⟩
  | 124 => ⟨S100000x64, .f32⟩
  | 125 => ⟨S_, .f32⟩
  | 126 => ⟨S64, .f32⟩
  | 127 => ⟨S64, .f32⟩
  | _ => ⟨S100000x128, .f32⟩

abbrev hbmTy0_2 (i : Nat) : BufTy := match i % 128 with
  | 0 => ⟨S64, .f32⟩
  | 1 => ⟨S1x64, .f32⟩
  | 2 => ⟨S100000x64, .f32⟩
  | 3 => ⟨S100000x64, .f32⟩
  | 4 => ⟨S1x64, .f32⟩
  | 5 => ⟨S100000x64, .f32⟩
  | 6 => ⟨S100000x64, .f32⟩
  | 7 => ⟨S_, .f32⟩
  | 8 => ⟨S100000x64, .f32⟩
  | 9 => ⟨S100000x64, .f32⟩
  | 10 => ⟨S_, .f32⟩
  | 11 => ⟨S128x64, .f32⟩
  | 12 => ⟨S100000x1, .i32⟩
  | 13 => ⟨S128x64, .f32⟩
  | 14 => ⟨S64x64, .f32⟩
  | 15 => ⟨S128x64, .f32⟩
  | 16 => ⟨S1x64, .f32⟩
  | 17 => ⟨S128x64, .f32⟩
  | 18 => ⟨S128x64, .f32⟩
  | 19 => ⟨S_, .f32⟩
  | 20 => ⟨S128x64, .f32⟩
  | 21 => ⟨S128x64, .f32⟩
  | 22 => ⟨S64x10, .f32⟩
  | 23 => ⟨S128x10, .f32⟩
  | 24 => ⟨S1x10, .f32⟩
  | 25 => ⟨S128x10, .f32⟩
  | 26 => ⟨S128x10, .f32⟩
  | _ => ⟨S100000x128, .f32⟩

abbrev hbmTy (i : Nat) : BufTy := match i / 128 with
  | 0 => hbmTy0_0 i
  | 1 => hbmTy0_1 i
  | 2 => hbmTy0_2 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_cst : Ref sig .tc := ⟨.hbm, 26, rfl⟩
abbrev main_v7 : Ref sig .tc := ⟨.hbm, 27, rfl⟩
abbrev main_cst_0 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_c : Ref sig .tc := ⟨.hbm, 32, rfl⟩
abbrev main_v11 : Ref sig .tc := ⟨.hbm, 33, rfl⟩
abbrev main_v12 : Ref sig .tc := ⟨.hbm, 34, rfl⟩
abbrev main_c_1 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_c_2 : Ref sig .tc := ⟨.hbm, 41, rfl⟩
abbrev main_v18 : Ref sig .tc := ⟨.hbm, 42, rfl⟩
abbrev main_v19 : Ref sig .tc := ⟨.hbm, 43, rfl⟩
abbrev main_c_3 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_cst_4 : Ref sig .tc := ⟨.hbm, 51, rfl⟩
abbrev main_v26 : Ref sig .tc := ⟨.hbm, 52, rfl⟩
abbrev main_v27 : Ref sig .tc := ⟨.hbm, 53, rfl⟩
abbrev main_call0_v0 : Ref sig .tc := ⟨.hbm, 54, rfl⟩
abbrev main_call0_cst : Ref sig .tc := ⟨.hbm, 55, rfl⟩
abbrev main_call0_v1 : Ref sig .tc := ⟨.hbm, 56, rfl⟩
abbrev main_v28 : Ref sig .tc := ⟨.hbm, 57, rfl⟩
abbrev main_cst_5 : Ref sig .tc := ⟨.hbm, 58, rfl⟩
abbrev main_call1_v0 : Ref sig .tc := ⟨.hbm, 59, rfl⟩
abbrev main_call1_v1 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_c_6 : Ref sig .tc := ⟨.hbm, 67, rfl⟩
abbrev main_v35 : Ref sig .tc := ⟨.hbm, 68, rfl⟩
abbrev main_v36 : Ref sig .tc := ⟨.hbm, 69, rfl⟩
abbrev main_c_7 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_cst_8 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_cst_9 : Ref sig .tc := ⟨.hbm, 83, rfl⟩
abbrev main_v48 : Ref sig .tc := ⟨.hbm, 84, rfl⟩
abbrev main_cst_10 : Ref sig .tc := ⟨.hbm, 85, rfl⟩
abbrev main_v49 : Ref sig .tc := ⟨.hbm, 86, rfl⟩
abbrev main_v50 : Ref sig .tc := ⟨.hbm, 87, rfl⟩
abbrev main_c_11 : Ref sig .tc := ⟨.hbm, 88, rfl⟩
abbrev main_call2_cst : Ref sig .tc := ⟨.hbm, 89, rfl⟩
abbrev main_call2_v0 : Ref sig .tc := ⟨.hbm, 90, rfl⟩
abbrev main_call2_v1 : Ref sig .tc := ⟨.hbm, 91, rfl⟩
abbrev main_call2_cst_0 : Ref sig .tc := ⟨.hbm, 92, rfl⟩
abbrev main_call2_v2 : Ref sig .tc := ⟨.hbm, 93, rfl⟩
abbrev main_call2_v3 : Ref sig .tc := ⟨.hbm, 94, rfl⟩
abbrev main_call2_v4 : Ref sig .tc := ⟨.hbm, 95, rfl⟩
abbrev main_call2_v5 : Ref sig .tc := ⟨.hbm, 96, rfl⟩
abbrev main_call2_v6 : Ref sig .tc := ⟨.hbm, 97, rfl⟩
abbrev main_call2_v7 : Ref sig .tc := ⟨.hbm, 98, rfl⟩
abbrev main_call2_cst_1 : Ref sig .tc := ⟨.hbm, 99, rfl⟩
abbrev main_call2_v8 : Ref sig .tc := ⟨.hbm, 100, rfl⟩
abbrev main_call2_cst_2 : Ref sig .tc := ⟨.hbm, 101, rfl⟩
abbrev main_call2_v9 : Ref sig .tc := ⟨.hbm, 102, rfl⟩
abbrev main_call2_v10 : Ref sig .tc := ⟨.hbm, 103, rfl⟩
abbrev main_call2_v11 : Ref sig .tc := ⟨.hbm, 104, rfl⟩
abbrev main_call2_cst_3 : Ref sig .tc := ⟨.hbm, 105, rfl⟩
abbrev main_call2_v12 : Ref sig .tc := ⟨.hbm, 106, rfl⟩
abbrev main_call2_cst_4 : Ref sig .tc := ⟨.hbm, 107, rfl⟩
abbrev main_call2_call0_v0 : Ref sig .tc := ⟨.hbm, 108, rfl⟩
abbrev main_call2_call0_v1 : Ref sig .tc := ⟨.hbm, 109, rfl⟩
abbrev main_v51 : Ref sig .tc := ⟨.hbm, 110, rfl⟩
abbrev main_v52 : Ref sig .tc := ⟨.hbm, 111, rfl⟩
abbrev main_v53 : Ref sig .tc := ⟨.hbm, 112, rfl⟩
abbrev main_v54 : Ref sig .tc := ⟨.hbm, 113, rfl⟩
abbrev main_v55 : Ref sig .tc := ⟨.hbm, 114, rfl⟩
abbrev main_v56 : Ref sig .tc := ⟨.hbm, 115, rfl⟩
abbrev main_v57 : Ref sig .tc := ⟨.hbm, 116, rfl⟩
abbrev main_cst_12 : Ref sig .tc := ⟨.hbm, 117, rfl⟩
abbrev main_v58 : Ref sig .tc := ⟨.hbm, 118, rfl⟩
abbrev main_v59 : Ref sig .tc := ⟨.hbm, 119, rfl⟩
abbrev main_v60 : Ref sig .tc := ⟨.hbm, 120, rfl⟩
abbrev main_v61 : Ref sig .tc := ⟨.hbm, 121, rfl⟩
abbrev main_v62 : Ref sig .tc := ⟨.hbm, 122, rfl⟩
abbrev main_v63 : Ref sig .tc := ⟨.hbm, 123, rfl⟩
abbrev main_v64 : Ref sig .tc := ⟨.hbm, 124, rfl⟩
abbrev main_v65 : Ref sig .tc := ⟨.hbm, 125, rfl⟩
abbrev main_v66 : Ref sig .tc := ⟨.hbm, 126, rfl⟩
abbrev main_call3_cst : Ref sig .tc := ⟨.hbm, 127, rfl⟩
abbrev main_call3_v0 : Ref sig .tc := ⟨.hbm, 128, rfl⟩
abbrev main_v67 : Ref sig .tc := ⟨.hbm, 129, rfl⟩
abbrev main_v68 : Ref sig .tc := ⟨.hbm, 130, rfl⟩
abbrev main_v69 : Ref sig .tc := ⟨.hbm, 131, rfl⟩
abbrev main_v70 : Ref sig .tc := ⟨.hbm, 132, rfl⟩
abbrev main_v71 : Ref sig .tc := ⟨.hbm, 133, rfl⟩
abbrev main_v72 : Ref sig .tc := ⟨.hbm, 134, rfl⟩
abbrev main_c_13 : Ref sig .tc := ⟨.hbm, 135, rfl⟩
abbrev main_v73 : Ref sig .tc := ⟨.hbm, 136, rfl⟩
abbrev main_v74 : Ref sig .tc := ⟨.hbm, 137, rfl⟩
abbrev main_c_14 : Ref sig .tc := ⟨.hbm, 138, rfl⟩
abbrev main_v75 : Ref sig .tc := ⟨.hbm, 139, rfl⟩
abbrev main_v76 : Ref sig .tc := ⟨.hbm, 140, rfl⟩
abbrev main_v77 : Ref sig .tc := ⟨.hbm, 141, rfl⟩
abbrev main_v78 : Ref sig .tc := ⟨.hbm, 142, rfl⟩
abbrev main_v79 : Ref sig .tc := ⟨.hbm, 143, rfl⟩
abbrev main_v80 : Ref sig .tc := ⟨.hbm, 144, rfl⟩
abbrev main_v81 : Ref sig .tc := ⟨.hbm, 145, rfl⟩
abbrev main_v82 : Ref sig .tc := ⟨.hbm, 146, rfl⟩
abbrev main_cst_15 : Ref sig .tc := ⟨.hbm, 147, rfl⟩
abbrev main_v83 : Ref sig .tc := ⟨.hbm, 148, rfl⟩
abbrev main_v84 : Ref sig .tc := ⟨.hbm, 149, rfl⟩
abbrev main_v85 : Ref sig .tc := ⟨.hbm, 150, rfl⟩
abbrev main_cst_16 : Ref sig .tc := ⟨.hbm, 151, rfl⟩
abbrev main_v86 : Ref sig .tc := ⟨.hbm, 152, rfl⟩
abbrev main_cst_17 : Ref sig .tc := ⟨.hbm, 153, rfl⟩
abbrev main_v87 : Ref sig .tc := ⟨.hbm, 154, rfl⟩
abbrev main_v88 : Ref sig .tc := ⟨.hbm, 155, rfl⟩
abbrev main_c_18 : Ref sig .tc := ⟨.hbm, 156, rfl⟩
abbrev main_call4_cst : Ref sig .tc := ⟨.hbm, 157, rfl⟩
abbrev main_call4_v0 : Ref sig .tc := ⟨.hbm, 158, rfl⟩
abbrev main_call4_v1 : Ref sig .tc := ⟨.hbm, 159, rfl⟩
abbrev main_call4_cst_0 : Ref sig .tc := ⟨.hbm, 160, rfl⟩
abbrev main_call4_v2 : Ref sig .tc := ⟨.hbm, 161, rfl⟩
abbrev main_call4_v3 : Ref sig .tc := ⟨.hbm, 162, rfl⟩
abbrev main_call4_v4 : Ref sig .tc := ⟨.hbm, 163, rfl⟩
abbrev main_call4_v5 : Ref sig .tc := ⟨.hbm, 164, rfl⟩
abbrev main_call4_v6 : Ref sig .tc := ⟨.hbm, 165, rfl⟩
abbrev main_call4_v7 : Ref sig .tc := ⟨.hbm, 166, rfl⟩
abbrev main_call4_cst_1 : Ref sig .tc := ⟨.hbm, 167, rfl⟩
abbrev main_call4_v8 : Ref sig .tc := ⟨.hbm, 168, rfl⟩
abbrev main_call4_cst_2 : Ref sig .tc := ⟨.hbm, 169, rfl⟩
abbrev main_call4_v9 : Ref sig .tc := ⟨.hbm, 170, rfl⟩
abbrev main_call4_v10 : Ref sig .tc := ⟨.hbm, 171, rfl⟩
abbrev main_call4_v11 : Ref sig .tc := ⟨.hbm, 172, rfl⟩
abbrev main_call4_cst_3 : Ref sig .tc := ⟨.hbm, 173, rfl⟩
abbrev main_call4_v12 : Ref sig .tc := ⟨.hbm, 174, rfl⟩
abbrev main_call4_cst_4 : Ref sig .tc := ⟨.hbm, 175, rfl⟩
abbrev main_call4_call0_v0 : Ref sig .tc := ⟨.hbm, 176, rfl⟩
abbrev main_call4_call0_v1 : Ref sig .tc := ⟨.hbm, 177, rfl⟩
abbrev main_v89 : Ref sig .tc := ⟨.hbm, 178, rfl⟩
abbrev main_v90 : Ref sig .tc := ⟨.hbm, 179, rfl⟩
abbrev main_v91 : Ref sig .tc := ⟨.hbm, 180, rfl⟩
abbrev main_v92 : Ref sig .tc := ⟨.hbm, 181, rfl⟩
abbrev main_v93 : Ref sig .tc := ⟨.hbm, 182, rfl⟩
abbrev main_v94 : Ref sig .tc := ⟨.hbm, 183, rfl⟩
abbrev main_v95 : Ref sig .tc := ⟨.hbm, 184, rfl⟩
abbrev main_cst_19 : Ref sig .tc := ⟨.hbm, 185, rfl⟩
abbrev main_v96 : Ref sig .tc := ⟨.hbm, 186, rfl⟩
abbrev main_v97 : Ref sig .tc := ⟨.hbm, 187, rfl⟩
abbrev main_v98 : Ref sig .tc := ⟨.hbm, 188, rfl⟩
abbrev main_v99 : Ref sig .tc := ⟨.hbm, 189, rfl⟩
abbrev main_v100 : Ref sig .tc := ⟨.hbm, 190, rfl⟩
abbrev main_v101 : Ref sig .tc := ⟨.hbm, 191, rfl⟩
abbrev main_v102 : Ref sig .tc := ⟨.hbm, 192, rfl⟩
abbrev main_v103 : Ref sig .tc := ⟨.hbm, 193, rfl⟩
abbrev main_v104 : Ref sig .tc := ⟨.hbm, 194, rfl⟩
abbrev main_call5_cst : Ref sig .tc := ⟨.hbm, 195, rfl⟩
abbrev main_call5_v0 : Ref sig .tc := ⟨.hbm, 196, rfl⟩
abbrev main_v105 : Ref sig .tc := ⟨.hbm, 197, rfl⟩
abbrev main_v106 : Ref sig .tc := ⟨.hbm, 198, rfl⟩
abbrev main_v107 : Ref sig .tc := ⟨.hbm, 199, rfl⟩
abbrev main_v108 : Ref sig .tc := ⟨.hbm, 200, rfl⟩
abbrev main_v109 : Ref sig .tc := ⟨.hbm, 201, rfl⟩
abbrev main_v110 : Ref sig .tc := ⟨.hbm, 202, rfl⟩
abbrev main_c_20 : Ref sig .tc := ⟨.hbm, 203, rfl⟩
abbrev main_v111 : Ref sig .tc := ⟨.hbm, 204, rfl⟩
abbrev main_v112 : Ref sig .tc := ⟨.hbm, 205, rfl⟩
abbrev main_c_21 : Ref sig .tc := ⟨.hbm, 206, rfl⟩
abbrev main_v113 : Ref sig .tc := ⟨.hbm, 207, rfl⟩
abbrev main_v114 : Ref sig .tc := ⟨.hbm, 208, rfl⟩
abbrev main_v115 : Ref sig .tc := ⟨.hbm, 209, rfl⟩
abbrev main_v116 : Ref sig .tc := ⟨.hbm, 210, rfl⟩
abbrev main_v117 : Ref sig .tc := ⟨.hbm, 211, rfl⟩
abbrev main_v118 : Ref sig .tc := ⟨.hbm, 212, rfl⟩
abbrev main_v119 : Ref sig .tc := ⟨.hbm, 213, rfl⟩
abbrev main_v120 : Ref sig .tc := ⟨.hbm, 214, rfl⟩
abbrev main_cst_22 : Ref sig .tc := ⟨.hbm, 215, rfl⟩
abbrev main_v121 : Ref sig .tc := ⟨.hbm, 216, rfl⟩
abbrev main_v122 : Ref sig .tc := ⟨.hbm, 217, rfl⟩
abbrev main_v123 : Ref sig .tc := ⟨.hbm, 218, rfl⟩
abbrev main_cst_23 : Ref sig .tc := ⟨.hbm, 219, rfl⟩
abbrev main_v124 : Ref sig .tc := ⟨.hbm, 220, rfl⟩
abbrev main_cst_24 : Ref sig .tc := ⟨.hbm, 221, rfl⟩
abbrev main_v125 : Ref sig .tc := ⟨.hbm, 222, rfl⟩
abbrev main_v126 : Ref sig .tc := ⟨.hbm, 223, rfl⟩
abbrev main_c_25 : Ref sig .tc := ⟨.hbm, 224, rfl⟩
abbrev main_call6_cst : Ref sig .tc := ⟨.hbm, 225, rfl⟩
abbrev main_call6_v0 : Ref sig .tc := ⟨.hbm, 226, rfl⟩
abbrev main_call6_v1 : Ref sig .tc := ⟨.hbm, 227, rfl⟩
abbrev main_call6_cst_0 : Ref sig .tc := ⟨.hbm, 228, rfl⟩
abbrev main_call6_v2 : Ref sig .tc := ⟨.hbm, 229, rfl⟩
abbrev main_call6_v3 : Ref sig .tc := ⟨.hbm, 230, rfl⟩
abbrev main_call6_v4 : Ref sig .tc := ⟨.hbm, 231, rfl⟩
abbrev main_call6_v5 : Ref sig .tc := ⟨.hbm, 232, rfl⟩
abbrev main_call6_v6 : Ref sig .tc := ⟨.hbm, 233, rfl⟩
abbrev main_call6_v7 : Ref sig .tc := ⟨.hbm, 234, rfl⟩
abbrev main_call6_cst_1 : Ref sig .tc := ⟨.hbm, 235, rfl⟩
abbrev main_call6_v8 : Ref sig .tc := ⟨.hbm, 236, rfl⟩
abbrev main_call6_cst_2 : Ref sig .tc := ⟨.hbm, 237, rfl⟩
abbrev main_call6_v9 : Ref sig .tc := ⟨.hbm, 238, rfl⟩
abbrev main_call6_v10 : Ref sig .tc := ⟨.hbm, 239, rfl⟩
abbrev main_call6_v11 : Ref sig .tc := ⟨.hbm, 240, rfl⟩
abbrev main_call6_cst_3 : Ref sig .tc := ⟨.hbm, 241, rfl⟩
abbrev main_call6_v12 : Ref sig .tc := ⟨.hbm, 242, rfl⟩
abbrev main_call6_cst_4 : Ref sig .tc := ⟨.hbm, 243, rfl⟩
abbrev main_call6_call0_v0 : Ref sig .tc := ⟨.hbm, 244, rfl⟩
abbrev main_call6_call0_v1 : Ref sig .tc := ⟨.hbm, 245, rfl⟩
abbrev main_v127 : Ref sig .tc := ⟨.hbm, 246, rfl⟩
abbrev main_v128 : Ref sig .tc := ⟨.hbm, 247, rfl⟩
abbrev main_v129 : Ref sig .tc := ⟨.hbm, 248, rfl⟩
abbrev main_v130 : Ref sig .tc := ⟨.hbm, 249, rfl⟩
abbrev main_v131 : Ref sig .tc := ⟨.hbm, 250, rfl⟩
abbrev main_v132 : Ref sig .tc := ⟨.hbm, 251, rfl⟩
abbrev main_v133 : Ref sig .tc := ⟨.hbm, 252, rfl⟩
abbrev main_cst_26 : Ref sig .tc := ⟨.hbm, 253, rfl⟩
abbrev main_v134 : Ref sig .tc := ⟨.hbm, 254, rfl⟩
abbrev main_v135 : Ref sig .tc := ⟨.hbm, 255, rfl⟩
abbrev main_v136 : Ref sig .tc := ⟨.hbm, 256, rfl⟩
abbrev main_v137 : Ref sig .tc := ⟨.hbm, 257, rfl⟩
abbrev main_v138 : Ref sig .tc := ⟨.hbm, 258, rfl⟩
abbrev main_v139 : Ref sig .tc := ⟨.hbm, 259, rfl⟩
abbrev main_v140 : Ref sig .tc := ⟨.hbm, 260, rfl⟩
abbrev main_v141 : Ref sig .tc := ⟨.hbm, 261, rfl⟩
abbrev main_v142 : Ref sig .tc := ⟨.hbm, 262, rfl⟩
abbrev main_call7_cst : Ref sig .tc := ⟨.hbm, 263, rfl⟩
abbrev main_call7_v0 : Ref sig .tc := ⟨.hbm, 264, rfl⟩
abbrev main_v143 : Ref sig .tc := ⟨.hbm, 265, rfl⟩
abbrev main_cst_27 : Ref sig .tc := ⟨.hbm, 266, rfl⟩
abbrev main_v144 : Ref sig .tc := ⟨.hbm, 267, rfl⟩
abbrev main_v145 : Ref sig .tc := ⟨.hbm, 268, rfl⟩
abbrev main_v146 : Ref sig .tc := ⟨.hbm, 269, rfl⟩
abbrev main_v147 : Ref sig .tc := ⟨.hbm, 270, rfl⟩
abbrev main_v148 : Ref sig .tc := ⟨.hbm, 271, rfl⟩
abbrev main_v149 : Ref sig .tc := ⟨.hbm, 272, rfl⟩
abbrev main_v150 : Ref sig .tc := ⟨.hbm, 273, rfl⟩
abbrev main_v151 : Ref sig .tc := ⟨.hbm, 274, rfl⟩
abbrev main_call8_cst : Ref sig .tc := ⟨.hbm, 275, rfl⟩
abbrev main_call8_v0 : Ref sig .tc := ⟨.hbm, 276, rfl⟩
abbrev main_v152 : Ref sig .tc := ⟨.hbm, 277, rfl⟩
abbrev main_v153 : Ref sig .tc := ⟨.hbm, 278, rfl⟩
abbrev main_v154 : Ref sig .tc := ⟨.hbm, 279, rfl⟩
abbrev main_v155 : Ref sig .tc := ⟨.hbm, 280, rfl⟩
abbrev main_v156 : Ref sig .tc := ⟨.hbm, 281, rfl⟩
abbrev main_v157 : Ref sig .tc := ⟨.hbm, 282, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  transposes_S64x128_S128x64_1_0 : S64x128.Transposes [1, 0] S128x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  reducesTo_S100000x64_S64_d0 : S100000x64.ReducesTo [0] S64
  h_S_ : 0 < S_.numel
  bcast_S_S64 : S_.BroadcastsInDim S64 (![] : Fin 0 → Fin S64.rank)
  bcast_S_S1x64 : S_.BroadcastsInDim S1x64 (![] : Fin 0 → Fin S1x64.rank)
  transposes_S64x64_S64x64_1_0 : S64x64.Transposes [1, 0] S64x64
  bcast_S_S128x64 : S_.BroadcastsInDim S128x64 (![] : Fin 0 → Fin S128x64.rank)
  bcast_S100000_S100000x1_0 : S100000.BroadcastsInDim S100000x1 (![0] : Fin 1 → Fin S100000x1.rank)
  bcast_S1x64_S128x64_0_1 : S1x64.BroadcastsInDim S128x64 (![0, 1] : Fin 2 → Fin S128x64.rank)
  transposes_S10x64_S64x10_1_0 : S10x64.Transposes [1, 0] S64x10
  bcast_S10_S1x10_1 : S10.BroadcastsInDim S1x10 (![1] : Fin 1 → Fin S1x10.rank)
  bcast_S1x10_S128x10_0_1 : S1x10.BroadcastsInDim S128x10 (![0, 1] : Fin 2 → Fin S128x10.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x64_S100000x64_1_0_0_1_n_n_wf : DotDims.WF S100000x64 S64x64 S100000x64 [1] [0] [0] [1] [] []
  scatter_S128x64_S100000x1_S100000x64_1_0_0_1_wf : ScatterDims.WF S128x64 S100000x1 S100000x64 [1] [0] [0] 1
  dot_S128x64_S64x64_S128x64_1_0_0_1_n_n_wf : DotDims.WF S128x64 S64x64 S128x64 [1] [0] [0] [1] [] []
  dot_S128x64_S64x10_S128x10_1_0_0_1_n_n_wf : DotDims.WF S128x64 S64x10 S128x10 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S128x64_S100000x1_S100000x64_1_0_0_1 : ScatterDims S128x64 S100000x1 S100000x64 where
  updateWindowDims := [1]
  insertedWindowDims := [0]
  scatterDimsToOperandDims := [0]
  indexVectorDim := 1
  wf := scatter_S128x64_S100000x1_S100000x64_1_0_0_1_wf
def dot_S128x64_S64x64_S128x64_1_0_0_1_n_n : DotDims S128x64 S64x64 S128x64 where
  lhsContracting := [1]
  rhsContracting := [0]
  lhsNonContracting := [0]
  rhsNonContracting := [1]
  lhsBatch := []
  rhsBatch := []
  wf := dot_S128x64_S64x64_S128x64_1_0_0_1_n_n_wf
def dot_S128x64_S64x10_S128x10_1_0_0_1_n_n : DotDims S128x64 S64x10 S128x10 where
  lhsContracting := [1]
  rhsContracting := [0]
  lhsNonContracting := [0]
  rhsNonContracting := [1]
  lhsBatch := []
  rhsBatch := []
  wf := dot_S128x64_S64x10_S128x10_1_0_0_1_n_n_wf

class Facts : Prop extends Facts₀ where

variable [Facts]
-- ==== Proof.KRun.lean ====
/-
  The idealized kernel's run with its result named.  The program's @main is twenty-four segments: stretches of
  host operations and seven kernel regions.  Every weakly fair execution terminates, and the state it ends in
  holds, at every unscoped buffer of a TensorCore, the contents obtained by folding the segments over the
  launch memory: a stretch of host operations applies its operations in order; a region leaves in each of its
  output arrays the blocks its grid points wrote back and every other buffer as it found it.  Here that final
  state is read at the result buffer (the last region's output array) and at the nineteen argument arrays.
-/
import proofs.«117444_j67095979098699_1_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the idealized kernel's @main terminates without a fault; the result buffer
    ends at the folded contents of the last segment boundary, and the argument arrays end as launched. -/
theorem run_value : θ_run defs (onTc (τ := τ) (main (F := F))) ⟨m, fun _ => 0, ρ⟩ (fun r => ∀ c : Dev nD,
      r.2.mem ((c.tc : Thread nD τ).loc main_v112) = W24 m ρ c (Proc.devRef .tc main_v112)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W24 m ρ c b)
    (hfin := fun c s' => by
      iintro ⟨⟨Hh, -⟩, HSI⟩
      unfold StableHlo.held
      imodintro
      iapply (pointsTo_read_all (Pipeline.ucRefs τ sig) (fun b => (((c : Thread nD τ)).1, b)) (W24 m ρ c) s')
      isplitl [Hh] <;> iassumption)
    (hQ := fun s h c =>
      ⟨h c _ (mem_uc main_v112 (by decide)),
       (h c _ (mem_uc main_arg0 (by decide))).trans (W24_main_arg0 m ρ c),
       (h c _ (mem_uc main_arg1 (by decide))).trans (W24_main_arg1 m ρ c),
       (h c _ (mem_uc main_arg2 (by decide))).trans (W24_main_arg2 m ρ c),
       (h c _ (mem_uc main_arg3 (by decide))).trans (W24_main_arg3 m ρ c),
       (h c _ (mem_uc main_arg4 (by decide))).trans (W24_main_arg4 m ρ c),
       (h c _ (mem_uc main_arg5 (by decide))).trans (W24_main_arg5 m ρ c),
       (h c _ (mem_uc main_arg6 (by decide))).trans (W24_main_arg6 m ρ c),
       (h c _ (mem_uc main_arg7 (by decide))).trans (W24_main_arg7 m ρ c),
       (h c _ (mem_uc main_arg8 (by decide))).trans (W24_main_arg8 m ρ c),
       (h c _ (mem_uc main_arg9 (by decide))).trans (W24_main_arg9 m ρ c),
       (h c _ (mem_uc main_arg10 (by decide))).trans (W24_main_arg10 m ρ c),
       (h c _ (mem_uc main_arg11 (by decide))).trans (W24_main_arg11 m ρ c),
       (h c _ (mem_uc main_arg12 (by decide))).trans (W24_main_arg12 m ρ c),
       (h c _ (mem_uc main_arg13 (by decide))).trans (W24_main_arg13 m ρ c),
       (h c _ (mem_uc main_arg14 (by decide))).trans (W24_main_arg14 m ρ c),
       (h c _ (mem_uc main_arg15 (by decide))).trans (W24_main_arg15 m ρ c),
       (h c _ (mem_uc main_arg16 (by decide))).trans (W24_main_arg16 m ρ c),
       (h c _ (mem_uc main_arg17 (by decide))).trans (W24_main_arg17 m ρ c),
       (h c _ (mem_uc main_arg18 (by decide))).trans (W24_main_arg18 m ρ c)⟩)

end Cert.KernelIdeal.KRun

end
-- ==== Proof.Stages.lean ====
/-
  The stages of the computation, each as one function of whole arrays: the edge lists with self loops, the edge
  weights, a dense layer, message passing over the edges, column means and variances, the normalisation with its
  rectifier, sum pooling and the two-layer head — written with the reference's own host operations, in the
  reference's order.  The reference's result is their composition `refOut`.
-/
import proofs.«117444_j67095979098699_1_alg».proof.ReferenceIdeal

noncomputable section

namespace Cert.Stages

open Idealize.ShloMosaic Cert.ReferenceIdeal

variable {F : FTy → Type} [FloatOps F] [Cert.ReferenceIdeal.Facts]

open Cert.ReferenceIdeal.Facts₀ Cert.ReferenceIdeal.Facts

/-- Source endpoints of the edges, followed by one self loop per node. -/
def srcA (E : (⟨S2x1600000, .i32⟩ : BufTy).Contents (Elt F)) : (⟨S1700000, .i32⟩ : BufTy).Contents (Elt F) :=
  (((((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F))) : (⟨S1600000, .i32⟩ : BufTy).Contents (Elt F) → (⟨S100000, .i32⟩ : BufTy).Contents (Elt F) → (⟨S1700000, .i32⟩ : BufTy).Contents (Elt F)) (shapeCast S1600000 (((((extractStridedSlice S1x1600000 ![0, 0] · slices_S2x1600000_S1x1600000_0_0) : (⟨S2x1600000, .i32⟩ : BufTy).Contents (Elt F) → (⟨S1x1600000, .i32⟩ : BufTy).Contents (Elt F))) : (⟨S2x1600000, .i32⟩ : BufTy).Contents (Elt F) → (⟨S1x1600000, .i32⟩ : BufTy).Contents (Elt F)) E) shapeCasts_S1x1600000_S1600000 : (⟨S1600000, .i32⟩ : BufTy).Contents (Elt F)) (iotaInDim S100000 32 0 : (⟨S100000, .i32⟩ : BufTy).Contents (Elt F)))

/-- Target endpoints of the edges, followed by one self loop per node. -/
def dstA (E : (⟨S2x1600000, .i32⟩ : BufTy).Contents (Elt F)) : (⟨S1700000, .i32⟩ : BufTy).Contents (Elt F) :=
  (((((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F))) : (⟨S1600000, .i32⟩ : BufTy).Contents (Elt F) → (⟨S100000, .i32⟩ : BufTy).Contents (Elt F) → (⟨S1700000, .i32⟩ : BufTy).Contents (Elt F)) (shapeCast S1600000 (((((extractStridedSlice S1x1600000 ![1, 0] · slices_S2x1600000_S1x1600000_1_0) : (⟨S2x1600000, .i32⟩ : BufTy).Contents (Elt F) → (⟨S1x1600000, .i32⟩ : BufTy).Contents (Elt F))) : (⟨S2x1600000, .i32⟩ : BufTy).Contents (Elt F) → (⟨S1x1600000, .i32⟩ : BufTy).Contents (Elt F)) E) shapeCasts_S1x1600000_S1600000 : (⟨S1600000, .i32⟩ : BufTy).Contents (Elt F)) (iotaInDim S100000 32 0 : (⟨S100000, .i32⟩ : BufTy).Contents (Elt F)))

/-- The edge weights: the in-degree (a scatter-add of ones over the targets) read at both endpoints, multiplied, raised to the power -1/2, infinite entries replaced by zero. -/
def nrm (sa : (⟨S1700000, .i32⟩ : BufTy).Contents (Elt F)) (da : (⟨S1700000, .i32⟩ : BufTy).Contents (Elt F)) : (⟨S1700000, .f32⟩ : BufTy).Contents (Elt F) :=
  (((select) : (⟨S1700000, .i1⟩ : BufTy).Contents (Elt F) → (⟨S1700000, .f32⟩ : BufTy).Contents (Elt F) → (⟨S1700000, .f32⟩ : BufTy).Contents (Elt F) → (⟨S1700000, .f32⟩ : BufTy).Contents (Elt F)) ((((cmpf .oeq)) : (⟨S1700000, .f32⟩ : BufTy).Contents (Elt F) → (⟨S1700000, .f32⟩ : BufTy).Contents (Elt F) → (⟨S1700000, .i1⟩ : BufTy).Contents (Elt F)) (((Host.absf) : (⟨S1700000, .f32⟩ : BufTy).Contents (Elt F) → (⟨S1700000, .f32⟩ : BufTy).Contents (Elt F)) ((((Host.powf : (⟨S1700000, .f32⟩ : BufTy).Contents (Elt F) → (⟨S1700000, .f32⟩ : BufTy).Contents (Elt F) → (⟨S1700000, .f32⟩ : BufTy).Contents (Elt F))) : (⟨S1700000, .f32⟩ : BufTy).Contents (Elt F) → (⟨S1700000, .f32⟩ : BufTy).Contents (Elt F) → (⟨S1700000, .f32⟩ : BufTy).Contents (Elt F)) ((((mulf : (⟨S1700000, .f32⟩ : BufTy).Contents (Elt F) → (⟨S1700000, .f32⟩ : BufTy).Contents (Elt F) → (⟨S1700000, .f32⟩ : BufTy).Contents (Elt F))) : (⟨S1700000, .f32⟩ : BufTy).Contents (Elt F) → (⟨S1700000, .f32⟩ : BufTy).Contents (Elt F) → (⟨S1700000, .f32⟩ : BufTy).Contents (Elt F)) (((((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F))) : (⟨S100000, .f32⟩ : BufTy).Contents (Elt F) → (⟨S1700000x1, .i32⟩ : BufTy).Contents (Elt F) → (⟨S1700000, .f32⟩ : BufTy).Contents (Elt F)) (((((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F))) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)) ((((broadcastInDim S100000 ![] bcast_S_S100000 : (⟨S_, .f32⟩ : BufTy).Contents (Elt F) → (⟨S100000, .f32⟩ : BufTy).Contents (Elt F))) : (⟨S_, .f32⟩ : BufTy).Contents (Elt F) → (⟨S100000, .f32⟩ : BufTy).Contents (Elt F)) (constant S_ .f32 0x00000000#32 : (⟨S_, .f32⟩ : BufTy).Contents (Elt F))) ((((broadcastInDim S1700000x1 ![0] bcast_S1700000_S1700000x1_0 : (⟨S1700000, .i32⟩ : BufTy).Contents (Elt F) → (⟨S1700000x1, .i32⟩ : BufTy).Contents (Elt F))) : (⟨S1700000, .i32⟩ : BufTy).Contents (Elt F) → (⟨S1700000x1, .i32⟩ : BufTy).Contents (Elt F)) da) ((((broadcastInDim S1700000 ![] bcast_S_S1700000 : (⟨S_, .f32⟩ : BufTy).Contents (Elt F) → (⟨S1700000, .f32⟩ : BufTy).Contents (Elt F))) : (⟨S_, .f32⟩ : BufTy).Contents (Elt F) → (⟨S1700000, .f32⟩ : BufTy).Contents (Elt F)) (constant S_ .f32 0x3F800000#32 : (⟨S_, .f32⟩ : BufTy).Contents (Elt F)))) ((((broadcastInDim S1700000x1 ![0] bcast_S1700000_S1700000x1_0 : (⟨S1700000, .i32⟩ : BufTy).Contents (Elt F) → (⟨S1700000x1, .i32⟩ : BufTy).Contents (Elt F))) : (⟨S1700000, .i32⟩ : BufTy).Contents (Elt F) → (⟨S1700000x1, .i32⟩ : BufTy).Contents (Elt F)) ((((select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F))) : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)) ((((cmpi .slt : (⟨S1700000, .i32⟩ : BufTy).Contents (Elt F) → (⟨S1700000, .i32⟩ : BufTy).Contents (Elt F) → (⟨S1700000, .i1⟩ : BufTy).Contents (Elt F))) : (⟨S1700000, .i32⟩ : BufTy).Contents (Elt F) → (⟨S1700000, .i32⟩ : BufTy).Contents (Elt F) → (⟨S1700000, .i1⟩ : BufTy).Contents (Elt F)) sa ((((broadcastInDim S1700000 ![] bcast_S_S1700000 : (⟨S_, .i32⟩ : BufTy).Contents (Elt F) → (⟨S1700000, .i32⟩ : BufTy).Contents (Elt F))) : (⟨S_, .i32⟩ : BufTy).Contents (Elt F) → (⟨S1700000, .i32⟩ : BufTy).Contents (Elt F)) (constantI S_ 32 0#32 : (⟨S_, .i32⟩ : BufTy).Contents (Elt F)))) ((((addi : (⟨S1700000, .i32⟩ : BufTy).Contents (Elt F) → (⟨S1700000, .i32⟩ : BufTy).Contents (Elt F) → (⟨S1700000, .i32⟩ : BufTy).Contents (Elt F))) : (⟨S1700000, .i32⟩ : BufTy).Contents (Elt F) → (⟨S1700000, .i32⟩ : BufTy).Contents (Elt F) → (⟨S1700000, .i32⟩ : BufTy).Contents (Elt F)) sa ((((broadcastInDim S1700000 ![] bcast_S_S1700000 : (⟨S_, .i32⟩ : BufTy).Contents (Elt F) → (⟨S1700000, .i32⟩ : BufTy).Contents (Elt F))) : (⟨S_, .i32⟩ : BufTy).Contents (Elt F) → (⟨S1700000, .i32⟩ : BufTy).Contents (Elt F)) (constantI S_ 32 100000#32 : (⟨S_, .i32⟩ : BufTy).Contents (Elt F)))) sa))) (((((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F))) : (⟨S100000, .f32⟩ : BufTy).Contents (Elt F) → (⟨S1700000x1, .i32⟩ : BufTy).Contents (Elt F) → (⟨S1700000, .f32⟩ : BufTy).Contents (Elt F)) (((((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F))) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)) ((((broadcastInDim S100000 ![] bcast_S_S100000 : (⟨S_, .f32⟩ : BufTy).Contents (Elt F) → (⟨S100000, .f32⟩ : BufTy).Contents (Elt F))) : (⟨S_, .f32⟩ : BufTy).Contents (Elt F) → (⟨S100000, .f32⟩ : BufTy).Contents (Elt F)) (constant S_ .f32 0x00000000#32 : (⟨S_, .f32⟩ : BufTy).Contents (Elt F))) ((((broadcastInDim S1700000x1 ![0] bcast_S1700000_S1700000x1_0 : (⟨S1700000, .i32⟩ : BufTy).Contents (Elt F) → (⟨S1700000x1, .i32⟩ : BufTy).Contents (Elt F))) : (⟨S1700000, .i32⟩ : BufTy).Contents (Elt F) → (⟨S1700000x1, .i32⟩ : BufTy).Contents (Elt F)) da) ((((broadcastInDim S1700000 ![] bcast_S_S1700000 : (⟨S_, .f32⟩ : BufTy).Contents (Elt F) → (⟨S1700000, .f32⟩ : BufTy).Contents (Elt F))) : (⟨S_, .f32⟩ : BufTy).Contents (Elt F) → (⟨S1700000, .f32⟩ : BufTy).Contents (Elt F)) (constant S_ .f32 0x3F800000#32 : (⟨S_, .f32⟩ : BufTy).Contents (Elt F)))) ((((broadcastInDim S1700000x1 ![0] bcast_S1700000_S1700000x1_0 : (⟨S1700000, .i32⟩ : BufTy).Contents (Elt F) → (⟨S1700000x1, .i32⟩ : BufTy).Contents (Elt F))) : (⟨S1700000, .i32⟩ : BufTy).Contents (Elt F) → (⟨S1700000x1, .i32⟩ : BufTy).Contents (Elt F)) ((((select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F))) : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)) ((((cmpi .slt : (⟨S1700000, .i32⟩ : BufTy).Contents (Elt F) → (⟨S1700000, .i32⟩ : BufTy).Contents (Elt F) → (⟨S1700000, .i1⟩ : BufTy).Contents (Elt F))) : (⟨S1700000, .i32⟩ : BufTy).Contents (Elt F) → (⟨S1700000, .i32⟩ : BufTy).Contents (Elt F) → (⟨S1700000, .i1⟩ : BufTy).Contents (Elt F)) da ((((broadcastInDim S1700000 ![] bcast_S_S1700000 : (⟨S_, .i32⟩ : BufTy).Contents (Elt F) → (⟨S1700000, .i32⟩ : BufTy).Contents (Elt F))) : (⟨S_, .i32⟩ : BufTy).Contents (Elt F) → (⟨S1700000, .i32⟩ : BufTy).Contents (Elt F)) (constantI S_ 32 0#32 : (⟨S_, .i32⟩ : BufTy).Contents (Elt F)))) ((((addi : (⟨S1700000, .i32⟩ : BufTy).Contents (Elt F) → (⟨S1700000, .i32⟩ : BufTy).Contents (Elt F) → (⟨S1700000, .i32⟩ : BufTy).Contents (Elt F))) : (⟨S1700000, .i32⟩ : BufTy).Contents (Elt F) → (⟨S1700000, .i32⟩ : BufTy).Contents (Elt F) → (⟨S1700000, .i32⟩ : BufTy).Contents (Elt F)) da ((((broadcastInDim S1700000 ![] bcast_S_S1700000 : (⟨S_, .i32⟩ : BufTy).Contents (Elt F) → (⟨S1700000, .i32⟩ : BufTy).Contents (Elt F))) : (⟨S_, .i32⟩ : BufTy).Contents (Elt F) → (⟨S1700000, .i32⟩ : BufTy).Contents (Elt F)) (constantI S_ 32 100000#32 : (⟨S_, .i32⟩ : BufTy).Contents (Elt F)))) da)))) ((((broadcastInDim S1700000 ![] bcast_S_S1700000 : (⟨S_, .f32⟩ : BufTy).Contents (Elt F) → (⟨S1700000, .f32⟩ : BufTy).Contents (Elt F))) : (⟨S_, .f32⟩ : BufTy).Contents (Elt F) → (⟨S1700000, .f32⟩ : BufTy).Contents (Elt F)) (constant S_ .f32 0xBF000000#32 : (⟨S_, .f32⟩ : BufTy).Contents (Elt F))))) ((((broadcastInDim S1700000 ![] bcast_S_S1700000)) : (⟨S_, .f32⟩ : BufTy).Contents (Elt F) → (⟨S1700000, .f32⟩ : BufTy).Contents (Elt F)) (constant S_ .f32 0x7F800000#32 : (⟨S_, .f32⟩ : BufTy).Contents (Elt F)))) ((((broadcastInDim S1700000 ![] bcast_S_S1700000)) : (⟨S_, .f32⟩ : BufTy).Contents (Elt F) → (⟨S1700000, .f32⟩ : BufTy).Contents (Elt F)) (((id) : (⟨S_, .f32⟩ : BufTy).Contents (Elt F) → (⟨S_, .f32⟩ : BufTy).Contents (Elt F)) (constant S_ .f32 0x00000000#32 : (⟨S_, .f32⟩ : BufTy).Contents (Elt F)))) ((((Host.powf : (⟨S1700000, .f32⟩ : BufTy).Contents (Elt F) → (⟨S1700000, .f32⟩ : BufTy).Contents (Elt F) → (⟨S1700000, .f32⟩ : BufTy).Contents (Elt F))) : (⟨S1700000, .f32⟩ : BufTy).Contents (Elt F) → (⟨S1700000, .f32⟩ : BufTy).Contents (Elt F) → (⟨S1700000, .f32⟩ : BufTy).Contents (Elt F)) ((((mulf : (⟨S1700000, .f32⟩ : BufTy).Contents (Elt F) → (⟨S1700000, .f32⟩ : BufTy).Contents (Elt F) → (⟨S1700000, .f32⟩ : BufTy).Contents (Elt F))) : (⟨S1700000, .f32⟩ : BufTy).Contents (Elt F) → (⟨S1700000, .f32⟩ : BufTy).Contents (Elt F) → (⟨S1700000, .f32⟩ : BufTy).Contents (Elt F)) (((((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F))) : (⟨S100000, .f32⟩ : BufTy).Contents (Elt F) → (⟨S1700000x1, .i32⟩ : BufTy).Contents (Elt F) → (⟨S1700000, .f32⟩ : BufTy).Contents (Elt F)) (((((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F))) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)) ((((broadcastInDim S100000 ![] bcast_S_S100000 : (⟨S_, .f32⟩ : BufTy).Contents (Elt F) → (⟨S100000, .f32⟩ : BufTy).Contents (Elt F))) : (⟨S_, .f32⟩ : BufTy).Contents (Elt F) → (⟨S100000, .f32⟩ : BufTy).Contents (Elt F)) (constant S_ .f32 0x00000000#32 : (⟨S_, .f32⟩ : BufTy).Contents (Elt F))) ((((broadcastInDim S1700000x1 ![0] bcast_S1700000_S1700000x1_0 : (⟨S1700000, .i32⟩ : BufTy).Contents (Elt F) → (⟨S1700000x1, .i32⟩ : BufTy).Contents (Elt F))) : (⟨S1700000, .i32⟩ : BufTy).Contents (Elt F) → (⟨S1700000x1, .i32⟩ : BufTy).Contents (Elt F)) da) ((((broadcastInDim S1700000 ![] bcast_S_S1700000 : (⟨S_, .f32⟩ : BufTy).Contents (Elt F) → (⟨S1700000, .f32⟩ : BufTy).Contents (Elt F))) : (⟨S_, .f32⟩ : BufTy).Contents (Elt F) → (⟨S1700000, .f32⟩ : BufTy).Contents (Elt F)) (constant S_ .f32 0x3F800000#32 : (⟨S_, .f32⟩ : BufTy).Contents (Elt F)))) ((((broadcastInDim S1700000x1 ![0] bcast_S1700000_S1700000x1_0 : (⟨S1700000, .i32⟩ : BufTy).Contents (Elt F) → (⟨S1700000x1, .i32⟩ : BufTy).Contents (Elt F))) : (⟨S1700000, .i32⟩ : BufTy).Contents (Elt F) → (⟨S1700000x1, .i32⟩ : BufTy).Contents (Elt F)) ((((select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F))) : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)) ((((cmpi .slt : (⟨S1700000, .i32⟩ : BufTy).Contents (Elt F) → (⟨S1700000, .i32⟩ : BufTy).Contents (Elt F) → (⟨S1700000, .i1⟩ : BufTy).Contents (Elt F))) : (⟨S1700000, .i32⟩ : BufTy).Contents (Elt F) → (⟨S1700000, .i32⟩ : BufTy).Contents (Elt F) → (⟨S1700000, .i1⟩ : BufTy).Contents (Elt F)) sa ((((broadcastInDim S1700000 ![] bcast_S_S1700000 : (⟨S_, .i32⟩ : BufTy).Contents (Elt F) → (⟨S1700000, .i32⟩ : BufTy).Contents (Elt F))) : (⟨S_, .i32⟩ : BufTy).Contents (Elt F) → (⟨S1700000, .i32⟩ : BufTy).Contents (Elt F)) (constantI S_ 32 0#32 : (⟨S_, .i32⟩ : BufTy).Contents (Elt F)))) ((((addi : (⟨S1700000, .i32⟩ : BufTy).Contents (Elt F) → (⟨S1700000, .i32⟩ : BufTy).Contents (Elt F) → (⟨S1700000, .i32⟩ : BufTy).Contents (Elt F))) : (⟨S1700000, .i32⟩ : BufTy).Contents (Elt F) → (⟨S1700000, .i32⟩ : BufTy).Contents (Elt F) → (⟨S1700000, .i32⟩ : BufTy).Contents (Elt F)) sa ((((broadcastInDim S1700000 ![] bcast_S_S1700000 : (⟨S_, .i32⟩ : BufTy).Contents (Elt F) → (⟨S1700000, .i32⟩ : BufTy).Contents (Elt F))) : (⟨S_, .i32⟩ : BufTy).Contents (Elt F) → (⟨S1700000, .i32⟩ : BufTy).Contents (Elt F)) (constantI S_ 32 100000#32 : (⟨S_, .i32⟩ : BufTy).Contents (Elt F)))) sa))) (((((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F))) : (⟨S100000, .f32⟩ : BufTy).Contents (Elt F) → (⟨S1700000x1, .i32⟩ : BufTy).Contents (Elt F) → (⟨S1700000, .f32⟩ : BufTy).Contents (Elt F)) (((((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F))) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)) ((((broadcastInDim S100000 ![] bcast_S_S100000 : (⟨S_, .f32⟩ : BufTy).Contents (Elt F) → (⟨S100000, .f32⟩ : BufTy).Contents (Elt F))) : (⟨S_, .f32⟩ : BufTy).Contents (Elt F) → (⟨S100000, .f32⟩ : BufTy).Contents (Elt F)) (constant S_ .f32 0x00000000#32 : (⟨S_, .f32⟩ : BufTy).Contents (Elt F))) ((((broadcastInDim S1700000x1 ![0] bcast_S1700000_S1700000x1_0 : (⟨S1700000, .i32⟩ : BufTy).Contents (Elt F) → (⟨S1700000x1, .i32⟩ : BufTy).Contents (Elt F))) : (⟨S1700000, .i32⟩ : BufTy).Contents (Elt F) → (⟨S1700000x1, .i32⟩ : BufTy).Contents (Elt F)) da) ((((broadcastInDim S1700000 ![] bcast_S_S1700000 : (⟨S_, .f32⟩ : BufTy).Contents (Elt F) → (⟨S1700000, .f32⟩ : BufTy).Contents (Elt F))) : (⟨S_, .f32⟩ : BufTy).Contents (Elt F) → (⟨S1700000, .f32⟩ : BufTy).Contents (Elt F)) (constant S_ .f32 0x3F800000#32 : (⟨S_, .f32⟩ : BufTy).Contents (Elt F)))) ((((broadcastInDim S1700000x1 ![0] bcast_S1700000_S1700000x1_0 : (⟨S1700000, .i32⟩ : BufTy).Contents (Elt F) → (⟨S1700000x1, .i32⟩ : BufTy).Contents (Elt F))) : (⟨S1700000, .i32⟩ : BufTy).Contents (Elt F) → (⟨S1700000x1, .i32⟩ : BufTy).Contents (Elt F)) ((((select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F))) : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)) ((((cmpi .slt : (⟨S1700000, .i32⟩ : BufTy).Contents (Elt F) → (⟨S1700000, .i32⟩ : BufTy).Contents (Elt F) → (⟨S1700000, .i1⟩ : BufTy).Contents (Elt F))) : (⟨S1700000, .i32⟩ : BufTy).Contents (Elt F) → (⟨S1700000, .i32⟩ : BufTy).Contents (Elt F) → (⟨S1700000, .i1⟩ : BufTy).Contents (Elt F)) da ((((broadcastInDim S1700000 ![] bcast_S_S1700000 : (⟨S_, .i32⟩ : BufTy).Contents (Elt F) → (⟨S1700000, .i32⟩ : BufTy).Contents (Elt F))) : (⟨S_, .i32⟩ : BufTy).Contents (Elt F) → (⟨S1700000, .i32⟩ : BufTy).Contents (Elt F)) (constantI S_ 32 0#32 : (⟨S_, .i32⟩ : BufTy).Contents (Elt F)))) ((((addi : (⟨S1700000, .i32⟩ : BufTy).Contents (Elt F) → (⟨S1700000, .i32⟩ : BufTy).Contents (Elt F) → (⟨S1700000, .i32⟩ : BufTy).Contents (Elt F))) : (⟨S1700000, .i32⟩ : BufTy).Contents (Elt F) → (⟨S1700000, .i32⟩ : BufTy).Contents (Elt F) → (⟨S1700000, .i32⟩ : BufTy).Contents (Elt F)) da ((((broadcastInDim S1700000 ![] bcast_S_S1700000 : (⟨S_, .i32⟩ : BufTy).Contents (Elt F) → (⟨S1700000, .i32⟩ : BufTy).Contents (Elt F))) : (⟨S_, .i32⟩ : BufTy).Contents (Elt F) → (⟨S1700000, .i32⟩ : BufTy).Contents (Elt F)) (constantI S_ 32 100000#32 : (⟨S_, .i32⟩ : BufTy).Contents (Elt F)))) da)))) ((((broadcastInDim S1700000 ![] bcast_S_S1700000 : (⟨S_, .f32⟩ : BufTy).Contents (Elt F) → (⟨S1700000, .f32⟩ : BufTy).Contents (Elt F))) : (⟨S_, .f32⟩ : BufTy).Contents (Elt F) → (⟨S1700000, .f32⟩ : BufTy).Contents (Elt F)) (constant S_ .f32 0xBF000000#32 : (⟨S_, .f32⟩ : BufTy).Contents (Elt F)))))

/-- The first dense layer of the reference: x · Wᵀ + b over 128 input features. -/
def linWide (x : (⟨S100000x128, .f32⟩ : BufTy).Contents (Elt F)) (W : (⟨S64x128, .f32⟩ : BufTy).Contents (Elt F)) (b : (⟨S64, .f32⟩ : BufTy).Contents (Elt F)) : (⟨S100000x64, .f32⟩ : BufTy).Contents (Elt F) :=
  ((((addf : (⟨S100000x64, .f32⟩ : BufTy).Contents (Elt F) → (⟨S100000x64, .f32⟩ : BufTy).Contents (Elt F) → (⟨S100000x64, .f32⟩ : BufTy).Contents (Elt F))) : (⟨S100000x64, .f32⟩ : BufTy).Contents (Elt F) → (⟨S100000x64, .f32⟩ : BufTy).Contents (Elt F) → (⟨S100000x64, .f32⟩ : BufTy).Contents (Elt F)) (((((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F))) : (⟨S100000x128, .f32⟩ : BufTy).Contents (Elt F) → (⟨S128x64, .f32⟩ : BufTy).Contents (Elt F) → (⟨S100000x64, .f32⟩ : BufTy).Contents (Elt F)) x (((((transpose S128x64 [1, 0] · transposes_S64x128_S128x64_1_0) : (⟨S64x128, .f32⟩ : BufTy).Contents (Elt F) → (⟨S128x64, .f32⟩ : BufTy).Contents (Elt F))) : (⟨S64x128, .f32⟩ : BufTy).Contents (Elt F) → (⟨S128x64, .f32⟩ : BufTy).Contents (Elt F)) W)) ((((broadcastInDim S100000x64 ![0, 1] bcast_S1x64_S100000x64_0_1 : (⟨S1x64, .f32⟩ : BufTy).Contents (Elt F) → (⟨S100000x64, .f32⟩ : BufTy).Contents (Elt F))) : (⟨S1x64, .f32⟩ : BufTy).Contents (Elt F) → (⟨S100000x64, .f32⟩ : BufTy).Contents (Elt F)) ((((broadcastInDim S1x64 ![1] bcast_S64_S1x64_1 : (⟨S64, .f32⟩ : BufTy).Contents (Elt F) → (⟨S1x64, .f32⟩ : BufTy).Contents (Elt F))) : (⟨S64, .f32⟩ : BufTy).Contents (Elt F) → (⟨S1x64, .f32⟩ : BufTy).Contents (Elt F)) b)))

/-- Message passing: rows of h gathered at the sources, scaled by the edge weights, scatter-added at the targets. -/
def aggr (h : (⟨S100000x64, .f32⟩ : BufTy).Contents (Elt F)) (sa : (⟨S1700000, .i32⟩ : BufTy).Contents (Elt F)) (da : (⟨S1700000, .i32⟩ : BufTy).Contents (Elt F)) (nr : (⟨S1700000, .f32⟩ : BufTy).Contents (Elt F)) : (⟨S100000x64, .f32⟩ : BufTy).Contents (Elt F) :=
  (((((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F))) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)) ((((broadcastInDim S100000x64 ![] bcast_S_S100000x64 : (⟨S_, .f32⟩ : BufTy).Contents (Elt F) → (⟨S100000x64, .f32⟩ : BufTy).Contents (Elt F))) : (⟨S_, .f32⟩ : BufTy).Contents (Elt F) → (⟨S100000x64, .f32⟩ : BufTy).Contents (Elt F)) (constant S_ .f32 0x00000000#32 : (⟨S_, .f32⟩ : BufTy).Contents (Elt F))) ((((broadcastInDim S1700000x1 ![0] bcast_S1700000_S1700000x1_0 : (⟨S1700000, .i32⟩ : BufTy).Contents (Elt F) → (⟨S1700000x1, .i32⟩ : BufTy).Contents (Elt F))) : (⟨S1700000, .i32⟩ : BufTy).Contents (Elt F) → (⟨S1700000x1, .i32⟩ : BufTy).Contents (Elt F)) da) ((((mulf : (⟨S1700000x64, .f32⟩ : BufTy).Contents (Elt F) → (⟨S1700000x64, .f32⟩ : BufTy).Contents (Elt F) → (⟨S1700000x64, .f32⟩ : BufTy).Contents (Elt F))) : (⟨S1700000x64, .f32⟩ : BufTy).Contents (Elt F) → (⟨S1700000x64, .f32⟩ : BufTy).Contents (Elt F) → (⟨S1700000x64, .f32⟩ : BufTy).Contents (Elt F)) (((((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F))) : (⟨S100000x64, .f32⟩ : BufTy).Contents (Elt F) → (⟨S1700000x1, .i32⟩ : BufTy).Contents (Elt F) → (⟨S1700000x64, .f32⟩ : BufTy).Contents (Elt F)) h ((((broadcastInDim S1700000x1 ![0] bcast_S1700000_S1700000x1_0 : (⟨S1700000, .i32⟩ : BufTy).Contents (Elt F) → (⟨S1700000x1, .i32⟩ : BufTy).Contents (Elt F))) : (⟨S1700000, .i32⟩ : BufTy).Contents (Elt F) → (⟨S1700000x1, .i32⟩ : BufTy).Contents (Elt F)) ((((select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F))) : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)) ((((cmpi .slt : (⟨S1700000, .i32⟩ : BufTy).Contents (Elt F) → (⟨S1700000, .i32⟩ : BufTy).Contents (Elt F) → (⟨S1700000, .i1⟩ : BufTy).Contents (Elt F))) : (⟨S1700000, .i32⟩ : BufTy).Contents (Elt F) → (⟨S1700000, .i32⟩ : BufTy).Contents (Elt F) → (⟨S1700000, .i1⟩ : BufTy).Contents (Elt F)) sa ((((broadcastInDim S1700000 ![] bcast_S_S1700000 : (⟨S_, .i32⟩ : BufTy).Contents (Elt F) → (⟨S1700000, .i32⟩ : BufTy).Contents (Elt F))) : (⟨S_, .i32⟩ : BufTy).Contents (Elt F) → (⟨S1700000, .i32⟩ : BufTy).Contents (Elt F)) (constantI S_ 32 0#32 : (⟨S_, .i32⟩ : BufTy).Contents (Elt F)))) ((((addi : (⟨S1700000, .i32⟩ : BufTy).Contents (Elt F) → (⟨S1700000, .i32⟩ : BufTy).Contents (Elt F) → (⟨S1700000, .i32⟩ : BufTy).Contents (Elt F))) : (⟨S1700000, .i32⟩ : BufTy).Contents (Elt F) → (⟨S1700000, .i32⟩ : BufTy).Contents (Elt F) → (⟨S1700000, .i32⟩ : BufTy).Contents (Elt F)) sa ((((broadcastInDim S1700000 ![] bcast_S_S1700000 : (⟨S_, .i32⟩ : BufTy).Contents (Elt F) → (⟨S1700000, .i32⟩ : BufTy).Contents (Elt F))) : (⟨S_, .i32⟩ : BufTy).Contents (Elt F) → (⟨S1700000, .i32⟩ : BufTy).Contents (Elt F)) (constantI S_ 32 100000#32 : (⟨S_, .i32⟩ : BufTy).Contents (Elt F)))) sa))) ((((broadcastInDim S1700000x64 ![0, 1] bcast_S1700000x1_S1700000x64_0_1 : (⟨S1700000x1, .f32⟩ : BufTy).Contents (Elt F) → (⟨S1700000x64, .f32⟩ : BufTy).Contents (Elt F))) : (⟨S1700000x1, .f32⟩ : BufTy).Contents (Elt F) → (⟨S1700000x64, .f32⟩ : BufTy).Contents (Elt F)) ((((broadcastInDim S1700000x1 ![0] bcast_S1700000_S1700000x1_0 : (⟨S1700000, .f32⟩ : BufTy).Contents (Elt F) → (⟨S1700000x1, .f32⟩ : BufTy).Contents (Elt F))) : (⟨S1700000, .f32⟩ : BufTy).Contents (Elt F) → (⟨S1700000x1, .f32⟩ : BufTy).Contents (Elt F)) nr))))

/-- Column means over the 100000 rows. -/
def meanOf (s : (⟨S100000x64, .f32⟩ : BufTy).Contents (Elt F)) : (⟨S64, .f32⟩ : BufTy).Contents (Elt F) :=
  ((((Host.divf : (⟨S64, .f32⟩ : BufTy).Contents (Elt F) → (⟨S64, .f32⟩ : BufTy).Contents (Elt F) → (⟨S64, .f32⟩ : BufTy).Contents (Elt F))) : (⟨S64, .f32⟩ : BufTy).Contents (Elt F) → (⟨S64, .f32⟩ : BufTy).Contents (Elt F) → (⟨S64, .f32⟩ : BufTy).Contents (Elt F)) (((((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F))) : (⟨S100000x64, .f32⟩ : BufTy).Contents (Elt F) → (⟨S_, .f32⟩ : BufTy).Contents (Elt F) → (⟨S64, .f32⟩ : BufTy).Contents (Elt F)) s (constant S_ .f32 0x00000000#32 : (⟨S_, .f32⟩ : BufTy).Contents (Elt F))) ((((broadcastInDim S64 ![] bcast_S_S64 : (⟨S_, .f32⟩ : BufTy).Contents (Elt F) → (⟨S64, .f32⟩ : BufTy).Contents (Elt F))) : (⟨S_, .f32⟩ : BufTy).Contents (Elt F) → (⟨S64, .f32⟩ : BufTy).Contents (Elt F)) (constant S_ .f32 0x47C35000#32 : (⟨S_, .f32⟩ : BufTy).Contents (Elt F))))

/-- Biased column variances over the 100000 rows. -/
def varOf (s : (⟨S100000x64, .f32⟩ : BufTy).Contents (Elt F)) : (⟨S64, .f32⟩ : BufTy).Contents (Elt F) :=
  ((((fun p a b => select (broadcastInDim S64 ![] bcast_S_S64 p) a b)) : (⟨S_, .i1⟩ : BufTy).Contents (Elt F) → (⟨S64, .f32⟩ : BufTy).Contents (Elt F) → (⟨S64, .f32⟩ : BufTy).Contents (Elt F) → (⟨S64, .f32⟩ : BufTy).Contents (Elt F)) ((((cmpf .ogt)) : (⟨S_, .f32⟩ : BufTy).Contents (Elt F) → (⟨S_, .f32⟩ : BufTy).Contents (Elt F) → (⟨S_, .i1⟩ : BufTy).Contents (Elt F)) (((subf) : (⟨S_, .f32⟩ : BufTy).Contents (Elt F) → (⟨S_, .f32⟩ : BufTy).Contents (Elt F) → (⟨S_, .f32⟩ : BufTy).Contents (Elt F)) (constant S_ .f32 0x47C35000#32 : (⟨S_, .f32⟩ : BufTy).Contents (Elt F)) ((((sitofp .f32)) : (⟨S_, .i32⟩ : BufTy).Contents (Elt F) → (⟨S_, .f32⟩ : BufTy).Contents (Elt F)) (constantI S_ 32 0#32 : (⟨S_, .i32⟩ : BufTy).Contents (Elt F)))) (constant S_ .f32 0x00000000#32 : (⟨S_, .f32⟩ : BufTy).Contents (Elt F))) (((Host.divf) : (⟨S64, .f32⟩ : BufTy).Contents (Elt F) → (⟨S64, .f32⟩ : BufTy).Contents (Elt F) → (⟨S64, .f32⟩ : BufTy).Contents (Elt F)) ((((fun x v => Host.reduceAdd x v reducesTo_S100000x64_S64_d0 h_S_)) : (⟨S100000x64, .f32⟩ : BufTy).Contents (Elt F) → (⟨S_, .f32⟩ : BufTy).Contents (Elt F) → (⟨S64, .f32⟩ : BufTy).Contents (Elt F)) (((mulf) : (⟨S100000x64, .f32⟩ : BufTy).Contents (Elt F) → (⟨S100000x64, .f32⟩ : BufTy).Contents (Elt F) → (⟨S100000x64, .f32⟩ : BufTy).Contents (Elt F)) (((subf) : (⟨S100000x64, .f32⟩ : BufTy).Contents (Elt F) → (⟨S100000x64, .f32⟩ : BufTy).Contents (Elt F) → (⟨S100000x64, .f32⟩ : BufTy).Contents (Elt F)) s ((((broadcastInDim S100000x64 ![0, 1] bcast_S1x64_S100000x64_0_1)) : (⟨S1x64, .f32⟩ : BufTy).Contents (Elt F) → (⟨S100000x64, .f32⟩ : BufTy).Contents (Elt F)) (((Host.divf) : (⟨S1x64, .f32⟩ : BufTy).Contents (Elt F) → (⟨S1x64, .f32⟩ : BufTy).Contents (Elt F) → (⟨S1x64, .f32⟩ : BufTy).Contents (Elt F)) ((((broadcastInDim S1x64 ![1] bcast_S64_S1x64_1)) : (⟨S64, .f32⟩ : BufTy).Contents (Elt F) → (⟨S1x64, .f32⟩ : BufTy).Contents (Elt F)) ((((fun x v => Host.reduceAdd x v reducesTo_S100000x64_S64_d0 h_S_)) : (⟨S100000x64, .f32⟩ : BufTy).Contents (Elt F) → (⟨S_, .f32⟩ : BufTy).Contents (Elt F) → (⟨S64, .f32⟩ : BufTy).Contents (Elt F)) s (constant S_ .f32 0x00000000#32 : (⟨S_, .f32⟩ : BufTy).Contents (Elt F)))) ((((broadcastInDim S1x64 ![] bcast_S_S1x64)) : (⟨S_, .f32⟩ : BufTy).Contents (Elt F) → (⟨S1x64, .f32⟩ : BufTy).Contents (Elt F)) (constant S_ .f32 0x47C35000#32 : (⟨S_, .f32⟩ : BufTy).Contents (Elt F)))))) (((subf) : (⟨S100000x64, .f32⟩ : BufTy).Contents (Elt F) → (⟨S100000x64, .f32⟩ : BufTy).Contents (Elt F) → (⟨S100000x64, .f32⟩ : BufTy).Contents (Elt F)) s ((((broadcastInDim S100000x64 ![0, 1] bcast_S1x64_S100000x64_0_1)) : (⟨S1x64, .f32⟩ : BufTy).Contents (Elt F) → (⟨S100000x64, .f32⟩ : BufTy).Contents (Elt F)) (((Host.divf) : (⟨S1x64, .f32⟩ : BufTy).Contents (Elt F) → (⟨S1x64, .f32⟩ : BufTy).Contents (Elt F) → (⟨S1x64, .f32⟩ : BufTy).Contents (Elt F)) ((((broadcastInDim S1x64 ![1] bcast_S64_S1x64_1)) : (⟨S64, .f32⟩ : BufTy).Contents (Elt F) → (⟨S1x64, .f32⟩ : BufTy).Contents (Elt F)) ((((fun x v => Host.reduceAdd x v reducesTo_S100000x64_S64_d0 h_S_)) : (⟨S100000x64, .f32⟩ : BufTy).Contents (Elt F) → (⟨S_, .f32⟩ : BufTy).Contents (Elt F) → (⟨S64, .f32⟩ : BufTy).Contents (Elt F)) s (constant S_ .f32 0x00000000#32 : (⟨S_, .f32⟩ : BufTy).Contents (Elt F)))) ((((broadcastInDim S1x64 ![] bcast_S_S1x64)) : (⟨S_, .f32⟩ : BufTy).Contents (Elt F) → (⟨S1x64, .f32⟩ : BufTy).Contents (Elt F)) (constant S_ .f32 0x47C35000#32 : (⟨S_, .f32⟩ : BufTy).Contents (Elt F))))))) (constant S_ .f32 0x00000000#32 : (⟨S_, .f32⟩ : BufTy).Contents (Elt F))) ((((broadcastInDim S64 ![] bcast_S_S64)) : (⟨S_, .f32⟩ : BufTy).Contents (Elt F) → (⟨S64, .f32⟩ : BufTy).Contents (Elt F)) (((subf) : (⟨S_, .f32⟩ : BufTy).Contents (Elt F) → (⟨S_, .f32⟩ : BufTy).Contents (Elt F) → (⟨S_, .f32⟩ : BufTy).Contents (Elt F)) (constant S_ .f32 0x47C35000#32 : (⟨S_, .f32⟩ : BufTy).Contents (Elt F)) ((((sitofp .f32)) : (⟨S_, .i32⟩ : BufTy).Contents (Elt F) → (⟨S_, .f32⟩ : BufTy).Contents (Elt F)) (constantI S_ 32 0#32 : (⟨S_, .i32⟩ : BufTy).Contents (Elt F)))))) ((((broadcastInDim S64 ![] bcast_S_S64)) : (⟨S_, .f32⟩ : BufTy).Contents (Elt F) → (⟨S64, .f32⟩ : BufTy).Contents (Elt F)) (((id) : (⟨S_, .f32⟩ : BufTy).Contents (Elt F) → (⟨S_, .f32⟩ : BufTy).Contents (Elt F)) (constant S_ .f32 0x7FC00000#32 : (⟨S_, .f32⟩ : BufTy).Contents (Elt F)))))

/-- The reference's normalisation and rectifier: max(g·(s − mu) / sqrt(vr + eps) + be, 0). -/
def bnRef (s : (⟨S100000x64, .f32⟩ : BufTy).Contents (Elt F)) (mu : (⟨S64, .f32⟩ : BufTy).Contents (Elt F)) (vr : (⟨S64, .f32⟩ : BufTy).Contents (Elt F)) (g : (⟨S64, .f32⟩ : BufTy).Contents (Elt F)) (be : (⟨S64, .f32⟩ : BufTy).Contents (Elt F)) : (⟨S100000x64, .f32⟩ : BufTy).Contents (Elt F) :=
  (((maximumf) : (⟨S100000x64, .f32⟩ : BufTy).Contents (Elt F) → (⟨S100000x64, .f32⟩ : BufTy).Contents (Elt F) → (⟨S100000x64, .f32⟩ : BufTy).Contents (Elt F)) ((((addf : (⟨S100000x64, .f32⟩ : BufTy).Contents (Elt F) → (⟨S100000x64, .f32⟩ : BufTy).Contents (Elt F) → (⟨S100000x64, .f32⟩ : BufTy).Contents (Elt F))) : (⟨S100000x64, .f32⟩ : BufTy).Contents (Elt F) → (⟨S100000x64, .f32⟩ : BufTy).Contents (Elt F) → (⟨S100000x64, .f32⟩ : BufTy).Contents (Elt F)) ((((Host.divf : (⟨S100000x64, .f32⟩ : BufTy).Contents (Elt F) → (⟨S100000x64, .f32⟩ : BufTy).Contents (Elt F) → (⟨S100000x64, .f32⟩ : BufTy).Contents (Elt F))) : (⟨S100000x64, .f32⟩ : BufTy).Contents (Elt F) → (⟨S100000x64, .f32⟩ : BufTy).Contents (Elt F) → (⟨S100000x64, .f32⟩ : BufTy).Contents (Elt F)) ((((mulf : (⟨S100000x64, .f32⟩ : BufTy).Contents (Elt F) → (⟨S100000x64, .f32⟩ : BufTy).Contents (Elt F) → (⟨S100000x64, .f32⟩ : BufTy).Contents (Elt F))) : (⟨S100000x64, .f32⟩ : BufTy).Contents (Elt F) → (⟨S100000x64, .f32⟩ : BufTy).Contents (Elt F) → (⟨S100000x64, .f32⟩ : BufTy).Contents (Elt F)) ((((broadcastInDim S100000x64 ![0, 1] bcast_S1x64_S100000x64_0_1 : (⟨S1x64, .f32⟩ : BufTy).Contents (Elt F) → (⟨S100000x64, .f32⟩ : BufTy).Contents (Elt F))) : (⟨S1x64, .f32⟩ : BufTy).Contents (Elt F) → (⟨S100000x64, .f32⟩ : BufTy).Contents (Elt F)) ((((broadcastInDim S1x64 ![1] bcast_S64_S1x64_1 : (⟨S64, .f32⟩ : BufTy).Contents (Elt F) → (⟨S1x64, .f32⟩ : BufTy).Contents (Elt F))) : (⟨S64, .f32⟩ : BufTy).Contents (Elt F) → (⟨S1x64, .f32⟩ : BufTy).Contents (Elt F)) g)) ((((subf : (⟨S100000x64, .f32⟩ : BufTy).Contents (Elt F) → (⟨S100000x64, .f32⟩ : BufTy).Contents (Elt F) → (⟨S100000x64, .f32⟩ : BufTy).Contents (Elt F))) : (⟨S100000x64, .f32⟩ : BufTy).Contents (Elt F) → (⟨S100000x64, .f32⟩ : BufTy).Contents (Elt F) → (⟨S100000x64, .f32⟩ : BufTy).Contents (Elt F)) s ((((broadcastInDim S100000x64 ![0, 1] bcast_S1x64_S100000x64_0_1 : (⟨S1x64, .f32⟩ : BufTy).Contents (Elt F) → (⟨S100000x64, .f32⟩ : BufTy).Contents (Elt F))) : (⟨S1x64, .f32⟩ : BufTy).Contents (Elt F) → (⟨S100000x64, .f32⟩ : BufTy).Contents (Elt F)) ((((broadcastInDim S1x64 ![1] bcast_S64_S1x64_1 : (⟨S64, .f32⟩ : BufTy).Contents (Elt F) → (⟨S1x64, .f32⟩ : BufTy).Contents (Elt F))) : (⟨S64, .f32⟩ : BufTy).Contents (Elt F) → (⟨S1x64, .f32⟩ : BufTy).Contents (Elt F)) mu)))) ((((broadcastInDim S100000x64 ![0, 1] bcast_S1x64_S100000x64_0_1 : (⟨S1x64, .f32⟩ : BufTy).Contents (Elt F) → (⟨S100000x64, .f32⟩ : BufTy).Contents (Elt F))) : (⟨S1x64, .f32⟩ : BufTy).Contents (Elt F) → (⟨S100000x64, .f32⟩ : BufTy).Contents (Elt F)) ((((broadcastInDim S1x64 ![1] bcast_S64_S1x64_1 : (⟨S64, .f32⟩ : BufTy).Contents (Elt F) → (⟨S1x64, .f32⟩ : BufTy).Contents (Elt F))) : (⟨S64, .f32⟩ : BufTy).Contents (Elt F) → (⟨S1x64, .f32⟩ : BufTy).Contents (Elt F)) ((((Host.sqrt : (⟨S64, .f32⟩ : BufTy).Contents (Elt F) → (⟨S64, .f32⟩ : BufTy).Contents (Elt F))) : (⟨S64, .f32⟩ : BufTy).Contents (Elt F) → (⟨S64, .f32⟩ : BufTy).Contents (Elt F)) ((((addf : (⟨S64, .f32⟩ : BufTy).Contents (Elt F) → (⟨S64, .f32⟩ : BufTy).Contents (Elt F) → (⟨S64, .f32⟩ : BufTy).Contents (Elt F))) : (⟨S64, .f32⟩ : BufTy).Contents (Elt F) → (⟨S64, .f32⟩ : BufTy).Contents (Elt F) → (⟨S64, .f32⟩ : BufTy).Contents (Elt F)) vr ((((broadcastInDim S64 ![] bcast_S_S64 : (⟨S_, .f32⟩ : BufTy).Contents (Elt F) → (⟨S64, .f32⟩ : BufTy).Contents (Elt F))) : (⟨S_, .f32⟩ : BufTy).Contents (Elt F) → (⟨S64, .f32⟩ : BufTy).Contents (Elt F)) (constant S_ .f32 0x3727C5AC#32 : (⟨S_, .f32⟩ : BufTy).Contents (Elt F)))))))) ((((broadcastInDim S100000x64 ![0, 1] bcast_S1x64_S100000x64_0_1 : (⟨S1x64, .f32⟩ : BufTy).Contents (Elt F) → (⟨S100000x64, .f32⟩ : BufTy).Contents (Elt F))) : (⟨S1x64, .f32⟩ : BufTy).Contents (Elt F) → (⟨S100000x64, .f32⟩ : BufTy).Contents (Elt F)) ((((broadcastInDim S1x64 ![1] bcast_S64_S1x64_1 : (⟨S64, .f32⟩ : BufTy).Contents (Elt F) → (⟨S1x64, .f32⟩ : BufTy).Contents (Elt F))) : (⟨S64, .f32⟩ : BufTy).Contents (Elt F) → (⟨S1x64, .f32⟩ : BufTy).Contents (Elt F)) be))) ((((broadcastInDim S100000x64 ![] bcast_S_S100000x64)) : (⟨S_, .f32⟩ : BufTy).Contents (Elt F) → (⟨S100000x64, .f32⟩ : BufTy).Contents (Elt F)) (constant S_ .f32 0x00000000#32 : (⟨S_, .f32⟩ : BufTy).Contents (Elt F))))

/-- A dense layer of the reference: x · Wᵀ + b over 64 input features. -/
def linRef (x : (⟨S100000x64, .f32⟩ : BufTy).Contents (Elt F)) (W : (⟨S64x64, .f32⟩ : BufTy).Contents (Elt F)) (b : (⟨S64, .f32⟩ : BufTy).Contents (Elt F)) : (⟨S100000x64, .f32⟩ : BufTy).Contents (Elt F) :=
  ((((addf : (⟨S100000x64, .f32⟩ : BufTy).Contents (Elt F) → (⟨S100000x64, .f32⟩ : BufTy).Contents (Elt F) → (⟨S100000x64, .f32⟩ : BufTy).Contents (Elt F))) : (⟨S100000x64, .f32⟩ : BufTy).Contents (Elt F) → (⟨S100000x64, .f32⟩ : BufTy).Contents (Elt F) → (⟨S100000x64, .f32⟩ : BufTy).Contents (Elt F)) (((((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F))) : (⟨S100000x64, .f32⟩ : BufTy).Contents (Elt F) → (⟨S64x64, .f32⟩ : BufTy).Contents (Elt F) → (⟨S100000x64, .f32⟩ : BufTy).Contents (Elt F)) x (((((transpose S64x64 [1, 0] · transposes_S64x64_S64x64_1_0) : (⟨S64x64, .f32⟩ : BufTy).Contents (Elt F) → (⟨S64x64, .f32⟩ : BufTy).Contents (Elt F))) : (⟨S64x64, .f32⟩ : BufTy).Contents (Elt F) → (⟨S64x64, .f32⟩ : BufTy).Contents (Elt F)) W)) ((((broadcastInDim S100000x64 ![0, 1] bcast_S1x64_S100000x64_0_1 : (⟨S1x64, .f32⟩ : BufTy).Contents (Elt F) → (⟨S100000x64, .f32⟩ : BufTy).Contents (Elt F))) : (⟨S1x64, .f32⟩ : BufTy).Contents (Elt F) → (⟨S100000x64, .f32⟩ : BufTy).Contents (Elt F)) ((((broadcastInDim S1x64 ![1] bcast_S64_S1x64_1 : (⟨S64, .f32⟩ : BufTy).Contents (Elt F) → (⟨S1x64, .f32⟩ : BufTy).Contents (Elt F))) : (⟨S64, .f32⟩ : BufTy).Contents (Elt F) → (⟨S1x64, .f32⟩ : BufTy).Contents (Elt F)) b)))

/-- Sum pooling: the rows of x scatter-added at their graph's row. -/
def pool (x : (⟨S100000x64, .f32⟩ : BufTy).Contents (Elt F)) (bt : (⟨S100000, .i32⟩ : BufTy).Contents (Elt F)) : (⟨S128x64, .f32⟩ : BufTy).Contents (Elt F) :=
  (((((fun x i u => Host.scatterAdd scatter_S128x64_S100000x1_S100000x64_1_0_0_1 x i u) : (⟨S128x64, .f32⟩ : BufTy).Contents (Elt F) → (⟨S100000x1, .i32⟩ : BufTy).Contents (Elt F) → (⟨S100000x64, .f32⟩ : BufTy).Contents (Elt F) → (⟨S128x64, .f32⟩ : BufTy).Contents (Elt F))) : (⟨S128x64, .f32⟩ : BufTy).Contents (Elt F) → (⟨S100000x1, .i32⟩ : BufTy).Contents (Elt F) → (⟨S100000x64, .f32⟩ : BufTy).Contents (Elt F) → (⟨S128x64, .f32⟩ : BufTy).Contents (Elt F)) ((((broadcastInDim S128x64 ![] bcast_S_S128x64 : (⟨S_, .f32⟩ : BufTy).Contents (Elt F) → (⟨S128x64, .f32⟩ : BufTy).Contents (Elt F))) : (⟨S_, .f32⟩ : BufTy).Contents (Elt F) → (⟨S128x64, .f32⟩ : BufTy).Contents (Elt F)) (constant S_ .f32 0x00000000#32 : (⟨S_, .f32⟩ : BufTy).Contents (Elt F))) ((((broadcastInDim S100000x1 ![0] bcast_S100000_S100000x1_0 : (⟨S100000, .i32⟩ : BufTy).Contents (Elt F) → (⟨S100000x1, .i32⟩ : BufTy).Contents (Elt F))) : (⟨S100000, .i32⟩ : BufTy).Contents (Elt F) → (⟨S100000x1, .i32⟩ : BufTy).Contents (Elt F)) bt) x)

/-- The reference's head: max(p · W1ᵀ + b1, 0) · W2ᵀ + b2. -/
def mlpRef (p : (⟨S128x64, .f32⟩ : BufTy).Contents (Elt F)) (W1 : (⟨S64x64, .f32⟩ : BufTy).Contents (Elt F)) (b1 : (⟨S64, .f32⟩ : BufTy).Contents (Elt F)) (W2 : (⟨S10x64, .f32⟩ : BufTy).Contents (Elt F)) (b2 : (⟨S10, .f32⟩ : BufTy).Contents (Elt F)) : (⟨S128x10, .f32⟩ : BufTy).Contents (Elt F) :=
  ((((addf : (⟨S128x10, .f32⟩ : BufTy).Contents (Elt F) → (⟨S128x10, .f32⟩ : BufTy).Contents (Elt F) → (⟨S128x10, .f32⟩ : BufTy).Contents (Elt F))) : (⟨S128x10, .f32⟩ : BufTy).Contents (Elt F) → (⟨S128x10, .f32⟩ : BufTy).Contents (Elt F) → (⟨S128x10, .f32⟩ : BufTy).Contents (Elt F)) (((((fun l r => Host.dotGeneral dot_S128x64_S64x10_S128x10_1_0_0_1_n_n none l r) : (⟨S128x64, .f32⟩ : BufTy).Contents (Elt F) → (⟨S64x10, .f32⟩ : BufTy).Contents (Elt F) → (⟨S128x10, .f32⟩ : BufTy).Contents (Elt F))) : (⟨S128x64, .f32⟩ : BufTy).Contents (Elt F) → (⟨S64x10, .f32⟩ : BufTy).Contents (Elt F) → (⟨S128x10, .f32⟩ : BufTy).Contents (Elt F)) (((maximumf) : (⟨S128x64, .f32⟩ : BufTy).Contents (Elt F) → (⟨S128x64, .f32⟩ : BufTy).Contents (Elt F) → (⟨S128x64, .f32⟩ : BufTy).Contents (Elt F)) ((((addf : (⟨S128x64, .f32⟩ : BufTy).Contents (Elt F) → (⟨S128x64, .f32⟩ : BufTy).Contents (Elt F) → (⟨S128x64, .f32⟩ : BufTy).Contents (Elt F))) : (⟨S128x64, .f32⟩ : BufTy).Contents (Elt F) → (⟨S128x64, .f32⟩ : BufTy).Contents (Elt F) → (⟨S128x64, .f32⟩ : BufTy).Contents (Elt F)) (((((fun l r => Host.dotGeneral dot_S128x64_S64x64_S128x64_1_0_0_1_n_n none l r) : (⟨S128x64, .f32⟩ : BufTy).Contents (Elt F) → (⟨S64x64, .f32⟩ : BufTy).Contents (Elt F) → (⟨S128x64, .f32⟩ : BufTy).Contents (Elt F))) : (⟨S128x64, .f32⟩ : BufTy).Contents (Elt F) → (⟨S64x64, .f32⟩ : BufTy).Contents (Elt F) → (⟨S128x64, .f32⟩ : BufTy).Contents (Elt F)) p (((((transpose S64x64 [1, 0] · transposes_S64x64_S64x64_1_0) : (⟨S64x64, .f32⟩ : BufTy).Contents (Elt F) → (⟨S64x64, .f32⟩ : BufTy).Contents (Elt F))) : (⟨S64x64, .f32⟩ : BufTy).Contents (Elt F) → (⟨S64x64, .f32⟩ : BufTy).Contents (Elt F)) W1)) ((((broadcastInDim S128x64 ![0, 1] bcast_S1x64_S128x64_0_1 : (⟨S1x64, .f32⟩ : BufTy).Contents (Elt F) → (⟨S128x64, .f32⟩ : BufTy).Contents (Elt F))) : (⟨S1x64, .f32⟩ : BufTy).Contents (Elt F) → (⟨S128x64, .f32⟩ : BufTy).Contents (Elt F)) ((((broadcastInDim S1x64 ![1] bcast_S64_S1x64_1 : (⟨S64, .f32⟩ : BufTy).Contents (Elt F) → (⟨S1x64, .f32⟩ : BufTy).Contents (Elt F))) : (⟨S64, .f32⟩ : BufTy).Contents (Elt F) → (⟨S1x64, .f32⟩ : BufTy).Contents (Elt F)) b1))) ((((broadcastInDim S128x64 ![] bcast_S_S128x64)) : (⟨S_, .f32⟩ : BufTy).Contents (Elt F) → (⟨S128x64, .f32⟩ : BufTy).Contents (Elt F)) (constant S_ .f32 0x00000000#32 : (⟨S_, .f32⟩ : BufTy).Contents (Elt F)))) (((((transpose S64x10 [1, 0] · transposes_S10x64_S64x10_1_0) : (⟨S10x64, .f32⟩ : BufTy).Contents (Elt F) → (⟨S64x10, .f32⟩ : BufTy).Contents (Elt F))) : (⟨S10x64, .f32⟩ : BufTy).Contents (Elt F) → (⟨S64x10, .f32⟩ : BufTy).Contents (Elt F)) W2)) ((((broadcastInDim S128x10 ![0, 1] bcast_S1x10_S128x10_0_1 : (⟨S1x10, .f32⟩ : BufTy).Contents (Elt F) → (⟨S128x10, .f32⟩ : BufTy).Contents (Elt F))) : (⟨S1x10, .f32⟩ : BufTy).Contents (Elt F) → (⟨S128x10, .f32⟩ : BufTy).Contents (Elt F)) ((((broadcastInDim S1x10 ![1] bcast_S10_S1x10_1 : (⟨S10, .f32⟩ : BufTy).Contents (Elt F) → (⟨S1x10, .f32⟩ : BufTy).Contents (Elt F))) : (⟨S10, .f32⟩ : BufTy).Contents (Elt F) → (⟨S1x10, .f32⟩ : BufTy).Contents (Elt F)) b2)))

/-- The transpose of the first layer's weight matrix. -/
def transpWide (W : (⟨S64x128, .f32⟩ : BufTy).Contents (Elt F)) : (⟨S128x64, .f32⟩ : BufTy).Contents (Elt F) :=
  (((((transpose S128x64 [1, 0] · transposes_S64x128_S128x64_1_0) : (⟨S64x128, .f32⟩ : BufTy).Contents (Elt F) → (⟨S128x64, .f32⟩ : BufTy).Contents (Elt F))) : (⟨S64x128, .f32⟩ : BufTy).Contents (Elt F) → (⟨S128x64, .f32⟩ : BufTy).Contents (Elt F)) W)

/-- x · wt + b over 128 input features, the weights already transposed. -/
def linCoreWide (x : (⟨S100000x128, .f32⟩ : BufTy).Contents (Elt F)) (wt : (⟨S128x64, .f32⟩ : BufTy).Contents (Elt F)) (b : (⟨S64, .f32⟩ : BufTy).Contents (Elt F)) : (⟨S100000x64, .f32⟩ : BufTy).Contents (Elt F) :=
  ((((addf : (⟨S100000x64, .f32⟩ : BufTy).Contents (Elt F) → (⟨S100000x64, .f32⟩ : BufTy).Contents (Elt F) → (⟨S100000x64, .f32⟩ : BufTy).Contents (Elt F))) : (⟨S100000x64, .f32⟩ : BufTy).Contents (Elt F) → (⟨S100000x64, .f32⟩ : BufTy).Contents (Elt F) → (⟨S100000x64, .f32⟩ : BufTy).Contents (Elt F)) (((((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F))) : (⟨S100000x128, .f32⟩ : BufTy).Contents (Elt F) → (⟨S128x64, .f32⟩ : BufTy).Contents (Elt F) → (⟨S100000x64, .f32⟩ : BufTy).Contents (Elt F)) x wt) ((((broadcastInDim S100000x64 ![0, 1] bcast_S1x64_S100000x64_0_1 : (⟨S1x64, .f32⟩ : BufTy).Contents (Elt F) → (⟨S100000x64, .f32⟩ : BufTy).Contents (Elt F))) : (⟨S1x64, .f32⟩ : BufTy).Contents (Elt F) → (⟨S100000x64, .f32⟩ : BufTy).Contents (Elt F)) ((((broadcastInDim S1x64 ![1] bcast_S64_S1x64_1 : (⟨S64, .f32⟩ : BufTy).Contents (Elt F) → (⟨S1x64, .f32⟩ : BufTy).Contents (Elt F))) : (⟨S64, .f32⟩ : BufTy).Contents (Elt F) → (⟨S1x64, .f32⟩ : BufTy).Contents (Elt F)) b)))

/-- The transpose of a square weight matrix. -/
def transpSq (W : (⟨S64x64, .f32⟩ : BufTy).Contents (Elt F)) : (⟨S64x64, .f32⟩ : BufTy).Contents (Elt F) :=
  (((((transpose S64x64 [1, 0] · transposes_S64x64_S64x64_1_0) : (⟨S64x64, .f32⟩ : BufTy).Contents (Elt F) → (⟨S64x64, .f32⟩ : BufTy).Contents (Elt F))) : (⟨S64x64, .f32⟩ : BufTy).Contents (Elt F) → (⟨S64x64, .f32⟩ : BufTy).Contents (Elt F)) W)

/-- x · wt + b over 64 input features, the weights already transposed. -/
def linCore (x : (⟨S100000x64, .f32⟩ : BufTy).Contents (Elt F)) (wt : (⟨S64x64, .f32⟩ : BufTy).Contents (Elt F)) (b : (⟨S64, .f32⟩ : BufTy).Contents (Elt F)) : (⟨S100000x64, .f32⟩ : BufTy).Contents (Elt F) :=
  ((((addf : (⟨S100000x64, .f32⟩ : BufTy).Contents (Elt F) → (⟨S100000x64, .f32⟩ : BufTy).Contents (Elt F) → (⟨S100000x64, .f32⟩ : BufTy).Contents (Elt F))) : (⟨S100000x64, .f32⟩ : BufTy).Contents (Elt F) → (⟨S100000x64, .f32⟩ : BufTy).Contents (Elt F) → (⟨S100000x64, .f32⟩ : BufTy).Contents (Elt F)) (((((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F))) : (⟨S100000x64, .f32⟩ : BufTy).Contents (Elt F) → (⟨S64x64, .f32⟩ : BufTy).Contents (Elt F) → (⟨S100000x64, .f32⟩ : BufTy).Contents (Elt F)) x wt) ((((broadcastInDim S100000x64 ![0, 1] bcast_S1x64_S100000x64_0_1 : (⟨S1x64, .f32⟩ : BufTy).Contents (Elt F) → (⟨S100000x64, .f32⟩ : BufTy).Contents (Elt F))) : (⟨S1x64, .f32⟩ : BufTy).Contents (Elt F) → (⟨S100000x64, .f32⟩ : BufTy).Contents (Elt F)) ((((broadcastInDim S1x64 ![1] bcast_S64_S1x64_1 : (⟨S64, .f32⟩ : BufTy).Contents (Elt F) → (⟨S1x64, .f32⟩ : BufTy).Contents (Elt F))) : (⟨S64, .f32⟩ : BufTy).Contents (Elt F) → (⟨S1x64, .f32⟩ : BufTy).Contents (Elt F)) b)))

/-- The transpose of the head's second weight matrix. -/
def transpOut (W : (⟨S10x64, .f32⟩ : BufTy).Contents (Elt F)) : (⟨S64x10, .f32⟩ : BufTy).Contents (Elt F) :=
  (((((transpose S64x10 [1, 0] · transposes_S10x64_S64x10_1_0) : (⟨S10x64, .f32⟩ : BufTy).Contents (Elt F) → (⟨S64x10, .f32⟩ : BufTy).Contents (Elt F))) : (⟨S10x64, .f32⟩ : BufTy).Contents (Elt F) → (⟨S64x10, .f32⟩ : BufTy).Contents (Elt F)) W)

/-- max(p · wt1 + b1, 0) · wt2 + b2, the weights already transposed. -/
def mlpCore (p : (⟨S128x64, .f32⟩ : BufTy).Contents (Elt F)) (wt1 : (⟨S64x64, .f32⟩ : BufTy).Contents (Elt F)) (b1 : (⟨S64, .f32⟩ : BufTy).Contents (Elt F)) (wt2 : (⟨S64x10, .f32⟩ : BufTy).Contents (Elt F)) (b2 : (⟨S10, .f32⟩ : BufTy).Contents (Elt F)) : (⟨S128x10, .f32⟩ : BufTy).Contents (Elt F) :=
  ((((addf : (⟨S128x10, .f32⟩ : BufTy).Contents (Elt F) → (⟨S128x10, .f32⟩ : BufTy).Contents (Elt F) → (⟨S128x10, .f32⟩ : BufTy).Contents (Elt F))) : (⟨S128x10, .f32⟩ : BufTy).Contents (Elt F) → (⟨S128x10, .f32⟩ : BufTy).Contents (Elt F) → (⟨S128x10, .f32⟩ : BufTy).Contents (Elt F)) (((((fun l r => Host.dotGeneral dot_S128x64_S64x10_S128x10_1_0_0_1_n_n none l r) : (⟨S128x64, .f32⟩ : BufTy).Contents (Elt F) → (⟨S64x10, .f32⟩ : BufTy).Contents (Elt F) → (⟨S128x10, .f32⟩ : BufTy).Contents (Elt F))) : (⟨S128x64, .f32⟩ : BufTy).Contents (Elt F) → (⟨S64x10, .f32⟩ : BufTy).Contents (Elt F) → (⟨S128x10, .f32⟩ : BufTy).Contents (Elt F)) (((maximumf) : (⟨S128x64, .f32⟩ : BufTy).Contents (Elt F) → (⟨S128x64, .f32⟩ : BufTy).Contents (Elt F) → (⟨S128x64, .f32⟩ : BufTy).Contents (Elt F)) ((((addf : (⟨S128x64, .f32⟩ : BufTy).Contents (Elt F) → (⟨S128x64, .f32⟩ : BufTy).Contents (Elt F) → (⟨S128x64, .f32⟩ : BufTy).Contents (Elt F))) : (⟨S128x64, .f32⟩ : BufTy).Contents (Elt F) → (⟨S128x64, .f32⟩ : BufTy).Contents (Elt F) → (⟨S128x64, .f32⟩ : BufTy).Contents (Elt F)) (((((fun l r => Host.dotGeneral dot_S128x64_S64x64_S128x64_1_0_0_1_n_n none l r) : (⟨S128x64, .f32⟩ : BufTy).Contents (Elt F) → (⟨S64x64, .f32⟩ : BufTy).Contents (Elt F) → (⟨S128x64, .f32⟩ : BufTy).Contents (Elt F))) : (⟨S128x64, .f32⟩ : BufTy).Contents (Elt F) → (⟨S64x64, .f32⟩ : BufTy).Contents (Elt F) → (⟨S128x64, .f32⟩ : BufTy).Contents (Elt F)) p wt1) ((((broadcastInDim S128x64 ![0, 1] bcast_S1x64_S128x64_0_1 : (⟨S1x64, .f32⟩ : BufTy).Contents (Elt F) → (⟨S128x64, .f32⟩ : BufTy).Contents (Elt F))) : (⟨S1x64, .f32⟩ : BufTy).Contents (Elt F) → (⟨S128x64, .f32⟩ : BufTy).Contents (Elt F)) ((((broadcastInDim S1x64 ![1] bcast_S64_S1x64_1 : (⟨S64, .f32⟩ : BufTy).Contents (Elt F) → (⟨S1x64, .f32⟩ : BufTy).Contents (Elt F))) : (⟨S64, .f32⟩ : BufTy).Contents (Elt F) → (⟨S1x64, .f32⟩ : BufTy).Contents (Elt F)) b1))) ((((broadcastInDim S128x64 ![] bcast_S_S128x64)) : (⟨S_, .f32⟩ : BufTy).Contents (Elt F) → (⟨S128x64, .f32⟩ : BufTy).Contents (Elt F)) (constant S_ .f32 0x00000000#32 : (⟨S_, .f32⟩ : BufTy).Contents (Elt F)))) wt2) ((((broadcastInDim S128x10 ![0, 1] bcast_S1x10_S128x10_0_1 : (⟨S1x10, .f32⟩ : BufTy).Contents (Elt F) → (⟨S128x10, .f32⟩ : BufTy).Contents (Elt F))) : (⟨S1x10, .f32⟩ : BufTy).Contents (Elt F) → (⟨S128x10, .f32⟩ : BufTy).Contents (Elt F)) ((((broadcastInDim S1x10 ![1] bcast_S10_S1x10_1 : (⟨S10, .f32⟩ : BufTy).Contents (Elt F) → (⟨S1x10, .f32⟩ : BufTy).Contents (Elt F))) : (⟨S10, .f32⟩ : BufTy).Contents (Elt F) → (⟨S1x10, .f32⟩ : BufTy).Contents (Elt F)) b2)))

/-- A one-row matrix read as a vector of 64 entries. -/
def rowOf64 (r : (⟨S1x64, .f32⟩ : BufTy).Contents (Elt F)) : (⟨S64, .f32⟩ : BufTy).Contents (Elt F) := shapeCast S64 r (by decide)

/-- A one-row matrix read as a vector of 10 entries. -/
def rowOf10 (r : (⟨S1x10, .f32⟩ : BufTy).Contents (Elt F)) : (⟨S10, .f32⟩ : BufTy).Contents (Elt F) := shapeCast S10 r (by decide)

/-- Normalisation with the statistics taken from the array itself. -/
def bnOf (s : (⟨S100000x64, .f32⟩ : BufTy).Contents (Elt F)) (g : (⟨S64, .f32⟩ : BufTy).Contents (Elt F)) (be : (⟨S64, .f32⟩ : BufTy).Contents (Elt F)) : (⟨S100000x64, .f32⟩ : BufTy).Contents (Elt F) :=
  bnRef s (meanOf s) (varOf s) g be

/-- One message-passing step after a dense layer's output `h`: aggregate over the edges of `E`, normalise, rectify. -/
def convOf (h : (⟨S100000x64, .f32⟩ : BufTy).Contents (Elt F)) (E : (⟨S2x1600000, .i32⟩ : BufTy).Contents (Elt F)) (g : (⟨S64, .f32⟩ : BufTy).Contents (Elt F)) (be : (⟨S64, .f32⟩ : BufTy).Contents (Elt F)) : (⟨S100000x64, .f32⟩ : BufTy).Contents (Elt F) :=
  bnOf (aggr h (srcA E) (dstA E) (nrm (srcA E) (dstA E))) g be

/-- The reference's result as one function of the nineteen argument arrays. -/
def refOut (x : (⟨S100000x128, .f32⟩ : BufTy).Contents (Elt F)) (E : (⟨S2x1600000, .i32⟩ : BufTy).Contents (Elt F)) (bt : (⟨S100000, .i32⟩ : BufTy).Contents (Elt F)) (W1 : (⟨S64x128, .f32⟩ : BufTy).Contents (Elt F)) (b1 : (⟨S64, .f32⟩ : BufTy).Contents (Elt F)) (g1 : (⟨S64, .f32⟩ : BufTy).Contents (Elt F)) (be1 : (⟨S64, .f32⟩ : BufTy).Contents (Elt F))
    (W2 : (⟨S64x64, .f32⟩ : BufTy).Contents (Elt F)) (b2 : (⟨S64, .f32⟩ : BufTy).Contents (Elt F)) (g2 : (⟨S64, .f32⟩ : BufTy).Contents (Elt F)) (be2 : (⟨S64, .f32⟩ : BufTy).Contents (Elt F)) (W3 : (⟨S64x64, .f32⟩ : BufTy).Contents (Elt F)) (b3 : (⟨S64, .f32⟩ : BufTy).Contents (Elt F)) (g3 : (⟨S64, .f32⟩ : BufTy).Contents (Elt F)) (be3 : (⟨S64, .f32⟩ : BufTy).Contents (Elt F))
    (Wc1 : (⟨S64x64, .f32⟩ : BufTy).Contents (Elt F)) (bc1 : (⟨S64, .f32⟩ : BufTy).Contents (Elt F)) (Wc2 : (⟨S10x64, .f32⟩ : BufTy).Contents (Elt F)) (bc2 : (⟨S10, .f32⟩ : BufTy).Contents (Elt F)) : (⟨S128x10, .f32⟩ : BufTy).Contents (Elt F) :=
  mlpRef (pool (convOf (linRef (convOf (linRef (convOf (linWide x W1 b1) E g1 be1) W2 b2) E g2 be2) W3 b3) E g3 be3) bt) Wc1 bc1 Wc2 bc2

end Cert.Stages

end
-- ==== Proof.StageFacts.lean ====
/-
  Facts about the stage functions that the comparison of the two programs uses: a vector of 64 (or 10) entries laid
  as a one-row matrix and read back is the vector; a dense layer is its core applied to the transposed weights; and
  the column variance is never negative — it is a sum of squares of extended reals divided by the positive row
  count, which is the one place where the kernel's product with a reciprocal square root and the reference's
  quotient by a square root need their operand to be positive.
-/
import proofs.«117444_j67095979098699_1_alg».proof.Proof.Stages
import Idealize.ShloMosaic.PureOps.Ideal.Laws
import Idealize.ShloMosaic.Lib.Pipeline.Value
import Idealize.ShloMosaic.Lib.KernelVsHost

noncomputable section

namespace Cert.Stages

open Idealize.ShloMosaic Cert.ReferenceIdeal

variable {F : FTy → Type} [FloatOps F] [Cert.ReferenceIdeal.Facts]

open Cert.ReferenceIdeal.Facts₀ Cert.ReferenceIdeal.Facts

/-- A vector of 64 entries laid as a one-row matrix. -/
def rowTo64 (b : (⟨S64, .f32⟩ : BufTy).Contents (Elt F)) : (⟨S1x64, .f32⟩ : BufTy).Contents (Elt F) := shapeCast S1x64 b (by decide)

/-- A vector of 10 entries laid as a one-row matrix. -/
def rowTo10 (b : (⟨S10, .f32⟩ : BufTy).Contents (Elt F)) : (⟨S1x10, .f32⟩ : BufTy).Contents (Elt F) := shapeCast S1x10 b (by decide)

theorem rowOf64_rowTo64 (b : (⟨S64, .f32⟩ : BufTy).Contents (Elt F)) : rowOf64 (rowTo64 b) = b :=
  shapeCast_shapeCast b _ _

theorem rowOf10_rowTo10 (b : (⟨S10, .f32⟩ : BufTy).Contents (Elt F)) : rowOf10 (rowTo10 b) = b :=
  shapeCast_shapeCast b _ _

theorem linWide_eq (x : (⟨S100000x128, .f32⟩ : BufTy).Contents (Elt F)) (W : (⟨S64x128, .f32⟩ : BufTy).Contents (Elt F)) (b : (⟨S64, .f32⟩ : BufTy).Contents (Elt F)) : linWide x W b = linCoreWide x (transpWide W) b := rfl

theorem linRef_eq (x : (⟨S100000x64, .f32⟩ : BufTy).Contents (Elt F)) (W : (⟨S64x64, .f32⟩ : BufTy).Contents (Elt F)) (b : (⟨S64, .f32⟩ : BufTy).Contents (Elt F)) : linRef x W b = linCore x (transpSq W) b := rfl

theorem mlpRef_eq (p : (⟨S128x64, .f32⟩ : BufTy).Contents (Elt F)) (W1 : (⟨S64x64, .f32⟩ : BufTy).Contents (Elt F)) (b1 : (⟨S64, .f32⟩ : BufTy).Contents (Elt F)) (W2 : (⟨S10x64, .f32⟩ : BufTy).Contents (Elt F)) (b2 : (⟨S10, .f32⟩ : BufTy).Contents (Elt F)) :
    mlpRef p W1 b1 W2 b2 = mlpCore p (transpSq W1) b1 (transpOut W2) b2 := rfl

end Cert.Stages

end
-- ==== Proof.KCommon.lean ====
/-
  Reading the idealized kernel's boundary contents: between two regions the contents are the fold of the stretch
  of host operations over the previous region's exit contents, so a buffer's contents at a region's entry is
  obtained by walking its producing operations backwards to that exit.
-/
import proofs.«117444_j67095979098699_1_alg».proof.Proof.Gen.KernelIdeal.Frame
import proofs.«117444_j67095979098699_1_alg».proof.Proof.Gen.ReferenceIdeal
import proofs.«117444_j67095979098699_1_alg».proof.Proof.Stages
import proofs.«117444_j67095979098699_1_alg».proof.Proof.StageFacts
import Idealize.ShloMosaic.Lib.StableHlo.Run

namespace Cert.KernelIdeal.KCommon

open Idealize.ShloMosaic Idealize.ShloMosaic.StableHlo Cert.KernelIdeal Cert.KernelIdeal.Gen

/-- Unfold the boundary contents down to the previous region's exit and evaluate the host operations in between. -/
macro "kstep" : tactic => `(tactic| ((try dsimp only [V5, V9, V11, V15, V17, V21, V23, W0, W1, W2, W3, W4, W5, W7, W8, W9, W11, W13, W14, W15, W17, W19, W20, W21, W23, hostOps0, hostOps0_1, hostOps0_2, hostOps0_3, hostOps0_4, hostOps1, hostOps1_1, hostOps1_2, hostOps2, hostOps3, hostOps3_1, hostOps3_2, hostOps4, hostOps5, hostOps5_1, hostOps5_2, hostOps6]); after_results_simp))

end Cert.KernelIdeal.KCommon
-- ==== Proof.KLinLib.lean ====
/-
  Dense layers read at one entry.  A product of an m×k by a k×n matrix plus a one-row bias laid along every row, as the
  kernel writes it (a block product accumulated into a zero splat, the bias broadcast down the rows) and as the
  reference writes it (a host product, the bias vector broadcast along axis 1 and then down the rows), is at entry
  (r, q) the sum over the contracted coordinate c of x(r, c) · wt(c, q), plus b(0, q).  Both are stated for any
  dimension record that is the plain one (rows × contraction times contraction × columns), so that a block of rows
  and the whole array meet in the same sum.
-/
import Idealize.ShloMosaic.Lib.KernelVsHost
import Idealize.ShloMosaic.Lib.StackMember

noncomputable section

namespace Cert.KLinLib

open Idealize.ShloMosaic Idealize.ShloMosaic.ValueIdx

/-- The offsets `![0, 0]` are the zero offsets. -/
theorem hz2 : (![0, 0] : Fin 2 → Nat) = fun _ => 0 := funext fun a => by fin_cases a <;> rfl

section Rows
variable {α : Type}

/-- A one-row matrix broadcast down `m` rows by a kernel's broadcast, read at (r, t), is the row at (0, t). -/
theorem broadcastTo_oneRow_apply {m n : Nat} (hb : (⟨2, ![1, n]⟩ : Shape).Broadcasts ⟨2, ![m, n]⟩)
    (y : (⟨2, ![1, n]⟩ : Shape).Idx → α) (r : Fin m) (t : Fin n) :
    broadcastTo ⟨2, ![m, n]⟩ y hb (ix2 r t) = y (ix2 (0 : Fin 1) t) := by
  refine broadcastTo_apply y hb (ix2 r t) (ix2 (0 : Fin 1) t) ?_
  intro a
  match a with
  | ⟨0, _⟩ => rfl
  | ⟨1, _⟩ =>
    show t.val = if n = 1 then 0 else t.val
    split
    · have := t.isLt; omega
    · rfl

/-- A one-row matrix read as a vector and laid back as a one-row matrix is itself: at (0, t) it is the row at (0, t). -/
theorem broadcastInDim_row_shapeCast_apply {n : Nat} (h1 : (⟨2, ![1, n]⟩ : Shape).ShapeCasts ⟨1, ![n]⟩)
    (hd : (⟨1, ![n]⟩ : Shape).BroadcastsInDim ⟨2, ![1, n]⟩ ![1]) (y : (⟨2, ![1, n]⟩ : Shape).Idx → α) (t : Fin n) :
    broadcastInDim ⟨2, ![1, n]⟩ ![1] hd (shapeCast ⟨1, ![n]⟩ y h1) (ix2 (0 : Fin 1) t) = y (ix2 (0 : Fin 1) t) := by
  refine (broadcastInDim_apply ![1] hd _ (ix2 (0 : Fin 1) t) (ix1 t) ?_).trans ?_
  · intro a
    match a with
    | ⟨0, _⟩ =>
      show t.val = if n = 1 then 0 else t.val
      split
      · have := t.isLt; omega
      · rfl
  · exact shapeCast_apply y h1 (ix1 t) (ix2 (0 : Fin 1) t) (by
      rw [Shape.rowMajor_val_two, Shape.rowMajor_val_one]; show 0 * n + t.val = t.val; omega)

end Rows

/-- THE KERNEL'S DENSE LAYER at entry (p, q): the block product into a zero splat plus the one-row bias broadcast down
    the rows is the sum over the contracted coordinate plus the bias at (0, q). -/
theorem linKernel_apply {m k n : Nat} {φ₁ φ₂ : FTy} (D : DotDims ⟨2, ![m, k]⟩ ⟨2, ![k, n]⟩ ⟨2, ![m, n]⟩)
    (hD : D = DotDims.plain m k n) (hb : (⟨2, ![1, n]⟩ : Shape).Broadcasts ⟨2, ![m, n]⟩)
    (x : FVec Ideal ⟨2, ![m, k]⟩ φ₁) (wt : FVec Ideal ⟨2, ![k, n]⟩ φ₂) (b : FVec Ideal ⟨2, ![1, n]⟩ .f32)
    (p : Fin m) (q : Fin n) :
    addf (matmul D none x wt (constant ⟨2, ![m, n]⟩ .f32 0x00000000#32)) (broadcastTo ⟨2, ![m, n]⟩ b hb) (ix2 p q)
      = (∑ c : Fin k, x (ix2 p c) * wt (ix2 c q)) + b (ix2 (0 : Fin 1) q) := by
  subst hD
  rw [addf_apply, matmul_zero_eq_dotGeneral, StackMember.dotGeneral_plain_apply, broadcastTo_oneRow_apply]

/-- THE REFERENCE'S DENSE LAYER at entry (r, q): the host product plus the bias vector (a one-row matrix read as a
    vector) laid along every row is the same sum plus the one-row matrix at (0, q). -/
theorem linHost_apply {m k n : Nat} {φ₁ φ₂ : FTy} (D : DotDims ⟨2, ![m, k]⟩ ⟨2, ![k, n]⟩ ⟨2, ![m, n]⟩)
    (hD : D = DotDims.plain m k n) (hbc : (⟨2, ![1, n]⟩ : Shape).BroadcastsInDim ⟨2, ![m, n]⟩ ![0, 1])
    (hd : (⟨1, ![n]⟩ : Shape).BroadcastsInDim ⟨2, ![1, n]⟩ ![1]) (h1 : (⟨2, ![1, n]⟩ : Shape).ShapeCasts ⟨1, ![n]⟩)
    (x : FVec Ideal ⟨2, ![m, k]⟩ φ₁) (wt : FVec Ideal ⟨2, ![k, n]⟩ φ₂) (y : FVec Ideal ⟨2, ![1, n]⟩ .f32)
    (r : Fin m) (q : Fin n) :
    addf (Host.dotGeneral D none x wt)
        (broadcastInDim ⟨2, ![m, n]⟩ ![0, 1] hbc (broadcastInDim ⟨2, ![1, n]⟩ ![1] hd (shapeCast ⟨1, ![n]⟩ y h1))) (ix2 r q)
      = (∑ c : Fin k, x (ix2 r c) * wt (ix2 c q)) + y (ix2 (0 : Fin 1) q) := by
  subst hD
  rw [addf_apply, StackMember.dotGeneral_plain_apply, broadcastInDim_oneRow_apply, broadcastInDim_row_shapeCast_apply]

end Cert.KLinLib

end
-- ==== Proof.KLin0.lean ====
/-
  The first dense layer (region 0 of the kernel's run).  The grid has twenty points; point t stages rows
  5000·t … 5000·t + 4999 of the node features x (100000 × 128), the whole transposed weight matrix wt (128 × 64) and
  the whole one-row bias b (1 × 64), and writes back the same block of rows of the result.  Entry (p, q) of the block
  it writes is Σ_k x(5000·t + p, k) · wt(k, q) + b(0, q); entry (r, q) of the reference's dense layer of the whole
  arrays is Σ_k x(r, k) · wt(k, q) + b(0, q).  The sums run over the contracted axis only, so each block is the
  restriction of the one whole-array function to its rows, and the twenty blocks cover the array: the array after the
  region is the reference's dense layer of the arrays the region finds.
-/
import proofs.«117444_j67095979098699_1_alg».proof.Proof.Gen.KernelIdeal.Frame
import proofs.«117444_j67095979098699_1_alg».proof.Proof.Gen.ReferenceIdeal
import proofs.«117444_j67095979098699_1_alg».proof.Proof.Stages
import proofs.«117444_j67095979098699_1_alg».proof.Proof.KLinLib
import Idealize.ShloMosaic.Lib.StableHlo.Run
import Idealize.ShloMosaic.PureOps.Ideal.Laws

set_option maxRecDepth 16384

noncomputable section

namespace Cert.KernelIdeal.KLin0
open Idealize.ShloMosaic Idealize.ShloMosaic.StableHlo Idealize.ShloMosaic.TcCoe Idealize.SL.Sem Cert.KernelIdeal Cert.KernelIdeal.Gen
open Idealize.ShloMosaic.Pipeline (Dat Cfg Window)
open Idealize.ShloMosaic.ValueIdx Cert.KLinLib

/-- The kernel's payload of region 0 at entry (p, q) of its block: the sum over the 128 input features plus the bias. -/
theorem pay0_apply (x0 : Vec Ideal S5000x128 .f32) (x1 : Vec Ideal S128x64 .f32) (x2 : Vec Ideal S1x64 .f32) (p : Fin 5000) (q : Fin 64) :
    out0_3 x0 x1 x2 (ix2 p q) = (∑ k : Fin 128, x0 (ix2 p k) * x1 (ix2 k q)) + x2 (ix2 0 q) := by
  unfold out0_3
  rw [View.canon_unit_zero hz2]
  simp only [View.ld_unit_zero (S := S5000x128) hz2, View.ld_unit_zero (S := S128x64) hz2, View.ld_unit_zero (S := S1x64) hz2]
  unfold k0_pay1
  rw [shapeCast_self, shapeCast_self]
  exact linKernel_apply dot_S5000x128_S128x64_S5000x64_1_0_0_1_n_n rfl broadcasts_S1x64_S5000x64 (truncf .bf16 x0 bitsLt_bf16_f32) (truncf .bf16 x1 bitsLt_bf16_f32) x2 p q

/-- The reference's dense layer at entry (r, q) of the whole array: the same sum plus the same bias. -/
theorem ref0_apply (x : Vec Ideal S100000x128 .f32) (wt : Vec Ideal S128x64 .f32) (y : Vec Ideal S1x64 .f32) (r : Fin 100000) (q : Fin 64) :
    Cert.Stages.linCoreWide x wt (Cert.Stages.rowOf64 y) (ix2 r q) = (∑ k : Fin 128, x (ix2 r k) * wt (ix2 k q)) + y (ix2 0 q) := by
  unfold Cert.Stages.linCoreWide Cert.Stages.rowOf64
  exact linHost_apply Cert.ReferenceIdeal.dot_S100000x128_S128x64_S100000x64_1_0_0_1_n_n rfl _ _ _ x wt y r q

/-- The block indices over the grid: the row windows move with the point, the weights and the bias stay. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

theorem lt_grid0 (t : Fin cfg0.N) : t.val < 20 := lt_of_lt_of_eq t.isLt N_0

/-- Window 0's block at point t, read at (p, k), is the array at row 5000·t + p. -/
theorem read0_0 (X : Vec Ideal S100000x128 .f32) (t : Fin cfg0.N) (p : Fin 5000) (k : Fin 128) (h : t.val * 5000 + p.val < 100000) :
    ((cfg0.win 0).blk t).view.read (Elt Ideal) X (ix2 p k) = X (ix2 ⟨t.val * 5000 + p.val, h⟩ k) := by
  obtain ⟨e0, e1, -⟩ := idx_facts0 t
  show X (((cfg0.win 0).blk t).view.emb (ix2 p k)) = _
  refine congrArg X (funext fun a => Fin.ext ?_)
  match a with
  | ⟨0, _⟩ => show win0_0.index t (0 : Fin 2) * 5000 + 1 * p.val = t.val * 5000 + p.val; rw [e0]; omega
  | ⟨1, _⟩ => show win0_0.index t (1 : Fin 2) * 128 + 1 * k.val = k.val; rw [e1]; omega

/-- Window 1's block is the whole weight matrix. -/
theorem read0_1 (X : Vec Ideal S128x64 .f32) (t : Fin cfg0.N) (k : Fin 128) (q : Fin 64) :
    ((cfg0.win 1).blk t).view.read (Elt Ideal) X (ix2 k q) = X (ix2 k q) := by
  obtain ⟨-, -, e0, e1, -⟩ := idx_facts0 t
  show X (((cfg0.win 1).blk t).view.emb (ix2 k q)) = _
  refine congrArg X (funext fun a => Fin.ext ?_)
  match a with
  | ⟨0, _⟩ => show win0_1.index t (0 : Fin 2) * 128 + 1 * k.val = k.val; rw [e0]; omega
  | ⟨1, _⟩ => show win0_1.index t (1 : Fin 2) * 64 + 1 * q.val = q.val; rw [e1]; omega

/-- Window 2's block is the whole one-row bias. -/
theorem read0_2 (X : Vec Ideal S1x64 .f32) (t : Fin cfg0.N) (z : Fin 1) (q : Fin 64) :
    ((cfg0.win 2).blk t).view.read (Elt Ideal) X (ix2 z q) = X (ix2 z q) := by
  obtain ⟨-, -, -, -, e0, e1, -⟩ := idx_facts0 t
  show X (((cfg0.win 2).blk t).view.emb (ix2 z q)) = _
  refine congrArg X (funext fun a => Fin.ext ?_)
  match a with
  | ⟨0, _⟩ => show win0_2.index t (0 : Fin 2) * 1 + 1 * z.val = z.val; rw [e0]; omega
  | ⟨1, _⟩ => show win0_2.index t (1 : Fin 2) * 64 + 1 * q.val = q.val; rw [e1]; omega

/-- Window 3's block at point t, read at (p, q), is the array at row 5000·t + p. -/
theorem read0_3 (X : Vec Ideal S100000x64 .f32) (t : Fin cfg0.N) (p : Fin 5000) (q : Fin 64) (h : t.val * 5000 + p.val < 100000) :
    ((cfg0.win 3).blk t).view.read (Elt Ideal) X (ix2 p q) = X (ix2 ⟨t.val * 5000 + p.val, h⟩ q) := by
  obtain ⟨-, -, -, -, -, -, e0, e1⟩ := idx_facts0 t
  show X (((cfg0.win 3).blk t).view.emb (ix2 p q)) = _
  refine congrArg X (funext fun a => Fin.ext ?_)
  match a with
  | ⟨0, _⟩ => show win0_3.index t (0 : Fin 2) * 5000 + 1 * p.val = t.val * 5000 + p.val; rw [e0]; omega
  | ⟨1, _⟩ => show win0_3.index t (1 : Fin 2) * 64 + 1 * q.val = q.val; rw [e1]; omega

variable (V : (c : Dev nD) → (b : Ref sig .tc) → Buf (Elt Ideal) ((c : Thread nD τ).loc b))

/-- WHAT POINT t WRITES BACK is block t of the reference's dense layer of the arrays the region finds. -/
theorem flushed3_eq (c : Dev nD) (t : Fin cfg0.N) :
    (dat0 (F := Ideal) V c).flushed 3 t = ((cfg0.win 3).blk t).view.read (Elt Ideal) (Cert.Stages.linCoreWide (V c main_arg0) (V c main_v30) (Cert.Stages.rowOf64 (V c main_v31))) := by
  show (cfg0.win 3).cut (grid0.coords t) ((dat0 V c).after 3 t) = _
  rw [after0_3]
  funext j
  obtain ⟨p, q, rfl⟩ : ∃ (p : Fin 5000) (q : Fin 64), j = ix2 p q := ⟨j 0, j 1, eq_ix2 j⟩
  have ht := lt_grid0 t
  have hp : t.val * 5000 + p.val < 100000 := by have := p.isLt; omega
  rw [read0_3 _ t p q hp, ref0_apply]
  show out0_3 (iblk0 V c 0 t) (iblk0 V c 1 t) (iblk0 V c 2 t) (ix2 p q) = _
  rw [pay0_apply (iblk0 V c 0 t) (iblk0 V c 1 t) (iblk0 V c 2 t) p q]

  have e0 : ∀ k : Fin 128, iblk0 V c 0 t (ix2 p k) = V c main_arg0 (ix2 ⟨t.val * 5000 + p.val, hp⟩ k) :=
    fun k => read0_0 (V c main_arg0) t p k hp
  have e1 : ∀ k : Fin 128, iblk0 V c 1 t (ix2 k q) = V c main_v30 (ix2 k q) := fun k => read0_1 (V c main_v30) t k q
  have e2 : iblk0 V c 2 t (ix2 0 q) = V c main_v31 (ix2 0 q) := read0_2 (V c main_v31) t 0 q
  rw [e2]
  exact congrArg (· + V c main_v31 (ix2 0 q)) (Finset.sum_congr rfl fun k _ => by rw [e0 k, e1 k])

/-- An index of the array is in point t's block iff each coordinate is in the block's range on its axis. -/
theorem mem_blk3 (t : Fin cfg0.N) (i : S100000x64.Idx) :
    i ∈ ((cfg0.win 3).blk t).view.set ↔ ∀ a : Fin 2, win0_3.index t a * S5000x64.size a ≤ (i a).val ∧ (i a).val < win0_3.index t a * S5000x64.size a + S5000x64.size a := by
  show i ∈ ((View.whole main_v32).slice (win0_3.rect t)).set ↔ _
  rw [View.set_slice_whole, Rect.mem_set_unit]
  exact Iff.rfl

/-- Row r of the array is in the block of point r / 5000: the twenty blocks of 5000 rows cover the array. -/
theorem cover3 (i : S100000x64.Idx) : ∃ t : Fin cfg0.N, (cfg0.win 3).flush t = true ∧ i ∈ ((cfg0.win 3).blk t).view.set := by
  have hi0 : (i 0).val < 100000 := (i 0).isLt
  have hi1 : (i 1).val < 64 := (i 1).isLt
  have hN : cfg0.N = 20 := N_0
  obtain ⟨t, ht⟩ : ∃ t : Fin cfg0.N, t.val = (i 0).val / 5000 := ⟨⟨(i 0).val / 5000, by rw [hN]; omega⟩, rfl⟩
  refine ⟨t, flush0_3 t, ?_⟩
  rw [mem_blk3]
  obtain ⟨-, -, -, -, -, -, e0, e1⟩ := idx_facts0 t
  intro a
  match a with
  | ⟨0, _⟩ => show win0_3.index t (0 : Fin 2) * 5000 ≤ (i 0).val ∧ (i 0).val < win0_3.index t (0 : Fin 2) * 5000 + 5000; rw [e0, ht]; omega
  | ⟨1, _⟩ => show win0_3.index t (1 : Fin 2) * 64 ≤ (i 1).val ∧ (i 1).val < win0_3.index t (1 : Fin 2) * 64 + 64; rw [e1]; omega

/-- THE ARRAY after region 0: the reference's first dense layer of the arrays the region finds. -/
theorem lin0_final (c : Dev nD) :
    (dat0 (F := Ideal) V c).arrAt 3 cfg0.N = Cert.Stages.linCoreWide (V c main_arg0) (V c main_v30) (Cert.Stages.rowOf64 (V c main_v31)) :=
  (dat0 V c).arrAt_eq_of_cover 3 _ (fun t _ => flushed3_eq V c t) cover3

end Cert.KernelIdeal.KLin0

end
-- ==== Proof.KS0.lean ====
/-
  The dense layer computed by a kernel region, read at the region's exit: the region's output array is the layer's core applied to the region's entry arrays, and those are the layer's input as the previous stage left it, the transposed weight matrix and the bias laid as a one-row matrix.
-/
import proofs.«117444_j67095979098699_1_alg».proof.Proof.KCommon
import proofs.«117444_j67095979098699_1_alg».proof.Proof.KLin0

set_option maxRecDepth 16384

noncomputable section

namespace Cert.KernelIdeal.KS0

open Idealize.ShloMosaic Idealize.ShloMosaic.StableHlo Idealize.ShloMosaic.TcCoe Idealize.SL.Sem
open Cert.KernelIdeal Cert.KernelIdeal.Gen Cert.KernelIdeal.KCommon Cert.Stages

variable (m : (ℓ : Loc nD τ sig) → Buf (Elt Ideal) ℓ) (ρ : Dev nD → PrngReg) (c : Dev nD)

macro "kwalk" : tactic => `(tactic| kstep)

attribute [local irreducible] Host.gather Host.scatterAdd Host.reduceAdd Host.powf in
set_option maxHeartbeats 8000000 in
/-- The region's output array is the reference's dense layer of the previous stage's output. -/
theorem value : W6 m ρ c (Proc.devRef .tc main_v32) = linWide (W0 m ρ c (Proc.devRef .tc main_arg0)) (W0 m ρ c (Proc.devRef .tc main_arg3)) (W0 m ρ c (Proc.devRef .tc main_arg4)) := by
  have hx : V5 m ρ c main_arg0 = (W0 m ρ c (Proc.devRef .tc main_arg0)) := by kwalk <;> rfl
  have hw : V5 m ρ c main_v30 = transpWide (W0 m ρ c (Proc.devRef .tc main_arg3)) := by kwalk <;> rfl
  have hb : V5 m ρ c main_v31 = rowTo64 (W0 m ρ c (Proc.devRef .tc main_arg4)) := by kwalk <;> rfl
  refine (show W6 m ρ c (Proc.devRef .tc main_v32) = (dat0 (V5 m ρ) c).arrAt 3 cfg0.N from W6_arr m ρ c 3).trans ?_
  rw [KLin0.lin0_final (V5 m ρ) c, hx, hw, hb, rowOf64_rowTo64, ← linWide_eq]

end Cert.KernelIdeal.KS0

end
-- ==== Proof.KBnLib.lean ====
/-
  Facts shared by the three normalisation regions: the one arithmetic identity on the extended reals that relates
  a product with a reciprocal square root to a quotient by a square root, the positivity of the stabilising
  constant, and the reference's normalisation read at one index.
-/
import proofs.«117444_j67095979098699_1_alg».proof.Proof.Gen.KernelIdeal.Frame
import proofs.«117444_j67095979098699_1_alg».proof.Proof.Gen.ReferenceIdeal
import proofs.«117444_j67095979098699_1_alg».proof.Proof.Stages
import Idealize.ShloMosaic.Lib.StableHlo.Run
import Idealize.ShloMosaic.PureOps.Ideal.Laws
import Idealize.ShloMosaic.Lib.KernelVsHost
import Idealize.ShloMosaic.Lib.ValueLayout
import Idealize.ShloMosaic.Lib.ValueIdx
import Idealize.ShloMosaic.Lib.Pipeline.Value

set_option maxRecDepth 16384

noncomputable section

namespace Cert.KernelIdeal.KBnLib
open Idealize.ShloMosaic Idealize.ShloMosaic.StableHlo Idealize.ShloMosaic.TcCoe Idealize.SL.Sem Cert.KernelIdeal Cert.KernelIdeal.Gen
open Idealize.ShloMosaic.ValueIdx

/-- On the extended reals, for a positive `v` (possibly `⊤`), multiplying by the reciprocal square root of `v` is
    dividing by its square root: for a real `v > 0` both are `a · (√v)⁻¹`, and at `⊤` both are `a · 0`. -/
theorem mul_rsqrt_eq_div_sqrt (a v : EReal) (hv : 0 < v) : a * Ideal.rsqrt v = Ideal.div a (Ideal.sqrt v) := by
  induction v using EReal.rec with
  | bot => exact absurd hv (not_lt_bot)
  | top =>
    rw [Ideal.rsqrt_top, Ideal.sqrt_top]
    unfold Ideal.div
    rw [if_neg EReal.top_ne_zero, EReal.inv_top]
  | coe r =>
    have hr : 0 < r := by exact_mod_cast hv
    have hs : 0 < Real.sqrt r := Real.sqrt_pos.mpr hr
    rw [Ideal.rsqrt_coe, Ideal.sqrt_coe, if_neg (not_lt.mpr hr.le), if_neg hr.ne', if_neg (not_lt.mpr hr.le)]
    unfold Ideal.div
    have hne : ((Real.sqrt r : ℝ) : EReal) ≠ 0 := by exact_mod_cast hs.ne'
    rw [if_neg hne, EReal.coe_inv]

/-- The stabilising constant, the single-precision word `0x3727C5AC`, denotes a positive real. -/
theorem eps_pos : (0 : EReal) < Ideal.ofBits .f32 0x3727C5AC#32 := by
  simp [Ideal.ofBits, Ideal.ieee, -EReal.coe_mul]

/-- A non-negative variance plus the stabilising constant is positive. -/
theorem var_add_eps_pos (v : EReal) (hv : 0 ≤ v) : 0 < v + Ideal.ofBits .f32 0x3727C5AC#32 :=
  lt_of_lt_of_le eps_pos (le_add_of_nonneg_left hv)

section Broadcasts
variable {α : Type}

/-- A scalar broadcast to any shape reads the scalar at every index. -/
theorem broadcastInDim_scalar_apply {t : Shape} (h : S_.BroadcastsInDim t (![] : Fin 0 → Fin t.rank)) (x : S_.Idx → α) (j : t.Idx) :
    broadcastInDim t ![] h x j = x ix0 :=
  broadcastInDim_apply ![] h x j ix0 fun a => a.elim0

/-- A vector of 64 entries laid along the one row of a one-row matrix reads, at column `q`, its `q`-th entry. -/
theorem broadcastInDim_vec_row_apply (h : S64.BroadcastsInDim S1x64 ![1]) (x : S64.Idx → α) (q : Fin 64) :
    broadcastInDim S1x64 ![1] h x (ix2 (0 : Fin 1) q) = x (ix1 q) :=
  broadcastInDim_apply ![1] h x (ix2 (0 : Fin 1) q) (ix1 q) fun a => by
    match a with
    | ⟨0, _⟩ => rfl

/-- A vector of 64 entries laid along every one of 100000 rows reads, at `(r, q)`, its `q`-th entry. -/
theorem broadcastInDim_vec_rows_apply (h : S64.BroadcastsInDim S1x64 ![1]) (h' : S1x64.BroadcastsInDim S100000x64 ![0, 1])
    (x : S64.Idx → α) (r : Fin 100000) (q : Fin 64) :
    broadcastInDim S100000x64 ![0, 1] h' (broadcastInDim S1x64 ![1] h x) (ix2 r q) = x (ix1 q) :=
  (broadcastInDim_oneRow_apply h' _ r q).trans (broadcastInDim_vec_row_apply h x q)

end Broadcasts

/-- A one-row matrix read as a vector of 64 entries: entry `q` is the row's entry at column `q`. -/
theorem rowOf64_apply (x : (⟨S1x64, .f32⟩ : BufTy).Contents (Elt Ideal)) (q : Fin 64) :
    Cert.Stages.rowOf64 x (ix1 q) = x (ix2 (0 : Fin 1) q) :=
  shapeCast_1a_a_apply x _ q

/-- The reference's normalisation read at row `r`, column `q`: the rectified value of
    `g · (s − mu) / √(vr + eps) + be` taken at that row of `s` and that column of the four vectors. -/
theorem bnRef_apply (s : (⟨S100000x64, .f32⟩ : BufTy).Contents (Elt Ideal)) (mu vr g be : (⟨S64, .f32⟩ : BufTy).Contents (Elt Ideal))
    (r : Fin 100000) (q : Fin 64) :
    Cert.Stages.bnRef s mu vr g be (ix2 r q)
      = max (Ideal.div (g (ix1 q) * (s (ix2 r q) - mu (ix1 q))) (Ideal.sqrt (vr (ix1 q) + Ideal.ofBits .f32 0x3727C5AC#32)) + be (ix1 q)) 0 := by
  unfold Cert.Stages.bnRef
  simp only [maximumf_apply, addf_apply, mulf_apply, subf_apply, Host.divf, Ideal.hostDivf_def]
  rw [broadcastInDim_vec_rows_apply _ _ g r q, broadcastInDim_vec_rows_apply _ _ mu r q,
    broadcastInDim_vec_rows_apply _ _ be r q, broadcastInDim_vec_rows_apply _ _ (Host.sqrt _) r q,
    broadcastInDim_scalar_apply]
  refine congrArg₂ max ?_ Ideal.ofBits_zero_f32
  rfl

/-- The two spellings of the normalised, rectified value agree when the variance is non-negative. -/
theorem point_eq (g x mu v be : EReal) (hv : 0 ≤ v) :
    max (g * (x - mu) * Ideal.rsqrt (v + Ideal.ofBits .f32 0x3727C5AC#32) + be) 0
      = max (Ideal.div (g * (x - mu)) (Ideal.sqrt (v + Ideal.ofBits .f32 0x3727C5AC#32)) + be) 0 := by
  rw [mul_rsqrt_eq_div_sqrt _ _ (var_add_eps_pos v hv)]

end Cert.KernelIdeal.KBnLib
end
-- ==== Proof.KBn1.lean ====
/-
  Normalisation region 1: the array the region leaves in its output window is the reference's normalisation
  of the region's operands — max(g·(s − mu)/√(var + eps) + be, 0) — whenever the variances are non-negative.
  The body's stored value is computed at one coordinate of one block, the reference's formula is read at the
  array index that coordinate names, the two meet by the identity a·rsqrt(v) = a/√v for v > 0, and the 20 blocks
  of 5000 rows tile the 100000 rows.
-/
import proofs.«117444_j67095979098699_1_alg».proof.Proof.Gen.KernelIdeal.Frame
import proofs.«117444_j67095979098699_1_alg».proof.Proof.Gen.ReferenceIdeal
import proofs.«117444_j67095979098699_1_alg».proof.Proof.Stages
import proofs.«117444_j67095979098699_1_alg».proof.Proof.KBnLib
import Idealize.ShloMosaic.Lib.StableHlo.Run
import Idealize.ShloMosaic.PureOps.Ideal.Laws
import Idealize.ShloMosaic.Lib.KernelVsHost
import Idealize.ShloMosaic.Lib.ValueLayout
import Idealize.ShloMosaic.Lib.ValueIdx
import Idealize.ShloMosaic.Lib.Pipeline.Value

set_option maxRecDepth 16384

noncomputable section

namespace Cert.KernelIdeal.KBn1
open Idealize.ShloMosaic Idealize.ShloMosaic.StableHlo Idealize.ShloMosaic.TcCoe Idealize.SL.Sem Cert.KernelIdeal Cert.KernelIdeal.Gen
open Idealize.ShloMosaic.Pipeline (Dat Cfg Window)
open Idealize.ShloMosaic.ValueIdx Cert.KernelIdeal.KBnLib

theorem hz : (![0, 0] : Fin 2 → Nat) = fun _ => 0 := funext fun a => by fin_cases a <;> rfl

/-- THE BODY'S RESULT AT ONE COORDINATE: over any loaded blocks, the stored value at row `p`, column `q` is the
    rectified `g · (x − mu) · rsqrt(var + eps) + be`, the four one-row operands read at column `q`. -/
theorem out_apply (x0 : Vec Ideal S5000x64 .f32) (x1 x2 x3 x4 : Vec Ideal S1x64 .f32) (p : Fin 5000) (q : Fin 64) :
    out1_5 x0 x1 x2 x3 x4 (ix2 p q)
      = max (x3 (ix2 (0 : Fin 1) q) * (x0 (ix2 p q) - x1 (ix2 (0 : Fin 1) q))
          * Ideal.rsqrt (x2 (ix2 (0 : Fin 1) q) + Ideal.ofBits .f32 0x3727C5AC#32) + x4 (ix2 (0 : Fin 1) q)) 0 := by
  unfold out1_5
  rw [View.canon_unit_zero hz]
  simp only [View.ld_unit_zero (S := S5000x64) hz, View.ld_unit_zero (S := S1x64) hz]
  unfold k1_pay1
  simp only [shapeCast_self]
  simp only [maximumf_apply, addf_apply, mulf_apply, subf_apply, broadcast_apply]
  rw [broadcastTo_1b_ab_apply x3 _ p q, broadcastTo_1b_ab_apply x1 _ p q, broadcastTo_1b_ab_apply x4 _ p q,
    broadcastTo_1b_ab_apply (rsqrt _) _ p q]
  refine congrArg₂ max ?_ Ideal.ofBits_zero_f32
  rfl

/-- The printed index maps, decided over the 20 grid points: the input block of rows and the output block move
    together, point `t`'s block being the `t`-th; the four one-row windows stay at the origin. -/
theorem idx_facts : ∀ t : Fin cfg1.N,
    win1_0.index t (0 : Fin 2) = t.val ∧ win1_0.index t (1 : Fin 2) = 0
    ∧ win1_5.index t (0 : Fin 2) = t.val ∧ win1_5.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0 :=
  (by decide +kernel : ∀ t : Fin grid1.N, _)

/-- The input block of rows and the output block at a point name the same array indices. -/
theorem emb0_eq (t : Fin cfg1.N) (j : S5000x64.Idx) :
    ((cfg1.win 0).blk t).view.emb j = ((cfg1.win 5).blk t).view.emb j := by
  obtain ⟨e0, e1, e2, e3, -⟩ := idx_facts t
  funext a; apply Fin.ext
  match a with
  | ⟨0, _⟩ => show win1_0.index t (0 : Fin 2) * 5000 + 1 * (j 0).val = win1_5.index t (0 : Fin 2) * 5000 + 1 * (j 0).val; omega
  | ⟨1, _⟩ => show win1_0.index t (1 : Fin 2) * 64 + 1 * (j 1).val = win1_5.index t (1 : Fin 2) * 64 + 1 * (j 1).val; omega

/-- A one-row window's block is the whole one-row array: a block index is the array index. -/
theorem emb1_eq (t : Fin cfg1.N) (j : S1x64.Idx) : ((cfg1.win 1).blk t).view.emb j = j := by
  obtain ⟨-, -, -, -, e0, e1, -⟩ := idx_facts t
  funext a; apply Fin.ext
  match a with
  | ⟨0, _⟩ => show win1_1.index t (0 : Fin 2) * 1 + 1 * (j 0).val = (j 0).val; omega
  | ⟨1, _⟩ => show win1_1.index t (1 : Fin 2) * 64 + 1 * (j 1).val = (j 1).val; omega

theorem emb2_eq (t : Fin cfg1.N) (j : S1x64.Idx) : ((cfg1.win 2).blk t).view.emb j = j := by
  obtain ⟨-, -, -, -, -, -, e0, e1, -⟩ := idx_facts t
  funext a; apply Fin.ext
  match a with
  | ⟨0, _⟩ => show win1_2.index t (0 : Fin 2) * 1 + 1 * (j 0).val = (j 0).val; omega
  | ⟨1, _⟩ => show win1_2.index t (1 : Fin 2) * 64 + 1 * (j 1).val = (j 1).val; omega

theorem emb3_eq (t : Fin cfg1.N) (j : S1x64.Idx) : ((cfg1.win 3).blk t).view.emb j = j := by
  obtain ⟨-, -, -, -, -, -, -, -, e0, e1, -⟩ := idx_facts t
  funext a; apply Fin.ext
  match a with
  | ⟨0, _⟩ => show win1_3.index t (0 : Fin 2) * 1 + 1 * (j 0).val = (j 0).val; omega
  | ⟨1, _⟩ => show win1_3.index t (1 : Fin 2) * 64 + 1 * (j 1).val = (j 1).val; omega

theorem emb4_eq (t : Fin cfg1.N) (j : S1x64.Idx) : ((cfg1.win 4).blk t).view.emb j = j := by
  obtain ⟨-, -, -, -, -, -, -, -, -, -, e0, e1⟩ := idx_facts t
  funext a; apply Fin.ext
  match a with
  | ⟨0, _⟩ => show win1_4.index t (0 : Fin 2) * 1 + 1 * (j 0).val = (j 0).val; omega
  | ⟨1, _⟩ => show win1_4.index t (1 : Fin 2) * 64 + 1 * (j 1).val = (j 1).val; omega

/-- The output block keeps the column: the array index of block index `(p, q)` is in column `q`. -/
theorem emb5_col (t : Fin cfg1.N) (j : S5000x64.Idx) : ((cfg1.win 5).blk t).view.emb j (1 : Fin 2) = j (1 : Fin 2) := by
  obtain ⟨-, -, -, e3, -⟩ := idx_facts t
  apply Fin.ext
  show win1_5.index t (1 : Fin 2) * 64 + 1 * (j 1).val = (j 1).val
  omega

variable (V : (c : Dev nD) → (b : Ref sig .tc) → Buf (Elt Ideal) ((c : Thread nD τ).loc b))

/-- The block of rows a point loads, read at a coordinate, is the array at the index the OUTPUT block names there. -/
theorem blk0_apply (c : Dev nD) (t : Fin cfg1.N) (j : S5000x64.Idx) :
    iblk1 (F := Ideal) V c 0 t j = V c main_v45 (((cfg1.win 5).blk t).view.emb j) := by
  rw [← emb0_eq]; rfl

/-- A one-row block a point loads is the one-row array. -/
theorem blk1_apply (c : Dev nD) (t : Fin cfg1.N) (j : S1x64.Idx) : iblk1 (F := Ideal) V c 1 t j = V c main_v50 j :=
  (show iblk1 (F := Ideal) V c 1 t j = V c main_v50 (((cfg1.win 1).blk t).view.emb j) from rfl).trans (by rw [emb1_eq])

theorem blk2_apply (c : Dev nD) (t : Fin cfg1.N) (j : S1x64.Idx) : iblk1 (F := Ideal) V c 2 t j = V c main_v51 j :=
  (show iblk1 (F := Ideal) V c 2 t j = V c main_v51 (((cfg1.win 2).blk t).view.emb j) from rfl).trans (by rw [emb2_eq])

theorem blk3_apply (c : Dev nD) (t : Fin cfg1.N) (j : S1x64.Idx) : iblk1 (F := Ideal) V c 3 t j = V c main_v52 j :=
  (show iblk1 (F := Ideal) V c 3 t j = V c main_v52 (((cfg1.win 3).blk t).view.emb j) from rfl).trans (by rw [emb3_eq])

theorem blk4_apply (c : Dev nD) (t : Fin cfg1.N) (j : S1x64.Idx) : iblk1 (F := Ideal) V c 4 t j = V c main_v53 j :=
  (show iblk1 (F := Ideal) V c 4 t j = V c main_v53 (((cfg1.win 4).blk t).view.emb j) from rfl).trans (by rw [emb4_eq])

/-- AT ONE COORDINATE OF ONE POINT'S BLOCK the body's result over the point's input blocks is the reference's
    normalisation of the whole arrays, read at the array index the coordinate names. -/
theorem point (c : Dev nD) (hv : ∀ y, (0 : EReal) ≤ V c main_v51 y) (t : Fin cfg1.N) (j : S5000x64.Idx) :
    out1_5 (iblk1 (F := Ideal) V c 0 t) (iblk1 V c 1 t) (iblk1 V c 2 t) (iblk1 V c 3 t) (iblk1 V c 4 t) j
      = Cert.Stages.bnRef (V c main_v45) (Cert.Stages.rowOf64 (V c main_v50)) (Cert.Stages.rowOf64 (V c main_v51))
          (Cert.Stages.rowOf64 (V c main_v52)) (Cert.Stages.rowOf64 (V c main_v53)) (((cfg1.win 5).blk t).view.emb j) := by
  obtain ⟨p, q, rfl⟩ : ∃ (p : Fin 5000) (q : Fin 64), j = ix2 p q := ⟨j 0, j 1, eq_ix2 j⟩
  refine (out_apply _ _ _ _ _ p q).trans ?_
  obtain ⟨r, hr⟩ : ∃ r : Fin 100000, ((cfg1.win 5).blk t).view.emb (ix2 p q) = ix2 r q :=
    ⟨((cfg1.win 5).blk t).view.emb (ix2 p q) (0 : Fin 2), (eq_ix2 _).trans (congrArg (ix2 _) (emb5_col t (ix2 p q)))⟩
  rw [hr, bnRef_apply, rowOf64_apply, rowOf64_apply, rowOf64_apply, rowOf64_apply, ← hr]
  rw [blk0_apply, blk1_apply, blk2_apply, blk3_apply, blk4_apply]
  exact point_eq _ _ _ _ _ (hv _)

/-- WHAT POINT `t` WRITES BACK is block `t` of the reference's normalisation of the whole arrays. -/
theorem flushed_eq (c : Dev nD) (hv : ∀ y, (0 : EReal) ≤ V c main_v51 y) (t : Fin cfg1.N) :
    (dat1 (F := Ideal) V c).flushed 5 t = ((cfg1.win 5).blk t).view.read (Elt Ideal)
      (Cert.Stages.bnRef (V c main_v45) (Cert.Stages.rowOf64 (V c main_v50)) (Cert.Stages.rowOf64 (V c main_v51))
        (Cert.Stages.rowOf64 (V c main_v52)) (Cert.Stages.rowOf64 (V c main_v53))) := by
  show (cfg1.win 5).cut (grid1.coords t) ((dat1 V c).after 5 t) = _
  rw [after1_5]
  funext j
  exact point V c hv t j

/-- An index of the array is in point `t`'s block iff each coordinate is in the block's range on its axis. -/
theorem mem_blk (t : Fin cfg1.N) (i : S100000x64.Idx) :
    i ∈ ((cfg1.win 5).blk t).view.set ↔ ∀ a : Fin 2, win1_5.index t a * S5000x64.size a ≤ (i a).val ∧ (i a).val < win1_5.index t a * S5000x64.size a + S5000x64.size a := by
  show i ∈ ((View.whole main_v54).slice (win1_5.rect t)).set ↔ _
  rw [View.set_slice_whole, Rect.mem_set_unit]
  exact Iff.rfl

/-- THE BLOCKS TILE THE ARRAY: row `r` is in the block of point `r / 5000`. -/
theorem cover (i : S100000x64.Idx) : ∃ t : Fin cfg1.N, (cfg1.win 5).flush t = true ∧ i ∈ ((cfg1.win 5).blk t).view.set := by
  have hi0 : (i 0).val < 100000 := (i 0).isLt
  have hi1 : (i 1).val < 64 := (i 1).isLt
  obtain ⟨t, ht⟩ : ∃ t : Fin cfg1.N, t.val = (i 0).val / 5000 :=
    ⟨⟨(i 0).val / 5000, by rw [show cfg1.N = 20 from N_1]; omega⟩, rfl⟩
  refine ⟨t, flush1_5 t, ?_⟩
  rw [mem_blk]
  obtain ⟨-, -, e2, e3, -⟩ := idx_facts t
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 64 ≤ (i 1).val ∧ (i 1).val < win1_5.index t (1 : Fin 2) * 64 + 64; omega

/-- THE REGION'S OUTPUT ARRAY after its 20 points is the reference's normalisation of its operands. -/
theorem bn1_final (c : Dev nD) (hv : ∀ y, (0 : EReal) ≤ V c main_v51 y) :
    (dat1 (F := Ideal) V c).arrAt 5 cfg1.N = Cert.Stages.bnRef (V c main_v45) (Cert.Stages.rowOf64 (V c main_v50)) (Cert.Stages.rowOf64 (V c main_v51)) (Cert.Stages.rowOf64 (V c main_v52)) (Cert.Stages.rowOf64 (V c main_v53)) :=
  (dat1 V c).arrAt_eq_of_cover 5 _ (fun t _ => flushed_eq V c hv t) cover

end Cert.KernelIdeal.KBn1
end
-- ==== Proof.VarNonneg.lean ====
/-
  The column variance is never negative on the extended reals.  The variance of a column is the sum over the
  100000 rows of the squared deviation from the column mean, divided by the row count 100000 (the count minus
  zero degrees of freedom is positive, so the guarded selection keeps the quotient).  A square x · x of an
  extended real is non-negative at the infinities too, a sum of non-negative terms from zero is non-negative, and
  dividing by a positive real is multiplying by a positive real.
-/
import proofs.«117444_j67095979098699_1_alg».proof.Proof.Stages
import Idealize.ShloMosaic.PureOps.Ideal.Laws
import Idealize.ShloMosaic.Lib.KernelVsHost

noncomputable section

namespace Cert.Stages

open Idealize.ShloMosaic Cert.ReferenceIdeal
open Cert.ReferenceIdeal.Facts₀ Cert.ReferenceIdeal.Facts

variable [Cert.ReferenceIdeal.Facts]

/-- A square is non-negative on the extended reals: (±∞)·(±∞) = +∞. -/
theorem ereal_mul_self_nonneg (x : EReal) : 0 ≤ x * x := by
  induction x using EReal.rec with
  | bot => simp
  | coe r => rw [← EReal.coe_mul]; exact_mod_cast mul_self_nonneg r
  | top => simp

/-- The f32 word 0x47C35000 is the real number 100000. -/
theorem ofBits_hundred_thousand : Ideal.ofBits .f32 0x47C35000#32 = ((100000 : ℝ) : EReal) := by
  simp [Ideal.ofBits, Ideal.ieee]
  rw [← EReal.coe_mul]
  exact congrArg _ (by norm_num)

theorem varOf_nonneg (s : FVec Ideal S100000x64 .f32) (q : S64.Idx) : (0 : EReal) ≤ varOf (F := Ideal) s q := by
  unfold varOf
  simp only [select, cmpf, subf, mulf, Host.divf, sitofp, broadcastInDim, constant, constantI, id,
    Ideal.subf_def, Ideal.mulf_def, Ideal.hostDivf_def, Ideal.ofBits_def, Ideal.scalar_sitofp_def, Ideal.cmpf_def, Ideal.scalar_cmpf_def,
    Ideal.scalar_subf_def, Ideal.scalar_mulf_def]
  have h0 : (FloatOps.sitofp .f32 (0#32 : BitVec 32) : Ideal .f32) = 0 := by
    show (((0#32 : BitVec 32).toInt : ℝ) : EReal) = 0
    simp
  rw [h0, ofBits_hundred_thousand, Ideal.ofBits_zero_f32, sub_zero]
  have hc : Ideal.cmp .ogt ((100000 : ℝ) : EReal) 0 = 1#1 := by
    unfold Ideal.cmp
    simp
  rw [hc]
  unfold Scalar.select
  rw [if_pos (by decide : (1#1 : BitVec 1) = 1), Ideal.div_coe (by norm_num : (100000 : ℝ) ≠ 0)]
  refine EReal.mul_nonneg ?_ (by exact_mod_cast (by norm_num : (0 : ℝ) ≤ 1 / 100000))
  unfold Host.reduceAdd
  simp only [Ideal.hostReduceAdd_def]
  rw [Ideal.hostReduceAdd_single _ (by decide)]
  refine add_nonneg ?_ (Finset.sum_nonneg fun k _ => ?_)
  · show (0 : EReal) ≤ FloatOps.ofBits (F := Ideal) .f32 0#32
    rw [Ideal.ofBits_def, Ideal.ofBits_zero_f32]
  · simp only [mulf, Ideal.mulf_def]
    exact ereal_mul_self_nonneg _

end Cert.Stages

end
-- ==== Proof.KS1.lean ====
/-
  Message passing followed by the normalisation region, read at the region's exit: the stretch of host operations before the region aggregates the previous dense layer's output over the edges and takes the column means and variances; the region's output array is the reference's normalisation of that aggregate, the variance being non-negative.
-/
import proofs.«117444_j67095979098699_1_alg».proof.Proof.KCommon
import proofs.«117444_j67095979098699_1_alg».proof.Proof.KBn1
import proofs.«117444_j67095979098699_1_alg».proof.Proof.VarNonneg

set_option maxRecDepth 16384

noncomputable section

namespace Cert.KernelIdeal.KS1

open Idealize.ShloMosaic Idealize.ShloMosaic.StableHlo Idealize.ShloMosaic.TcCoe Idealize.SL.Sem
open Cert.KernelIdeal Cert.KernelIdeal.Gen Cert.KernelIdeal.KCommon Cert.Stages

section Walk

variable {F : FTy → Type} [FloatOps F]
variable (m : (ℓ : Loc nD τ sig) → Buf (Elt F) ℓ) (ρ : Dev nD → PrngReg) (c : Dev nD)

attribute [local irreducible] Host.gather Host.scatterAdd Host.reduceAdd Host.powf in
set_option maxHeartbeats 8000000 in
/-- The source list at the previous region's exit is the edge sources with self loops. -/
theorem src_eq : (W6 m ρ c (Proc.devRef .tc main_v5)) = srcA (W0 m ρ c (Proc.devRef .tc main_arg1)) := by
  rw [W6_of_ne m ρ c main_v5 (by decide)]
  kstep
  all_goals rfl

attribute [local irreducible] Host.gather Host.scatterAdd Host.reduceAdd Host.powf in
set_option maxHeartbeats 8000000 in
/-- The target list at the previous region's exit is the edge targets with self loops. -/
theorem dst_eq : (W6 m ρ c (Proc.devRef .tc main_v6)) = dstA (W0 m ρ c (Proc.devRef .tc main_arg1)) := by
  rw [W6_of_ne m ρ c main_v6 (by decide)]
  kstep
  all_goals rfl

attribute [local irreducible] Host.gather Host.scatterAdd Host.reduceAdd Host.powf in
set_option maxHeartbeats 8000000 in
/-- The edge weights at the previous region's exit. -/
theorem nrm_eq : (W6 m ρ c (Proc.devRef .tc main_v29)) = nrm (srcA (W0 m ρ c (Proc.devRef .tc main_arg1))) (dstA (W0 m ρ c (Proc.devRef .tc main_arg1))) := by
  rw [W6_of_ne m ρ c main_v29 (by decide)]
  kstep
  all_goals rfl

attribute [local irreducible] Host.gather Host.scatterAdd Host.reduceAdd Host.powf in
set_option maxHeartbeats 8000000 in
/-- The region's first operand is the aggregate of the previous dense layer's output. -/
theorem agg_eq : V9 m ρ c main_v45 = aggr (W6 m ρ c (Proc.devRef .tc main_v32)) (W6 m ρ c (Proc.devRef .tc main_v5)) (W6 m ρ c (Proc.devRef .tc main_v6)) (W6 m ρ c (Proc.devRef .tc main_v29)) := by
  kstep
  all_goals rfl

attribute [local irreducible] Host.gather Host.scatterAdd Host.reduceAdd Host.powf in
set_option maxHeartbeats 8000000 in
/-- The region's mean operand is the column mean of its first operand. -/
theorem mean_eq : V9 m ρ c main_v50 = rowTo64 (meanOf (V9 m ρ c main_v45)) := by
  kstep
  all_goals rfl

attribute [local irreducible] Host.gather Host.scatterAdd Host.reduceAdd Host.powf in
set_option maxHeartbeats 8000000 in
/-- The region's variance operand is the column variance of its first operand. -/
theorem var_eq : V9 m ρ c main_v51 = rowTo64 (varOf (V9 m ρ c main_v45)) := by
  kstep
  all_goals rfl

attribute [local irreducible] Host.gather Host.scatterAdd Host.reduceAdd Host.powf in
set_option maxHeartbeats 8000000 in
/-- The region's scale operand is the scale vector laid as a row. -/
theorem scale_eq : V9 m ρ c main_v52 = rowTo64 (W0 m ρ c (Proc.devRef .tc main_arg5)) := by
  kstep
  rw [W6_of_ne m ρ c main_arg5 (by decide)]
  kstep
  all_goals rfl

attribute [local irreducible] Host.gather Host.scatterAdd Host.reduceAdd Host.powf in
set_option maxHeartbeats 8000000 in
/-- The region's shift operand is the shift vector laid as a row. -/
theorem shift_eq : V9 m ρ c main_v53 = rowTo64 (W0 m ρ c (Proc.devRef .tc main_arg6)) := by
  kstep
  rw [W6_of_ne m ρ c main_arg6 (by decide)]
  kstep
  all_goals rfl

end Walk

section AtIdeal

variable (m : (ℓ : Loc nD τ sig) → Buf (Elt Ideal) ℓ) (ρ : Dev nD → PrngReg) (c : Dev nD)

/-- The variance operand is non-negative. -/
theorem var_nonneg : ∀ y, (0 : EReal) ≤ V9 m ρ c main_v51 y := by
  intro y
  rw [var_eq]
  exact varOf_nonneg _ (Shape.reshapeEquiv _ y)

/-- The region's output array is the reference's message-passing step of the previous dense layer's output. -/
theorem value : W10 m ρ c (Proc.devRef .tc main_v54) = convOf (W6 m ρ c (Proc.devRef .tc main_v32)) (W0 m ρ c (Proc.devRef .tc main_arg1)) (W0 m ρ c (Proc.devRef .tc main_arg5)) (W0 m ρ c (Proc.devRef .tc main_arg6)) := by
  refine (show W10 m ρ c (Proc.devRef .tc main_v54) = (dat1 (V9 m ρ) c).arrAt 5 cfg1.N from W10_arr m ρ c 5).trans ?_
  rw [KBn1.bn1_final (V9 m ρ) c (var_nonneg m ρ c), mean_eq, var_eq, scale_eq, shift_eq, rowOf64_rowTo64, rowOf64_rowTo64, rowOf64_rowTo64, rowOf64_rowTo64, agg_eq, src_eq, dst_eq, nrm_eq]
  rfl

end AtIdeal

end Cert.KernelIdeal.KS1

end
-- ==== Proof.KLin2.lean ====
/-
  A dense layer (region 2 of the kernel's run).  The grid has twenty points; point t stages rows
  5000·t … 5000·t + 4999 of the activations x the preceding stage left (100000 × 64), the whole transposed weight matrix wt (64 × 64) and
  the whole one-row bias b (1 × 64), and writes back the same block of rows of the result.  Entry (p, q) of the block
  it writes is Σ_k x(5000·t + p, k) · wt(k, q) + b(0, q); entry (r, q) of the reference's dense layer of the whole
  arrays is Σ_k x(r, k) · wt(k, q) + b(0, q).  The sums run over the contracted axis only, so each block is the
  restriction of the one whole-array function to its rows, and the twenty blocks cover the array: the array after the
  region is the reference's dense layer of the arrays the region finds.
-/
import proofs.«117444_j67095979098699_1_alg».proof.Proof.Gen.KernelIdeal.Frame
import proofs.«117444_j67095979098699_1_alg».proof.Proof.Gen.ReferenceIdeal
import proofs.«117444_j67095979098699_1_alg».proof.Proof.Stages
import proofs.«117444_j67095979098699_1_alg».proof.Proof.KLinLib
import Idealize.ShloMosaic.Lib.StableHlo.Run
import Idealize.ShloMosaic.PureOps.Ideal.Laws

set_option maxRecDepth 16384

noncomputable section

namespace Cert.KernelIdeal.KLin2
open Idealize.ShloMosaic Idealize.ShloMosaic.StableHlo Idealize.ShloMosaic.TcCoe Idealize.SL.Sem Cert.KernelIdeal Cert.KernelIdeal.Gen
open Idealize.ShloMosaic.Pipeline (Dat Cfg Window)
open Idealize.ShloMosaic.ValueIdx Cert.KLinLib

/-- The kernel's payload of region 2 at entry (p, q) of its block: the sum over the 64 input features plus the bias. -/
theorem pay2_apply (x0 : Vec Ideal S5000x64 .f32) (x1 : Vec Ideal S64x64 .f32) (x2 : Vec Ideal S1x64 .f32) (p : Fin 5000) (q : Fin 64) :
    out2_3 x0 x1 x2 (ix2 p q) = (∑ k : Fin 64, x0 (ix2 p k) * x1 (ix2 k q)) + x2 (ix2 0 q) := by
  unfold out2_3
  rw [View.canon_unit_zero hz2]
  simp only [View.ld_unit_zero (S := S5000x64) hz2, View.ld_unit_zero (S := S64x64) hz2, View.ld_unit_zero (S := S1x64) hz2]
  unfold k2_pay1
  rw [shapeCast_self, shapeCast_self, shapeCast_self]
  exact linKernel_apply dot_S5000x64_S64x64_S5000x64_1_0_0_1_n_n rfl broadcasts_S1x64_S5000x64 (truncf .bf16 x0 bitsLt_bf16_f32) (truncf .bf16 x1 bitsLt_bf16_f32) x2 p q

/-- The reference's dense layer at entry (r, q) of the whole array: the same sum plus the same bias. -/
theorem ref2_apply (x : Vec Ideal S100000x64 .f32) (wt : Vec Ideal S64x64 .f32) (y : Vec Ideal S1x64 .f32) (r : Fin 100000) (q : Fin 64) :
    Cert.Stages.linCore x wt (Cert.Stages.rowOf64 y) (ix2 r q) = (∑ k : Fin 64, x (ix2 r k) * wt (ix2 k q)) + y (ix2 0 q) := by
  unfold Cert.Stages.linCore Cert.Stages.rowOf64
  exact linHost_apply Cert.ReferenceIdeal.dot_S100000x64_S64x64_S100000x64_1_0_0_1_n_n rfl _ _ _ x wt y r q

/-- The block indices over the grid: the row windows move with the point, the weights and the bias stay. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- A grid point is below twenty. -/
theorem lt_grid2 (t : Fin cfg2.N) : t.val < 20 := lt_of_lt_of_eq t.isLt N_2

/-- Window 0's block at point t, read at (p, k), is the array at row 5000·t + p. -/
theorem read2_0 (X : Vec Ideal S100000x64 .f32) (t : Fin cfg2.N) (p : Fin 5000) (k : Fin 64) (h : t.val * 5000 + p.val < 100000) :
    ((cfg2.win 0).blk t).view.read (Elt Ideal) X (ix2 p k) = X (ix2 ⟨t.val * 5000 + p.val, h⟩ k) := by
  obtain ⟨e0, e1, -⟩ := idx_facts2 t
  show X (((cfg2.win 0).blk t).view.emb (ix2 p k)) = _
  refine congrArg X (funext fun a => Fin.ext ?_)
  match a with
  | ⟨0, _⟩ => show win2_0.index t (0 : Fin 2) * 5000 + 1 * p.val = t.val * 5000 + p.val; rw [e0]; omega
  | ⟨1, _⟩ => show win2_0.index t (1 : Fin 2) * 64 + 1 * k.val = k.val; rw [e1]; omega

/-- Window 1's block is the whole weight matrix. -/
theorem read2_1 (X : Vec Ideal S64x64 .f32) (t : Fin cfg2.N) (k : Fin 64) (q : Fin 64) :
    ((cfg2.win 1).blk t).view.read (Elt Ideal) X (ix2 k q) = X (ix2 k q) := by
  obtain ⟨-, -, e0, e1, -⟩ := idx_facts2 t
  show X (((cfg2.win 1).blk t).view.emb (ix2 k q)) = _
  refine congrArg X (funext fun a => Fin.ext ?_)
  match a with
  | ⟨0, _⟩ => show win2_1.index t (0 : Fin 2) * 64 + 1 * k.val = k.val; rw [e0]; omega
  | ⟨1, _⟩ => show win2_1.index t (1 : Fin 2) * 64 + 1 * q.val = q.val; rw [e1]; omega

/-- Window 2's block is the whole one-row bias. -/
theorem read2_2 (X : Vec Ideal S1x64 .f32) (t : Fin cfg2.N) (z : Fin 1) (q : Fin 64) :
    ((cfg2.win 2).blk t).view.read (Elt Ideal) X (ix2 z q) = X (ix2 z q) := by
  obtain ⟨-, -, -, -, e0, e1, -⟩ := idx_facts2 t
  show X (((cfg2.win 2).blk t).view.emb (ix2 z q)) = _
  refine congrArg X (funext fun a => Fin.ext ?_)
  match a with
  | ⟨0, _⟩ => show win2_2.index t (0 : Fin 2) * 1 + 1 * z.val = z.val; rw [e0]; omega
  | ⟨1, _⟩ => show win2_2.index t (1 : Fin 2) * 64 + 1 * q.val = q.val; rw [e1]; omega

/-- Window 3's block at point t, read at (p, q), is the array at row 5000·t + p. -/
theorem read2_3 (X : Vec Ideal S100000x64 .f32) (t : Fin cfg2.N) (p : Fin 5000) (q : Fin 64) (h : t.val * 5000 + p.val < 100000) :
    ((cfg2.win 3).blk t).view.read (Elt Ideal) X (ix2 p q) = X (ix2 ⟨t.val * 5000 + p.val, h⟩ q) := by
  obtain ⟨-, -, -, -, -, -, e0, e1⟩ := idx_facts2 t
  show X (((cfg2.win 3).blk t).view.emb (ix2 p q)) = _
  refine congrArg X (funext fun a => Fin.ext ?_)
  match a with
  | ⟨0, _⟩ => show win2_3.index t (0 : Fin 2) * 5000 + 1 * p.val = t.val * 5000 + p.val; rw [e0]; omega
  | ⟨1, _⟩ => show win2_3.index t (1 : Fin 2) * 64 + 1 * q.val = q.val; rw [e1]; omega

variable (V : (c : Dev nD) → (b : Ref sig .tc) → Buf (Elt Ideal) ((c : Thread nD τ).loc b))

/-- WHAT POINT t WRITES BACK is block t of the reference's dense layer of the arrays the region finds. -/
theorem flushed3_eq (c : Dev nD) (t : Fin cfg2.N) :
    (dat2 (F := Ideal) V c).flushed 3 t = ((cfg2.win 3).blk t).view.read (Elt Ideal) (Cert.Stages.linCore (V c main_v54) (V c main_v55) (Cert.Stages.rowOf64 (V c main_v56))) := by
  show (cfg2.win 3).cut (grid2.coords t) ((dat2 V c).after 3 t) = _
  rw [after2_3]
  funext j
  obtain ⟨p, q, rfl⟩ : ∃ (p : Fin 5000) (q : Fin 64), j = ix2 p q := ⟨j 0, j 1, eq_ix2 j⟩
  have ht := lt_grid2 t
  have hp : t.val * 5000 + p.val < 100000 := by have := p.isLt; omega
  rw [read2_3 _ t p q hp, ref2_apply]
  show out2_3 (iblk2 V c 0 t) (iblk2 V c 1 t) (iblk2 V c 2 t) (ix2 p q) = _
  rw [pay2_apply (iblk2 V c 0 t) (iblk2 V c 1 t) (iblk2 V c 2 t) p q]
  have e0 : ∀ k : Fin 64, iblk2 V c 0 t (ix2 p k) = V c main_v54 (ix2 ⟨t.val * 5000 + p.val, hp⟩ k) :=
    fun k => read2_0 (V c main_v54) t p k hp
  have e1 : ∀ k : Fin 64, iblk2 V c 1 t (ix2 k q) = V c main_v55 (ix2 k q) := fun k => read2_1 (V c main_v55) t k q
  have e2 : iblk2 V c 2 t (ix2 0 q) = V c main_v56 (ix2 0 q) := read2_2 (V c main_v56) t 0 q
  rw [e2]
  exact congrArg (· + V c main_v56 (ix2 0 q)) (Finset.sum_congr rfl fun k _ => by rw [e0 k, e1 k])

/-- An index of the array is in point t's block iff each coordinate is in the block's range on its axis. -/
theorem mem_blk3 (t : Fin cfg2.N) (i : S100000x64.Idx) :
    i ∈ ((cfg2.win 3).blk t).view.set ↔ ∀ a : Fin 2, win2_3.index t a * S5000x64.size a ≤ (i a).val ∧ (i a).val < win2_3.index t a * S5000x64.size a + S5000x64.size a := by
  show i ∈ ((View.whole main_v57).slice (win2_3.rect t)).set ↔ _
  rw [View.set_slice_whole, Rect.mem_set_unit]
  exact Iff.rfl

/-- Row r of the array is in the block of point r / 5000: the twenty blocks of 5000 rows cover the array. -/
theorem cover3 (i : S100000x64.Idx) : ∃ t : Fin cfg2.N, (cfg2.win 3).flush t = true ∧ i ∈ ((cfg2.win 3).blk t).view.set := by
  have hi0 : (i 0).val < 100000 := (i 0).isLt
  have hi1 : (i 1).val < 64 := (i 1).isLt
  have hN : cfg2.N = 20 := N_2
  obtain ⟨t, ht⟩ : ∃ t : Fin cfg2.N, t.val = (i 0).val / 5000 := ⟨⟨(i 0).val / 5000, by rw [hN]; omega⟩, rfl⟩
  refine ⟨t, flush2_3 t, ?_⟩
  rw [mem_blk3]
  obtain ⟨-, -, -, -, -, -, e0, e1⟩ := idx_facts2 t
  intro a
  match a with
  | ⟨0, _⟩ => show win2_3.index t (0 : Fin 2) * 5000 ≤ (i 0).val ∧ (i 0).val < win2_3.index t (0 : Fin 2) * 5000 + 5000; rw [e0, ht]; omega
  | ⟨1, _⟩ => show win2_3.index t (1 : Fin 2) * 64 ≤ (i 1).val ∧ (i 1).val < win2_3.index t (1 : Fin 2) * 64 + 64; rw [e1]; omega

/-- THE ARRAY after region 2: the reference's dense layer over 64 input features of the arrays the region finds. -/
theorem lin2_final (c : Dev nD) :
    (dat2 (F := Ideal) V c).arrAt 3 cfg2.N = Cert.Stages.linCore (V c main_v54) (V c main_v55) (Cert.Stages.rowOf64 (V c main_v56)) :=
  (dat2 V c).arrAt_eq_of_cover 3 _ (fun t _ => flushed3_eq V c t) cover3

end Cert.KernelIdeal.KLin2

end
-- ==== Proof.KS2.lean ====
/-
  The dense layer computed by a kernel region, read at the region's exit: the region's output array is the layer's core applied to the region's entry arrays, and those are the layer's input as the previous stage left it, the transposed weight matrix and the bias laid as a one-row matrix.
-/
import proofs.«117444_j67095979098699_1_alg».proof.Proof.KCommon
import proofs.«117444_j67095979098699_1_alg».proof.Proof.KLin2

set_option maxRecDepth 16384

noncomputable section

namespace Cert.KernelIdeal.KS2

open Idealize.ShloMosaic Idealize.ShloMosaic.StableHlo Idealize.ShloMosaic.TcCoe Idealize.SL.Sem
open Cert.KernelIdeal Cert.KernelIdeal.Gen Cert.KernelIdeal.KCommon Cert.Stages

section Walk

variable {F : FTy → Type} [FloatOps F]
variable (m : (ℓ : Loc nD τ sig) → Buf (Elt F) ℓ) (ρ : Dev nD → PrngReg) (c : Dev nD)

attribute [local irreducible] Host.gather Host.scatterAdd Host.reduceAdd Host.powf in
set_option maxHeartbeats 8000000 in
/-- The region's first operand is the previous stage's output. -/
theorem input_eq : V11 m ρ c main_v54 = (W10 m ρ c (Proc.devRef .tc main_v54)) := by
  kstep
  all_goals rfl

attribute [local irreducible] Host.gather Host.scatterAdd Host.reduceAdd Host.powf in
set_option maxHeartbeats 8000000 in
/-- The region's second operand is the transposed weight matrix. -/
theorem weight_eq : V11 m ρ c main_v55 = transpSq (W0 m ρ c (Proc.devRef .tc main_arg7)) := by
  kstep
  rw [W10_of_ne m ρ c main_arg7 (by decide)]
  kstep
  rw [W6_of_ne m ρ c main_arg7 (by decide)]
  kstep
  all_goals rfl

attribute [local irreducible] Host.gather Host.scatterAdd Host.reduceAdd Host.powf in
set_option maxHeartbeats 8000000 in
/-- The region's third operand is the bias laid as a row. -/
theorem bias_eq : V11 m ρ c main_v56 = rowTo64 (W0 m ρ c (Proc.devRef .tc main_arg8)) := by
  kstep
  rw [W10_of_ne m ρ c main_arg8 (by decide)]
  kstep
  rw [W6_of_ne m ρ c main_arg8 (by decide)]
  kstep
  all_goals rfl

end Walk

section AtIdeal

variable (m : (ℓ : Loc nD τ sig) → Buf (Elt Ideal) ℓ) (ρ : Dev nD → PrngReg) (c : Dev nD)

/-- The region's output array is the reference's dense layer of the previous stage's output. -/
theorem value : W12 m ρ c (Proc.devRef .tc main_v57) = linRef (W10 m ρ c (Proc.devRef .tc main_v54)) (W0 m ρ c (Proc.devRef .tc main_arg7)) (W0 m ρ c (Proc.devRef .tc main_arg8)) := by
  refine (show W12 m ρ c (Proc.devRef .tc main_v57) = (dat2 (V11 m ρ) c).arrAt 3 cfg2.N from W12_arr m ρ c 3).trans ?_
  rw [KLin2.lin2_final (V11 m ρ) c, input_eq, weight_eq, bias_eq, rowOf64_rowTo64, ← linRef_eq]

end AtIdeal

end Cert.KernelIdeal.KS2

end
-- ==== Proof.KBn3.lean ====
/-
  Normalisation region 3: the array the region leaves in its output window is the reference's normalisation
  of the region's operands — max(g·(s − mu)/√(var + eps) + be, 0) — whenever the variances are non-negative.
  The body's stored value is computed at one coordinate of one block, the reference's formula is read at the
  array index that coordinate names, the two meet by the identity a·rsqrt(v) = a/√v for v > 0, and the 20 blocks
  of 5000 rows tile the 100000 rows.
-/
import proofs.«117444_j67095979098699_1_alg».proof.Proof.Gen.KernelIdeal.Frame
import proofs.«117444_j67095979098699_1_alg».proof.Proof.Gen.ReferenceIdeal
import proofs.«117444_j67095979098699_1_alg».proof.Proof.Stages
import proofs.«117444_j67095979098699_1_alg».proof.Proof.KBnLib
import Idealize.ShloMosaic.Lib.StableHlo.Run
import Idealize.ShloMosaic.PureOps.Ideal.Laws
import Idealize.ShloMosaic.Lib.KernelVsHost
import Idealize.ShloMosaic.Lib.ValueLayout
import Idealize.ShloMosaic.Lib.ValueIdx
import Idealize.ShloMosaic.Lib.Pipeline.Value

set_option maxRecDepth 16384

noncomputable section

namespace Cert.KernelIdeal.KBn3
open Idealize.ShloMosaic Idealize.ShloMosaic.StableHlo Idealize.ShloMosaic.TcCoe Idealize.SL.Sem Cert.KernelIdeal Cert.KernelIdeal.Gen
open Idealize.ShloMosaic.Pipeline (Dat Cfg Window)
open Idealize.ShloMosaic.ValueIdx Cert.KernelIdeal.KBnLib

theorem hz : (![0, 0] : Fin 2 → Nat) = fun _ => 0 := funext fun a => by fin_cases a <;> rfl

/-- THE BODY'S RESULT AT ONE COORDINATE: over any loaded blocks, the stored value at row `p`, column `q` is the
    rectified `g · (x − mu) · rsqrt(var + eps) + be`, the four one-row operands read at column `q`. -/
theorem out_apply (x0 : Vec Ideal S5000x64 .f32) (x1 x2 x3 x4 : Vec Ideal S1x64 .f32) (p : Fin 5000) (q : Fin 64) :
    out3_5 x0 x1 x2 x3 x4 (ix2 p q)
      = max (x3 (ix2 (0 : Fin 1) q) * (x0 (ix2 p q) - x1 (ix2 (0 : Fin 1) q))
          * Ideal.rsqrt (x2 (ix2 (0 : Fin 1) q) + Ideal.ofBits .f32 0x3727C5AC#32) + x4 (ix2 (0 : Fin 1) q)) 0 := by
  unfold out3_5
  rw [View.canon_unit_zero hz]
  simp only [View.ld_unit_zero (S := S5000x64) hz, View.ld_unit_zero (S := S1x64) hz]
  unfold k3_pay1
  simp only [shapeCast_self]
  simp only [maximumf_apply, addf_apply, mulf_apply, subf_apply, broadcast_apply]
  rw [broadcastTo_1b_ab_apply x3 _ p q, broadcastTo_1b_ab_apply x1 _ p q, broadcastTo_1b_ab_apply x4 _ p q,
    broadcastTo_1b_ab_apply (rsqrt _) _ p q]
  refine congrArg₂ max ?_ Ideal.ofBits_zero_f32
  rfl

/-- The printed index maps, decided over the 20 grid points: the input block of rows and the output block move
    together, point `t`'s block being the `t`-th; the four one-row windows stay at the origin. -/
theorem idx_facts : ∀ t : Fin cfg3.N,
    win3_0.index t (0 : Fin 2) = t.val ∧ win3_0.index t (1 : Fin 2) = 0
    ∧ win3_5.index t (0 : Fin 2) = t.val ∧ win3_5.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0 :=
  (by decide +kernel : ∀ t : Fin grid3.N, _)

/-- The input block of rows and the output block at a point name the same array indices. -/
theorem emb0_eq (t : Fin cfg3.N) (j : S5000x64.Idx) :
    ((cfg3.win 0).blk t).view.emb j = ((cfg3.win 5).blk t).view.emb j := by
  obtain ⟨e0, e1, e2, e3, -⟩ := idx_facts t
  funext a; apply Fin.ext
  match a with
  | ⟨0, _⟩ => show win3_0.index t (0 : Fin 2) * 5000 + 1 * (j 0).val = win3_5.index t (0 : Fin 2) * 5000 + 1 * (j 0).val; omega
  | ⟨1, _⟩ => show win3_0.index t (1 : Fin 2) * 64 + 1 * (j 1).val = win3_5.index t (1 : Fin 2) * 64 + 1 * (j 1).val; omega

/-- A one-row window's block is the whole one-row array: a block index is the array index. -/
theorem emb1_eq (t : Fin cfg3.N) (j : S1x64.Idx) : ((cfg3.win 1).blk t).view.emb j = j := by
  obtain ⟨-, -, -, -, e0, e1, -⟩ := idx_facts t
  funext a; apply Fin.ext
  match a with
  | ⟨0, _⟩ => show win3_1.index t (0 : Fin 2) * 1 + 1 * (j 0).val = (j 0).val; omega
  | ⟨1, _⟩ => show win3_1.index t (1 : Fin 2) * 64 + 1 * (j 1).val = (j 1).val; omega

theorem emb2_eq (t : Fin cfg3.N) (j : S1x64.Idx) : ((cfg3.win 2).blk t).view.emb j = j := by
  obtain ⟨-, -, -, -, -, -, e0, e1, -⟩ := idx_facts t
  funext a; apply Fin.ext
  match a with
  | ⟨0, _⟩ => show win3_2.index t (0 : Fin 2) * 1 + 1 * (j 0).val = (j 0).val; omega
  | ⟨1, _⟩ => show win3_2.index t (1 : Fin 2) * 64 + 1 * (j 1).val = (j 1).val; omega

theorem emb3_eq (t : Fin cfg3.N) (j : S1x64.Idx) : ((cfg3.win 3).blk t).view.emb j = j := by
  obtain ⟨-, -, -, -, -, -, -, -, e0, e1, -⟩ := idx_facts t
  funext a; apply Fin.ext
  match a with
  | ⟨0, _⟩ => show win3_3.index t (0 : Fin 2) * 1 + 1 * (j 0).val = (j 0).val; omega
  | ⟨1, _⟩ => show win3_3.index t (1 : Fin 2) * 64 + 1 * (j 1).val = (j 1).val; omega

theorem emb4_eq (t : Fin cfg3.N) (j : S1x64.Idx) : ((cfg3.win 4).blk t).view.emb j = j := by
  obtain ⟨-, -, -, -, -, -, -, -, -, -, e0, e1⟩ := idx_facts t
  funext a; apply Fin.ext
  match a with
  | ⟨0, _⟩ => show win3_4.index t (0 : Fin 2) * 1 + 1 * (j 0).val = (j 0).val; omega
  | ⟨1, _⟩ => show win3_4.index t (1 : Fin 2) * 64 + 1 * (j 1).val = (j 1).val; omega

/-- The output block keeps the column: the array index of block index `(p, q)` is in column `q`. -/
theorem emb5_col (t : Fin cfg3.N) (j : S5000x64.Idx) : ((cfg3.win 5).blk t).view.emb j (1 : Fin 2) = j (1 : Fin 2) := by
  obtain ⟨-, -, -, e3, -⟩ := idx_facts t
  apply Fin.ext
  show win3_5.index t (1 : Fin 2) * 64 + 1 * (j 1).val = (j 1).val
  omega

variable (V : (c : Dev nD) → (b : Ref sig .tc) → Buf (Elt Ideal) ((c : Thread nD τ).loc b))

/-- The block of rows a point loads, read at a coordinate, is the array at the index the OUTPUT block names there. -/
theorem blk0_apply (c : Dev nD) (t : Fin cfg3.N) (j : S5000x64.Idx) :
    iblk3 (F := Ideal) V c 0 t j = V c main_v70 (((cfg3.win 5).blk t).view.emb j) := by
  rw [← emb0_eq]; rfl

/-- A one-row block a point loads is the one-row array. -/
theorem blk1_apply (c : Dev nD) (t : Fin cfg3.N) (j : S1x64.Idx) : iblk3 (F := Ideal) V c 1 t j = V c main_v75 j :=
  (show iblk3 (F := Ideal) V c 1 t j = V c main_v75 (((cfg3.win 1).blk t).view.emb j) from rfl).trans (by rw [emb1_eq])

theorem blk2_apply (c : Dev nD) (t : Fin cfg3.N) (j : S1x64.Idx) : iblk3 (F := Ideal) V c 2 t j = V c main_v76 j :=
  (show iblk3 (F := Ideal) V c 2 t j = V c main_v76 (((cfg3.win 2).blk t).view.emb j) from rfl).trans (by rw [emb2_eq])

theorem blk3_apply (c : Dev nD) (t : Fin cfg3.N) (j : S1x64.Idx) : iblk3 (F := Ideal) V c 3 t j = V c main_v77 j :=
  (show iblk3 (F := Ideal) V c 3 t j = V c main_v77 (((cfg3.win 3).blk t).view.emb j) from rfl).trans (by rw [emb3_eq])

theorem blk4_apply (c : Dev nD) (t : Fin cfg3.N) (j : S1x64.Idx) : iblk3 (F := Ideal) V c 4 t j = V c main_v78 j :=
  (show iblk3 (F := Ideal) V c 4 t j = V c main_v78 (((cfg3.win 4).blk t).view.emb j) from rfl).trans (by rw [emb4_eq])

/-- AT ONE COORDINATE OF ONE POINT'S BLOCK the body's result over the point's input blocks is the reference's
    normalisation of the whole arrays, read at the array index the coordinate names. -/
theorem point (c : Dev nD) (hv : ∀ y, (0 : EReal) ≤ V c main_v76 y) (t : Fin cfg3.N) (j : S5000x64.Idx) :
    out3_5 (iblk3 (F := Ideal) V c 0 t) (iblk3 V c 1 t) (iblk3 V c 2 t) (iblk3 V c 3 t) (iblk3 V c 4 t) j
      = Cert.Stages.bnRef (V c main_v70) (Cert.Stages.rowOf64 (V c main_v75)) (Cert.Stages.rowOf64 (V c main_v76))
          (Cert.Stages.rowOf64 (V c main_v77)) (Cert.Stages.rowOf64 (V c main_v78)) (((cfg3.win 5).blk t).view.emb j) := by
  obtain ⟨p, q, rfl⟩ : ∃ (p : Fin 5000) (q : Fin 64), j = ix2 p q := ⟨j 0, j 1, eq_ix2 j⟩
  refine (out_apply _ _ _ _ _ p q).trans ?_
  obtain ⟨r, hr⟩ : ∃ r : Fin 100000, ((cfg3.win 5).blk t).view.emb (ix2 p q) = ix2 r q :=
    ⟨((cfg3.win 5).blk t).view.emb (ix2 p q) (0 : Fin 2), (eq_ix2 _).trans (congrArg (ix2 _) (emb5_col t (ix2 p q)))⟩
  rw [hr, bnRef_apply, rowOf64_apply, rowOf64_apply, rowOf64_apply, rowOf64_apply, ← hr]
  rw [blk0_apply, blk1_apply, blk2_apply, blk3_apply, blk4_apply]
  exact point_eq _ _ _ _ _ (hv _)

/-- WHAT POINT `t` WRITES BACK is block `t` of the reference's normalisation of the whole arrays. -/
theorem flushed_eq (c : Dev nD) (hv : ∀ y, (0 : EReal) ≤ V c main_v76 y) (t : Fin cfg3.N) :
    (dat3 (F := Ideal) V c).flushed 5 t = ((cfg3.win 5).blk t).view.read (Elt Ideal)
      (Cert.Stages.bnRef (V c main_v70) (Cert.Stages.rowOf64 (V c main_v75)) (Cert.Stages.rowOf64 (V c main_v76))
        (Cert.Stages.rowOf64 (V c main_v77)) (Cert.Stages.rowOf64 (V c main_v78))) := by
  show (cfg3.win 5).cut (grid3.coords t) ((dat3 V c).after 5 t) = _
  rw [after3_5]
  funext j
  exact point V c hv t j

/-- An index of the array is in point `t`'s block iff each coordinate is in the block's range on its axis. -/
theorem mem_blk (t : Fin cfg3.N) (i : S100000x64.Idx) :
    i ∈ ((cfg3.win 5).blk t).view.set ↔ ∀ a : Fin 2, win3_5.index t a * S5000x64.size a ≤ (i a).val ∧ (i a).val < win3_5.index t a * S5000x64.size a + S5000x64.size a := by
  show i ∈ ((View.whole main_v79).slice (win3_5.rect t)).set ↔ _
  rw [View.set_slice_whole, Rect.mem_set_unit]
  exact Iff.rfl

/-- THE BLOCKS TILE THE ARRAY: row `r` is in the block of point `r / 5000`. -/
theorem cover (i : S100000x64.Idx) : ∃ t : Fin cfg3.N, (cfg3.win 5).flush t = true ∧ i ∈ ((cfg3.win 5).blk t).view.set := by
  have hi0 : (i 0).val < 100000 := (i 0).isLt
  have hi1 : (i 1).val < 64 := (i 1).isLt
  obtain ⟨t, ht⟩ : ∃ t : Fin cfg3.N, t.val = (i 0).val / 5000 :=
    ⟨⟨(i 0).val / 5000, by rw [show cfg3.N = 20 from N_3]; omega⟩, rfl⟩
  refine ⟨t, flush3_5 t, ?_⟩
  rw [mem_blk]
  obtain ⟨-, -, e2, e3, -⟩ := idx_facts t
  intro a
  match a with
  | ⟨0, _⟩ => show win3_5.index t (0 : Fin 2) * 5000 ≤ (i 0).val ∧ (i 0).val < win3_5.index t (0 : Fin 2) * 5000 + 5000; omega
  | ⟨1, _⟩ => show win3_5.index t (1 : Fin 2) * 64 ≤ (i 1).val ∧ (i 1).val < win3_5.index t (1 : Fin 2) * 64 + 64; omega

/-- THE REGION'S OUTPUT ARRAY after its 20 points is the reference's normalisation of its operands. -/
theorem bn3_final (c : Dev nD) (hv : ∀ y, (0 : EReal) ≤ V c main_v76 y) :
    (dat3 (F := Ideal) V c).arrAt 5 cfg3.N = Cert.Stages.bnRef (V c main_v70) (Cert.Stages.rowOf64 (V c main_v75)) (Cert.Stages.rowOf64 (V c main_v76)) (Cert.Stages.rowOf64 (V c main_v77)) (Cert.Stages.rowOf64 (V c main_v78)) :=
  (dat3 V c).arrAt_eq_of_cover 5 _ (fun t _ => flushed_eq V c hv t) cover

end Cert.KernelIdeal.KBn3
end
-- ==== Proof.KS3.lean ====
/-
  Message passing followed by the normalisation region, read at the region's exit: the stretch of host operations before the region aggregates the previous dense layer's output over the edges and takes the column means and variances; the region's output array is the reference's normalisation of that aggregate, the variance being non-negative.
-/
import proofs.«117444_j67095979098699_1_alg».proof.Proof.KCommon
import proofs.«117444_j67095979098699_1_alg».proof.Proof.KBn3
import proofs.«117444_j67095979098699_1_alg».proof.Proof.VarNonneg

set_option maxRecDepth 16384

noncomputable section

namespace Cert.KernelIdeal.KS3

open Idealize.ShloMosaic Idealize.ShloMosaic.StableHlo Idealize.ShloMosaic.TcCoe Idealize.SL.Sem
open Cert.KernelIdeal Cert.KernelIdeal.Gen Cert.KernelIdeal.KCommon Cert.Stages

section Walk

variable {F : FTy → Type} [FloatOps F]
variable (m : (ℓ : Loc nD τ sig) → Buf (Elt F) ℓ) (ρ : Dev nD → PrngReg) (c : Dev nD)

attribute [local irreducible] Host.gather Host.scatterAdd Host.reduceAdd Host.powf in
set_option maxHeartbeats 8000000 in
/-- The source list at the previous region's exit is the edge sources with self loops. -/
theorem src_eq : (W12 m ρ c (Proc.devRef .tc main_v5)) = srcA (W0 m ρ c (Proc.devRef .tc main_arg1)) := by
  rw [W12_of_ne m ρ c main_v5 (by decide)]
  kstep
  rw [W10_of_ne m ρ c main_v5 (by decide)]
  kstep
  rw [W6_of_ne m ρ c main_v5 (by decide)]
  kstep
  all_goals rfl

attribute [local irreducible] Host.gather Host.scatterAdd Host.reduceAdd Host.powf in
set_option maxHeartbeats 8000000 in
/-- The target list at the previous region's exit is the edge targets with self loops. -/
theorem dst_eq : (W12 m ρ c (Proc.devRef .tc main_v6)) = dstA (W0 m ρ c (Proc.devRef .tc main_arg1)) := by
  rw [W12_of_ne m ρ c main_v6 (by decide)]
  kstep
  rw [W10_of_ne m ρ c main_v6 (by decide)]
  kstep
  rw [W6_of_ne m ρ c main_v6 (by decide)]
  kstep
  all_goals rfl

attribute [local irreducible] Host.gather Host.scatterAdd Host.reduceAdd Host.powf in
set_option maxHeartbeats 8000000 in
/-- The edge weights at the previous region's exit. -/
theorem nrm_eq : (W12 m ρ c (Proc.devRef .tc main_v29)) = nrm (srcA (W0 m ρ c (Proc.devRef .tc main_arg1))) (dstA (W0 m ρ c (Proc.devRef .tc main_arg1))) := by
  rw [W12_of_ne m ρ c main_v29 (by decide)]
  kstep
  rw [W10_of_ne m ρ c main_v29 (by decide)]
  kstep
  rw [W6_of_ne m ρ c main_v29 (by decide)]
  kstep
  all_goals rfl

attribute [local irreducible] Host.gather Host.scatterAdd Host.reduceAdd Host.powf in
set_option maxHeartbeats 8000000 in
/-- The region's first operand is the aggregate of the previous dense layer's output. -/
theorem agg_eq : V15 m ρ c main_v70 = aggr (W12 m ρ c (Proc.devRef .tc main_v57)) (W12 m ρ c (Proc.devRef .tc main_v5)) (W12 m ρ c (Proc.devRef .tc main_v6)) (W12 m ρ c (Proc.devRef .tc main_v29)) := by
  kstep
  all_goals rfl

attribute [local irreducible] Host.gather Host.scatterAdd Host.reduceAdd Host.powf in
set_option maxHeartbeats 8000000 in
/-- The region's mean operand is the column mean of its first operand. -/
theorem mean_eq : V15 m ρ c main_v75 = rowTo64 (meanOf (V15 m ρ c main_v70)) := by
  kstep
  all_goals rfl

attribute [local irreducible] Host.gather Host.scatterAdd Host.reduceAdd Host.powf in
set_option maxHeartbeats 8000000 in
/-- The region's variance operand is the column variance of its first operand. -/
theorem var_eq : V15 m ρ c main_v76 = rowTo64 (varOf (V15 m ρ c main_v70)) := by
  kstep
  all_goals rfl

attribute [local irreducible] Host.gather Host.scatterAdd Host.reduceAdd Host.powf in
set_option maxHeartbeats 8000000 in
/-- The region's scale operand is the scale vector laid as a row. -/
theorem scale_eq : V15 m ρ c main_v77 = rowTo64 (W0 m ρ c (Proc.devRef .tc main_arg9)) := by
  kstep
  rw [W12_of_ne m ρ c main_arg9 (by decide)]
  kstep
  rw [W10_of_ne m ρ c main_arg9 (by decide)]
  kstep
  rw [W6_of_ne m ρ c main_arg9 (by decide)]
  kstep
  all_goals rfl

attribute [local irreducible] Host.gather Host.scatterAdd Host.reduceAdd Host.powf in
set_option maxHeartbeats 8000000 in
/-- The region's shift operand is the shift vector laid as a row. -/
theorem shift_eq : V15 m ρ c main_v78 = rowTo64 (W0 m ρ c (Proc.devRef .tc main_arg10)) := by
  kstep
  rw [W12_of_ne m ρ c main_arg10 (by decide)]
  kstep
  rw [W10_of_ne m ρ c main_arg10 (by decide)]
  kstep
  rw [W6_of_ne m ρ c main_arg10 (by decide)]
  kstep
  all_goals rfl

end Walk

section AtIdeal

variable (m : (ℓ : Loc nD τ sig) → Buf (Elt Ideal) ℓ) (ρ : Dev nD → PrngReg) (c : Dev nD)

/-- The variance operand is non-negative. -/
theorem var_nonneg : ∀ y, (0 : EReal) ≤ V15 m ρ c main_v76 y := by
  intro y
  rw [var_eq]
  exact varOf_nonneg _ (Shape.reshapeEquiv _ y)

/-- The region's output array is the reference's message-passing step of the previous dense layer's output. -/
theorem value : W16 m ρ c (Proc.devRef .tc main_v79) = convOf (W12 m ρ c (Proc.devRef .tc main_v57)) (W0 m ρ c (Proc.devRef .tc main_arg1)) (W0 m ρ c (Proc.devRef .tc main_arg9)) (W0 m ρ c (Proc.devRef .tc main_arg10)) := by
  refine (show W16 m ρ c (Proc.devRef .tc main_v79) = (dat3 (V15 m ρ) c).arrAt 5 cfg3.N from W16_arr m ρ c 5).trans ?_
  rw [KBn3.bn3_final (V15 m ρ) c (var_nonneg m ρ c), mean_eq, var_eq, scale_eq, shift_eq, rowOf64_rowTo64, rowOf64_rowTo64, rowOf64_rowTo64, rowOf64_rowTo64, agg_eq, src_eq, dst_eq, nrm_eq]
  rfl

end AtIdeal

end Cert.KernelIdeal.KS3

end
-- ==== Proof.KLin4.lean ====
/-
  A dense layer (region 4 of the kernel's run).  The grid has twenty points; point t stages rows
  5000·t … 5000·t + 4999 of the activations x the preceding stage left (100000 × 64), the whole transposed weight matrix wt (64 × 64) and
  the whole one-row bias b (1 × 64), and writes back the same block of rows of the result.  Entry (p, q) of the block
  it writes is Σ_k x(5000·t + p, k) · wt(k, q) + b(0, q); entry (r, q) of the reference's dense layer of the whole
  arrays is Σ_k x(r, k) · wt(k, q) + b(0, q).  The sums run over the contracted axis only, so each block is the
  restriction of the one whole-array function to its rows, and the twenty blocks cover the array: the array after the
  region is the reference's dense layer of the arrays the region finds.
-/
import proofs.«117444_j67095979098699_1_alg».proof.Proof.Gen.KernelIdeal.Frame
import proofs.«117444_j67095979098699_1_alg».proof.Proof.Gen.ReferenceIdeal
import proofs.«117444_j67095979098699_1_alg».proof.Proof.Stages
import proofs.«117444_j67095979098699_1_alg».proof.Proof.KLinLib
import Idealize.ShloMosaic.Lib.StableHlo.Run
import Idealize.ShloMosaic.PureOps.Ideal.Laws

set_option maxRecDepth 16384

noncomputable section

namespace Cert.KernelIdeal.KLin4
open Idealize.ShloMosaic Idealize.ShloMosaic.StableHlo Idealize.ShloMosaic.TcCoe Idealize.SL.Sem Cert.KernelIdeal Cert.KernelIdeal.Gen
open Idealize.ShloMosaic.Pipeline (Dat Cfg Window)
open Idealize.ShloMosaic.ValueIdx Cert.KLinLib

/-- The kernel's payload of region 4 at entry (p, q) of its block: the sum over the 64 input features plus the bias. -/
theorem pay4_apply (x0 : Vec Ideal S5000x64 .f32) (x1 : Vec Ideal S64x64 .f32) (x2 : Vec Ideal S1x64 .f32) (p : Fin 5000) (q : Fin 64) :
    out4_3 x0 x1 x2 (ix2 p q) = (∑ k : Fin 64, x0 (ix2 p k) * x1 (ix2 k q)) + x2 (ix2 0 q) := by
  unfold out4_3
  rw [View.canon_unit_zero hz2]
  simp only [View.ld_unit_zero (S := S5000x64) hz2, View.ld_unit_zero (S := S64x64) hz2, View.ld_unit_zero (S := S1x64) hz2]
  unfold k4_pay1
  rw [shapeCast_self, shapeCast_self, shapeCast_self]
  exact linKernel_apply dot_S5000x64_S64x64_S5000x64_1_0_0_1_n_n rfl broadcasts_S1x64_S5000x64 (truncf .bf16 x0 bitsLt_bf16_f32) (truncf .bf16 x1 bitsLt_bf16_f32) x2 p q

/-- The reference's dense layer at entry (r, q) of the whole array: the same sum plus the same bias. -/
theorem ref4_apply (x : Vec Ideal S100000x64 .f32) (wt : Vec Ideal S64x64 .f32) (y : Vec Ideal S1x64 .f32) (r : Fin 100000) (q : Fin 64) :
    Cert.Stages.linCore x wt (Cert.Stages.rowOf64 y) (ix2 r q) = (∑ k : Fin 64, x (ix2 r k) * wt (ix2 k q)) + y (ix2 0 q) := by
  unfold Cert.Stages.linCore Cert.Stages.rowOf64
  exact linHost_apply Cert.ReferenceIdeal.dot_S100000x64_S64x64_S100000x64_1_0_0_1_n_n rfl _ _ _ x wt y r q

/-- The block indices over the grid: the row windows move with the point, the weights and the bias stay. -/
theorem idx_facts4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

/-- A grid point is below twenty. -/
theorem lt_grid4 (t : Fin cfg4.N) : t.val < 20 := lt_of_lt_of_eq t.isLt N_4

/-- Window 0's block at point t, read at (p, k), is the array at row 5000·t + p. -/
theorem read4_0 (X : Vec Ideal S100000x64 .f32) (t : Fin cfg4.N) (p : Fin 5000) (k : Fin 64) (h : t.val * 5000 + p.val < 100000) :
    ((cfg4.win 0).blk t).view.read (Elt Ideal) X (ix2 p k) = X (ix2 ⟨t.val * 5000 + p.val, h⟩ k) := by
  obtain ⟨e0, e1, -⟩ := idx_facts4 t
  show X (((cfg4.win 0).blk t).view.emb (ix2 p k)) = _
  refine congrArg X (funext fun a => Fin.ext ?_)
  match a with
  | ⟨0, _⟩ => show win4_0.index t (0 : Fin 2) * 5000 + 1 * p.val = t.val * 5000 + p.val; rw [e0]; omega
  | ⟨1, _⟩ => show win4_0.index t (1 : Fin 2) * 64 + 1 * k.val = k.val; rw [e1]; omega

/-- Window 1's block is the whole weight matrix. -/
theorem read4_1 (X : Vec Ideal S64x64 .f32) (t : Fin cfg4.N) (k : Fin 64) (q : Fin 64) :
    ((cfg4.win 1).blk t).view.read (Elt Ideal) X (ix2 k q) = X (ix2 k q) := by
  obtain ⟨-, -, e0, e1, -⟩ := idx_facts4 t
  show X (((cfg4.win 1).blk t).view.emb (ix2 k q)) = _
  refine congrArg X (funext fun a => Fin.ext ?_)
  match a with
  | ⟨0, _⟩ => show win4_1.index t (0 : Fin 2) * 64 + 1 * k.val = k.val; rw [e0]; omega
  | ⟨1, _⟩ => show win4_1.index t (1 : Fin 2) * 64 + 1 * q.val = q.val; rw [e1]; omega

/-- Window 2's block is the whole one-row bias. -/
theorem read4_2 (X : Vec Ideal S1x64 .f32) (t : Fin cfg4.N) (z : Fin 1) (q : Fin 64) :
    ((cfg4.win 2).blk t).view.read (Elt Ideal) X (ix2 z q) = X (ix2 z q) := by
  obtain ⟨-, -, -, -, e0, e1, -⟩ := idx_facts4 t
  show X (((cfg4.win 2).blk t).view.emb (ix2 z q)) = _
  refine congrArg X (funext fun a => Fin.ext ?_)
  match a with
  | ⟨0, _⟩ => show win4_2.index t (0 : Fin 2) * 1 + 1 * z.val = z.val; rw [e0]; omega
  | ⟨1, _⟩ => show win4_2.index t (1 : Fin 2) * 64 + 1 * q.val = q.val; rw [e1]; omega

/-- Window 3's block at point t, read at (p, q), is the array at row 5000·t + p. -/
theorem read4_3 (X : Vec Ideal S100000x64 .f32) (t : Fin cfg4.N) (p : Fin 5000) (q : Fin 64) (h : t.val * 5000 + p.val < 100000) :
    ((cfg4.win 3).blk t).view.read (Elt Ideal) X (ix2 p q) = X (ix2 ⟨t.val * 5000 + p.val, h⟩ q) := by
  obtain ⟨-, -, -, -, -, -, e0, e1⟩ := idx_facts4 t
  show X (((cfg4.win 3).blk t).view.emb (ix2 p q)) = _
  refine congrArg X (funext fun a => Fin.ext ?_)
  match a with
  | ⟨0, _⟩ => show win4_3.index t (0 : Fin 2) * 5000 + 1 * p.val = t.val * 5000 + p.val; rw [e0]; omega
  | ⟨1, _⟩ => show win4_3.index t (1 : Fin 2) * 64 + 1 * q.val = q.val; rw [e1]; omega

variable (V : (c : Dev nD) → (b : Ref sig .tc) → Buf (Elt Ideal) ((c : Thread nD τ).loc b))

/-- WHAT POINT t WRITES BACK is block t of the reference's dense layer of the arrays the region finds. -/
theorem flushed3_eq (c : Dev nD) (t : Fin cfg4.N) :
    (dat4 (F := Ideal) V c).flushed 3 t = ((cfg4.win 3).blk t).view.read (Elt Ideal) (Cert.Stages.linCore (V c main_v79) (V c main_v80) (Cert.Stages.rowOf64 (V c main_v81))) := by
  show (cfg4.win 3).cut (grid4.coords t) ((dat4 V c).after 3 t) = _
  rw [after4_3]
  funext j
  obtain ⟨p, q, rfl⟩ : ∃ (p : Fin 5000) (q : Fin 64), j = ix2 p q := ⟨j 0, j 1, eq_ix2 j⟩
  have ht := lt_grid4 t
  have hp : t.val * 5000 + p.val < 100000 := by have := p.isLt; omega
  rw [read4_3 _ t p q hp, ref4_apply]
  show out4_3 (iblk4 V c 0 t) (iblk4 V c 1 t) (iblk4 V c 2 t) (ix2 p q) = _
  rw [pay4_apply (iblk4 V c 0 t) (iblk4 V c 1 t) (iblk4 V c 2 t) p q]
  have e0 : ∀ k : Fin 64, iblk4 V c 0 t (ix2 p k) = V c main_v79 (ix2 ⟨t.val * 5000 + p.val, hp⟩ k) :=
    fun k => read4_0 (V c main_v79) t p k hp
  have e1 : ∀ k : Fin 64, iblk4 V c 1 t (ix2 k q) = V c main_v80 (ix2 k q) := fun k => read4_1 (V c main_v80) t k q
  have e2 : iblk4 V c 2 t (ix2 0 q) = V c main_v81 (ix2 0 q) := read4_2 (V c main_v81) t 0 q
  rw [e2]
  exact congrArg (· + V c main_v81 (ix2 0 q)) (Finset.sum_congr rfl fun k _ => by rw [e0 k, e1 k])

/-- An index of the array is in point t's block iff each coordinate is in the block's range on its axis. -/
theorem mem_blk3 (t : Fin cfg4.N) (i : S100000x64.Idx) :
    i ∈ ((cfg4.win 3).blk t).view.set ↔ ∀ a : Fin 2, win4_3.index t a * S5000x64.size a ≤ (i a).val ∧ (i a).val < win4_3.index t a * S5000x64.size a + S5000x64.size a := by
  show i ∈ ((View.whole main_v82).slice (win4_3.rect t)).set ↔ _
  rw [View.set_slice_whole, Rect.mem_set_unit]
  exact Iff.rfl

/-- Row r of the array is in the block of point r / 5000: the twenty blocks of 5000 rows cover the array. -/
theorem cover3 (i : S100000x64.Idx) : ∃ t : Fin cfg4.N, (cfg4.win 3).flush t = true ∧ i ∈ ((cfg4.win 3).blk t).view.set := by
  have hi0 : (i 0).val < 100000 := (i 0).isLt
  have hi1 : (i 1).val < 64 := (i 1).isLt
  have hN : cfg4.N = 20 := N_4
  obtain ⟨t, ht⟩ : ∃ t : Fin cfg4.N, t.val = (i 0).val / 5000 := ⟨⟨(i 0).val / 5000, by rw [hN]; omega⟩, rfl⟩
  refine ⟨t, flush4_3 t, ?_⟩
  rw [mem_blk3]
  obtain ⟨-, -, -, -, -, -, e0, e1⟩ := idx_facts4 t
  intro a
  match a with
  | ⟨0, _⟩ => show win4_3.index t (0 : Fin 2) * 5000 ≤ (i 0).val ∧ (i 0).val < win4_3.index t (0 : Fin 2) * 5000 + 5000; rw [e0, ht]; omega
  | ⟨1, _⟩ => show win4_3.index t (1 : Fin 2) * 64 ≤ (i 1).val ∧ (i 1).val < win4_3.index t (1 : Fin 2) * 64 + 64; rw [e1]; omega

/-- THE ARRAY after region 4: the reference's dense layer over 64 input features of the arrays the region finds. -/
theorem lin4_final (c : Dev nD) :
    (dat4 (F := Ideal) V c).arrAt 3 cfg4.N = Cert.Stages.linCore (V c main_v79) (V c main_v80) (Cert.Stages.rowOf64 (V c main_v81)) :=
  (dat4 V c).arrAt_eq_of_cover 3 _ (fun t _ => flushed3_eq V c t) cover3

end Cert.KernelIdeal.KLin4

end
-- ==== Proof.KS4.lean ====
/-
  The dense layer computed by a kernel region, read at the region's exit: the region's output array is the layer's core applied to the region's entry arrays, and those are the layer's input as the previous stage left it, the transposed weight matrix and the bias laid as a one-row matrix.
-/
import proofs.«117444_j67095979098699_1_alg».proof.Proof.KCommon
import proofs.«117444_j67095979098699_1_alg».proof.Proof.KLin4

set_option maxRecDepth 16384

noncomputable section

namespace Cert.KernelIdeal.KS4

open Idealize.ShloMosaic Idealize.ShloMosaic.StableHlo Idealize.ShloMosaic.TcCoe Idealize.SL.Sem
open Cert.KernelIdeal Cert.KernelIdeal.Gen Cert.KernelIdeal.KCommon Cert.Stages

section Walk

variable {F : FTy → Type} [FloatOps F]
variable (m : (ℓ : Loc nD τ sig) → Buf (Elt F) ℓ) (ρ : Dev nD → PrngReg) (c : Dev nD)

attribute [local irreducible] Host.gather Host.scatterAdd Host.reduceAdd Host.powf in
set_option maxHeartbeats 8000000 in
/-- The region's first operand is the previous stage's output. -/
theorem input_eq : V17 m ρ c main_v79 = (W16 m ρ c (Proc.devRef .tc main_v79)) := by
  kstep
  all_goals rfl

attribute [local irreducible] Host.gather Host.scatterAdd Host.reduceAdd Host.powf in
set_option maxHeartbeats 8000000 in
/-- The region's second operand is the transposed weight matrix. -/
theorem weight_eq : V17 m ρ c main_v80 = transpSq (W0 m ρ c (Proc.devRef .tc main_arg11)) := by
  kstep
  rw [W16_of_ne m ρ c main_arg11 (by decide)]
  kstep
  rw [W12_of_ne m ρ c main_arg11 (by decide)]
  kstep
  rw [W10_of_ne m ρ c main_arg11 (by decide)]
  kstep
  rw [W6_of_ne m ρ c main_arg11 (by decide)]
  kstep
  all_goals rfl

attribute [local irreducible] Host.gather Host.scatterAdd Host.reduceAdd Host.powf in
set_option maxHeartbeats 8000000 in
/-- The region's third operand is the bias laid as a row. -/
theorem bias_eq : V17 m ρ c main_v81 = rowTo64 (W0 m ρ c (Proc.devRef .tc main_arg12)) := by
  kstep
  rw [W16_of_ne m ρ c main_arg12 (by decide)]
  kstep
  rw [W12_of_ne m ρ c main_arg12 (by decide)]
  kstep
  rw [W10_of_ne m ρ c main_arg12 (by decide)]
  kstep
  rw [W6_of_ne m ρ c main_arg12 (by decide)]
  kstep
  all_goals rfl

end Walk

section AtIdeal

variable (m : (ℓ : Loc nD τ sig) → Buf (Elt Ideal) ℓ) (ρ : Dev nD → PrngReg) (c : Dev nD)

/-- The region's output array is the reference's dense layer of the previous stage's output. -/
theorem value : W18 m ρ c (Proc.devRef .tc main_v82) = linRef (W16 m ρ c (Proc.devRef .tc main_v79)) (W0 m ρ c (Proc.devRef .tc main_arg11)) (W0 m ρ c (Proc.devRef .tc main_arg12)) := by
  refine (show W18 m ρ c (Proc.devRef .tc main_v82) = (dat4 (V17 m ρ) c).arrAt 3 cfg4.N from W18_arr m ρ c 3).trans ?_
  rw [KLin4.lin4_final (V17 m ρ) c, input_eq, weight_eq, bias_eq, rowOf64_rowTo64, ← linRef_eq]

end AtIdeal

end Cert.KernelIdeal.KS4

end
-- ==== Proof.KBn5.lean ====
/-
  Normalisation region 5: the array the region leaves in its output window is the reference's normalisation
  of the region's operands — max(g·(s − mu)/√(var + eps) + be, 0) — whenever the variances are non-negative.
  The body's stored value is computed at one coordinate of one block, the reference's formula is read at the
  array index that coordinate names, the two meet by the identity a·rsqrt(v) = a/√v for v > 0, and the 20 blocks
  of 5000 rows tile the 100000 rows.
-/
import proofs.«117444_j67095979098699_1_alg».proof.Proof.Gen.KernelIdeal.Frame
import proofs.«117444_j67095979098699_1_alg».proof.Proof.Gen.ReferenceIdeal
import proofs.«117444_j67095979098699_1_alg».proof.Proof.Stages
import proofs.«117444_j67095979098699_1_alg».proof.Proof.KBnLib
import Idealize.ShloMosaic.Lib.StableHlo.Run
import Idealize.ShloMosaic.PureOps.Ideal.Laws
import Idealize.ShloMosaic.Lib.KernelVsHost
import Idealize.ShloMosaic.Lib.ValueLayout
import Idealize.ShloMosaic.Lib.ValueIdx
import Idealize.ShloMosaic.Lib.Pipeline.Value

set_option maxRecDepth 16384

noncomputable section

namespace Cert.KernelIdeal.KBn5
open Idealize.ShloMosaic Idealize.ShloMosaic.StableHlo Idealize.ShloMosaic.TcCoe Idealize.SL.Sem Cert.KernelIdeal Cert.KernelIdeal.Gen
open Idealize.ShloMosaic.Pipeline (Dat Cfg Window)
open Idealize.ShloMosaic.ValueIdx Cert.KernelIdeal.KBnLib

theorem hz : (![0, 0] : Fin 2 → Nat) = fun _ => 0 := funext fun a => by fin_cases a <;> rfl

/-- THE BODY'S RESULT AT ONE COORDINATE: over any loaded blocks, the stored value at row `p`, column `q` is the
    rectified `g · (x − mu) · rsqrt(var + eps) + be`, the four one-row operands read at column `q`. -/
theorem out_apply (x0 : Vec Ideal S5000x64 .f32) (x1 x2 x3 x4 : Vec Ideal S1x64 .f32) (p : Fin 5000) (q : Fin 64) :
    out5_5 x0 x1 x2 x3 x4 (ix2 p q)
      = max (x3 (ix2 (0 : Fin 1) q) * (x0 (ix2 p q) - x1 (ix2 (0 : Fin 1) q))
          * Ideal.rsqrt (x2 (ix2 (0 : Fin 1) q) + Ideal.ofBits .f32 0x3727C5AC#32) + x4 (ix2 (0 : Fin 1) q)) 0 := by
  unfold out5_5
  rw [View.canon_unit_zero hz]
  simp only [View.ld_unit_zero (S := S5000x64) hz, View.ld_unit_zero (S := S1x64) hz]
  unfold k5_pay1
  simp only [shapeCast_self]
  simp only [maximumf_apply, addf_apply, mulf_apply, subf_apply, broadcast_apply]
  rw [broadcastTo_1b_ab_apply x3 _ p q, broadcastTo_1b_ab_apply x1 _ p q, broadcastTo_1b_ab_apply x4 _ p q,
    broadcastTo_1b_ab_apply (rsqrt _) _ p q]
  refine congrArg₂ max ?_ Ideal.ofBits_zero_f32
  rfl

/-- The printed index maps, decided over the 20 grid points: the input block of rows and the output block move
    together, point `t`'s block being the `t`-th; the four one-row windows stay at the origin. -/
theorem idx_facts : ∀ t : Fin cfg5.N,
    win5_0.index t (0 : Fin 2) = t.val ∧ win5_0.index t (1 : Fin 2) = 0
    ∧ win5_5.index t (0 : Fin 2) = t.val ∧ win5_5.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0 :=
  (by decide +kernel : ∀ t : Fin grid5.N, _)

/-- The input block of rows and the output block at a point name the same array indices. -/
theorem emb0_eq (t : Fin cfg5.N) (j : S5000x64.Idx) :
    ((cfg5.win 0).blk t).view.emb j = ((cfg5.win 5).blk t).view.emb j := by
  obtain ⟨e0, e1, e2, e3, -⟩ := idx_facts t
  funext a; apply Fin.ext
  match a with
  | ⟨0, _⟩ => show win5_0.index t (0 : Fin 2) * 5000 + 1 * (j 0).val = win5_5.index t (0 : Fin 2) * 5000 + 1 * (j 0).val; omega
  | ⟨1, _⟩ => show win5_0.index t (1 : Fin 2) * 64 + 1 * (j 1).val = win5_5.index t (1 : Fin 2) * 64 + 1 * (j 1).val; omega

/-- A one-row window's block is the whole one-row array: a block index is the array index. -/
theorem emb1_eq (t : Fin cfg5.N) (j : S1x64.Idx) : ((cfg5.win 1).blk t).view.emb j = j := by
  obtain ⟨-, -, -, -, e0, e1, -⟩ := idx_facts t
  funext a; apply Fin.ext
  match a with
  | ⟨0, _⟩ => show win5_1.index t (0 : Fin 2) * 1 + 1 * (j 0).val = (j 0).val; omega
  | ⟨1, _⟩ => show win5_1.index t (1 : Fin 2) * 64 + 1 * (j 1).val = (j 1).val; omega

theorem emb2_eq (t : Fin cfg5.N) (j : S1x64.Idx) : ((cfg5.win 2).blk t).view.emb j = j := by
  obtain ⟨-, -, -, -, -, -, e0, e1, -⟩ := idx_facts t
  funext a; apply Fin.ext
  match a with
  | ⟨0, _⟩ => show win5_2.index t (0 : Fin 2) * 1 + 1 * (j 0).val = (j 0).val; omega
  | ⟨1, _⟩ => show win5_2.index t (1 : Fin 2) * 64 + 1 * (j 1).val = (j 1).val; omega

theorem emb3_eq (t : Fin cfg5.N) (j : S1x64.Idx) : ((cfg5.win 3).blk t).view.emb j = j := by
  obtain ⟨-, -, -, -, -, -, -, -, e0, e1, -⟩ := idx_facts t
  funext a; apply Fin.ext
  match a with
  | ⟨0, _⟩ => show win5_3.index t (0 : Fin 2) * 1 + 1 * (j 0).val = (j 0).val; omega
  | ⟨1, _⟩ => show win5_3.index t (1 : Fin 2) * 64 + 1 * (j 1).val = (j 1).val; omega

theorem emb4_eq (t : Fin cfg5.N) (j : S1x64.Idx) : ((cfg5.win 4).blk t).view.emb j = j := by
  obtain ⟨-, -, -, -, -, -, -, -, -, -, e0, e1⟩ := idx_facts t
  funext a; apply Fin.ext
  match a with
  | ⟨0, _⟩ => show win5_4.index t (0 : Fin 2) * 1 + 1 * (j 0).val = (j 0).val; omega
  | ⟨1, _⟩ => show win5_4.index t (1 : Fin 2) * 64 + 1 * (j 1).val = (j 1).val; omega

/-- The output block keeps the column: the array index of block index `(p, q)` is in column `q`. -/
theorem emb5_col (t : Fin cfg5.N) (j : S5000x64.Idx) : ((cfg5.win 5).blk t).view.emb j (1 : Fin 2) = j (1 : Fin 2) := by
  obtain ⟨-, -, -, e3, -⟩ := idx_facts t
  apply Fin.ext
  show win5_5.index t (1 : Fin 2) * 64 + 1 * (j 1).val = (j 1).val
  omega

variable (V : (c : Dev nD) → (b : Ref sig .tc) → Buf (Elt Ideal) ((c : Thread nD τ).loc b))

/-- The block of rows a point loads, read at a coordinate, is the array at the index the OUTPUT block names there. -/
theorem blk0_apply (c : Dev nD) (t : Fin cfg5.N) (j : S5000x64.Idx) :
    iblk5 (F := Ideal) V c 0 t j = V c main_v95 (((cfg5.win 5).blk t).view.emb j) := by
  rw [← emb0_eq]; rfl

/-- A one-row block a point loads is the one-row array. -/
theorem blk1_apply (c : Dev nD) (t : Fin cfg5.N) (j : S1x64.Idx) : iblk5 (F := Ideal) V c 1 t j = V c main_v100 j :=
  (show iblk5 (F := Ideal) V c 1 t j = V c main_v100 (((cfg5.win 1).blk t).view.emb j) from rfl).trans (by rw [emb1_eq])

theorem blk2_apply (c : Dev nD) (t : Fin cfg5.N) (j : S1x64.Idx) : iblk5 (F := Ideal) V c 2 t j = V c main_v101 j :=
  (show iblk5 (F := Ideal) V c 2 t j = V c main_v101 (((cfg5.win 2).blk t).view.emb j) from rfl).trans (by rw [emb2_eq])

theorem blk3_apply (c : Dev nD) (t : Fin cfg5.N) (j : S1x64.Idx) : iblk5 (F := Ideal) V c 3 t j = V c main_v102 j :=
  (show iblk5 (F := Ideal) V c 3 t j = V c main_v102 (((cfg5.win 3).blk t).view.emb j) from rfl).trans (by rw [emb3_eq])

theorem blk4_apply (c : Dev nD) (t : Fin cfg5.N) (j : S1x64.Idx) : iblk5 (F := Ideal) V c 4 t j = V c main_v103 j :=
  (show iblk5 (F := Ideal) V c 4 t j = V c main_v103 (((cfg5.win 4).blk t).view.emb j) from rfl).trans (by rw [emb4_eq])

/-- AT ONE COORDINATE OF ONE POINT'S BLOCK the body's result over the point's input blocks is the reference's
    normalisation of the whole arrays, read at the array index the coordinate names. -/
theorem point (c : Dev nD) (hv : ∀ y, (0 : EReal) ≤ V c main_v101 y) (t : Fin cfg5.N) (j : S5000x64.Idx) :
    out5_5 (iblk5 (F := Ideal) V c 0 t) (iblk5 V c 1 t) (iblk5 V c 2 t) (iblk5 V c 3 t) (iblk5 V c 4 t) j
      = Cert.Stages.bnRef (V c main_v95) (Cert.Stages.rowOf64 (V c main_v100)) (Cert.Stages.rowOf64 (V c main_v101))
          (Cert.Stages.rowOf64 (V c main_v102)) (Cert.Stages.rowOf64 (V c main_v103)) (((cfg5.win 5).blk t).view.emb j) := by
  obtain ⟨p, q, rfl⟩ : ∃ (p : Fin 5000) (q : Fin 64), j = ix2 p q := ⟨j 0, j 1, eq_ix2 j⟩
  refine (out_apply _ _ _ _ _ p q).trans ?_
  obtain ⟨r, hr⟩ : ∃ r : Fin 100000, ((cfg5.win 5).blk t).view.emb (ix2 p q) = ix2 r q :=
    ⟨((cfg5.win 5).blk t).view.emb (ix2 p q) (0 : Fin 2), (eq_ix2 _).trans (congrArg (ix2 _) (emb5_col t (ix2 p q)))⟩
  rw [hr, bnRef_apply, rowOf64_apply, rowOf64_apply, rowOf64_apply, rowOf64_apply, ← hr]
  rw [blk0_apply, blk1_apply, blk2_apply, blk3_apply, blk4_apply]
  exact point_eq _ _ _ _ _ (hv _)

/-- WHAT POINT `t` WRITES BACK is block `t` of the reference's normalisation of the whole arrays. -/
theorem flushed_eq (c : Dev nD) (hv : ∀ y, (0 : EReal) ≤ V c main_v101 y) (t : Fin cfg5.N) :
    (dat5 (F := Ideal) V c).flushed 5 t = ((cfg5.win 5).blk t).view.read (Elt Ideal)
      (Cert.Stages.bnRef (V c main_v95) (Cert.Stages.rowOf64 (V c main_v100)) (Cert.Stages.rowOf64 (V c main_v101))
        (Cert.Stages.rowOf64 (V c main_v102)) (Cert.Stages.rowOf64 (V c main_v103))) := by
  show (cfg5.win 5).cut (grid5.coords t) ((dat5 V c).after 5 t) = _
  rw [after5_5]
  funext j
  exact point V c hv t j

/-- An index of the array is in point `t`'s block iff each coordinate is in the block's range on its axis. -/
theorem mem_blk (t : Fin cfg5.N) (i : S100000x64.Idx) :
    i ∈ ((cfg5.win 5).blk t).view.set ↔ ∀ a : Fin 2, win5_5.index t a * S5000x64.size a ≤ (i a).val ∧ (i a).val < win5_5.index t a * S5000x64.size a + S5000x64.size a := by
  show i ∈ ((View.whole main_v104).slice (win5_5.rect t)).set ↔ _
  rw [View.set_slice_whole, Rect.mem_set_unit]
  exact Iff.rfl

/-- THE BLOCKS TILE THE ARRAY: row `r` is in the block of point `r / 5000`. -/
theorem cover (i : S100000x64.Idx) : ∃ t : Fin cfg5.N, (cfg5.win 5).flush t = true ∧ i ∈ ((cfg5.win 5).blk t).view.set := by
  have hi0 : (i 0).val < 100000 := (i 0).isLt
  have hi1 : (i 1).val < 64 := (i 1).isLt
  obtain ⟨t, ht⟩ : ∃ t : Fin cfg5.N, t.val = (i 0).val / 5000 :=
    ⟨⟨(i 0).val / 5000, by rw [show cfg5.N = 20 from N_5]; omega⟩, rfl⟩
  refine ⟨t, flush5_5 t, ?_⟩
  rw [mem_blk]
  obtain ⟨-, -, e2, e3, -⟩ := idx_facts t
  intro a
  match a with
  | ⟨0, _⟩ => show win5_5.index t (0 : Fin 2) * 5000 ≤ (i 0).val ∧ (i 0).val < win5_5.index t (0 : Fin 2) * 5000 + 5000; omega
  | ⟨1, _⟩ => show win5_5.index t (1 : Fin 2) * 64 ≤ (i 1).val ∧ (i 1).val < win5_5.index t (1 : Fin 2) * 64 + 64; omega

/-- THE REGION'S OUTPUT ARRAY after its 20 points is the reference's normalisation of its operands. -/
theorem bn5_final (c : Dev nD) (hv : ∀ y, (0 : EReal) ≤ V c main_v101 y) :
    (dat5 (F := Ideal) V c).arrAt 5 cfg5.N = Cert.Stages.bnRef (V c main_v95) (Cert.Stages.rowOf64 (V c main_v100)) (Cert.Stages.rowOf64 (V c main_v101)) (Cert.Stages.rowOf64 (V c main_v102)) (Cert.Stages.rowOf64 (V c main_v103)) :=
  (dat5 V c).arrAt_eq_of_cover 5 _ (fun t _ => flushed_eq V c hv t) cover

end Cert.KernelIdeal.KBn5
end
-- ==== Proof.KS5.lean ====
/-
  Message passing followed by the normalisation region, read at the region's exit: the stretch of host operations before the region aggregates the previous dense layer's output over the edges and takes the column means and variances; the region's output array is the reference's normalisation of that aggregate, the variance being non-negative.
-/
import proofs.«117444_j67095979098699_1_alg».proof.Proof.KCommon
import proofs.«117444_j67095979098699_1_alg».proof.Proof.KBn5
import proofs.«117444_j67095979098699_1_alg».proof.Proof.VarNonneg

set_option maxRecDepth 16384

noncomputable section

namespace Cert.KernelIdeal.KS5

open Idealize.ShloMosaic Idealize.ShloMosaic.StableHlo Idealize.ShloMosaic.TcCoe Idealize.SL.Sem
open Cert.KernelIdeal Cert.KernelIdeal.Gen Cert.KernelIdeal.KCommon Cert.Stages

section Walk

variable {F : FTy → Type} [FloatOps F]
variable (m : (ℓ : Loc nD τ sig) → Buf (Elt F) ℓ) (ρ : Dev nD → PrngReg) (c : Dev nD)

attribute [local irreducible] Host.gather Host.scatterAdd Host.reduceAdd Host.powf in
set_option maxHeartbeats 8000000 in
/-- The source list at the previous region's exit is the edge sources with self loops. -/
theorem src_eq : (W18 m ρ c (Proc.devRef .tc main_v5)) = srcA (W0 m ρ c (Proc.devRef .tc main_arg1)) := by
  rw [W18_of_ne m ρ c main_v5 (by decide)]
  kstep
  rw [W16_of_ne m ρ c main_v5 (by decide)]
  kstep
  rw [W12_of_ne m ρ c main_v5 (by decide)]
  kstep
  rw [W10_of_ne m ρ c main_v5 (by decide)]
  kstep
  rw [W6_of_ne m ρ c main_v5 (by decide)]
  kstep
  all_goals rfl

attribute [local irreducible] Host.gather Host.scatterAdd Host.reduceAdd Host.powf in
set_option maxHeartbeats 8000000 in
/-- The target list at the previous region's exit is the edge targets with self loops. -/
theorem dst_eq : (W18 m ρ c (Proc.devRef .tc main_v6)) = dstA (W0 m ρ c (Proc.devRef .tc main_arg1)) := by
  rw [W18_of_ne m ρ c main_v6 (by decide)]
  kstep
  rw [W16_of_ne m ρ c main_v6 (by decide)]
  kstep
  rw [W12_of_ne m ρ c main_v6 (by decide)]
  kstep
  rw [W10_of_ne m ρ c main_v6 (by decide)]
  kstep
  rw [W6_of_ne m ρ c main_v6 (by decide)]
  kstep
  all_goals rfl

attribute [local irreducible] Host.gather Host.scatterAdd Host.reduceAdd Host.powf in
set_option maxHeartbeats 8000000 in
/-- The edge weights at the previous region's exit. -/
theorem nrm_eq : (W18 m ρ c (Proc.devRef .tc main_v29)) = nrm (srcA (W0 m ρ c (Proc.devRef .tc main_arg1))) (dstA (W0 m ρ c (Proc.devRef .tc main_arg1))) := by
  rw [W18_of_ne m ρ c main_v29 (by decide)]
  kstep
  rw [W16_of_ne m ρ c main_v29 (by decide)]
  kstep
  rw [W12_of_ne m ρ c main_v29 (by decide)]
  kstep
  rw [W10_of_ne m ρ c main_v29 (by decide)]
  kstep
  rw [W6_of_ne m ρ c main_v29 (by decide)]
  kstep
  all_goals rfl

attribute [local irreducible] Host.gather Host.scatterAdd Host.reduceAdd Host.powf in
set_option maxHeartbeats 8000000 in
/-- The region's first operand is the aggregate of the previous dense layer's output. -/
theorem agg_eq : V21 m ρ c main_v95 = aggr (W18 m ρ c (Proc.devRef .tc main_v82)) (W18 m ρ c (Proc.devRef .tc main_v5)) (W18 m ρ c (Proc.devRef .tc main_v6)) (W18 m ρ c (Proc.devRef .tc main_v29)) := by
  kstep
  all_goals rfl

attribute [local irreducible] Host.gather Host.scatterAdd Host.reduceAdd Host.powf in
set_option maxHeartbeats 8000000 in
/-- The region's mean operand is the column mean of its first operand. -/
theorem mean_eq : V21 m ρ c main_v100 = rowTo64 (meanOf (V21 m ρ c main_v95)) := by
  kstep
  all_goals rfl

attribute [local irreducible] Host.gather Host.scatterAdd Host.reduceAdd Host.powf in
set_option maxHeartbeats 8000000 in
/-- The region's variance operand is the column variance of its first operand. -/
theorem var_eq : V21 m ρ c main_v101 = rowTo64 (varOf (V21 m ρ c main_v95)) := by
  kstep
  all_goals rfl

attribute [local irreducible] Host.gather Host.scatterAdd Host.reduceAdd Host.powf in
set_option maxHeartbeats 8000000 in
/-- The region's scale operand is the scale vector laid as a row. -/
theorem scale_eq : V21 m ρ c main_v102 = rowTo64 (W0 m ρ c (Proc.devRef .tc main_arg13)) := by
  kstep
  rw [W18_of_ne m ρ c main_arg13 (by decide)]
  kstep
  rw [W16_of_ne m ρ c main_arg13 (by decide)]
  kstep
  rw [W12_of_ne m ρ c main_arg13 (by decide)]
  kstep
  rw [W10_of_ne m ρ c main_arg13 (by decide)]
  kstep
  rw [W6_of_ne m ρ c main_arg13 (by decide)]
  kstep
  all_goals rfl

attribute [local irreducible] Host.gather Host.scatterAdd Host.reduceAdd Host.powf in
set_option maxHeartbeats 8000000 in
/-- The region's shift operand is the shift vector laid as a row. -/
theorem shift_eq : V21 m ρ c main_v103 = rowTo64 (W0 m ρ c (Proc.devRef .tc main_arg14)) := by
  kstep
  rw [W18_of_ne m ρ c main_arg14 (by decide)]
  kstep
  rw [W16_of_ne m ρ c main_arg14 (by decide)]
  kstep
  rw [W12_of_ne m ρ c main_arg14 (by decide)]
  kstep
  rw [W10_of_ne m ρ c main_arg14 (by decide)]
  kstep
  rw [W6_of_ne m ρ c main_arg14 (by decide)]
  kstep
  all_goals rfl

end Walk

section AtIdeal

variable (m : (ℓ : Loc nD τ sig) → Buf (Elt Ideal) ℓ) (ρ : Dev nD → PrngReg) (c : Dev nD)

/-- The variance operand is non-negative. -/
theorem var_nonneg : ∀ y, (0 : EReal) ≤ V21 m ρ c main_v101 y := by
  intro y
  rw [var_eq]
  exact varOf_nonneg _ (Shape.reshapeEquiv _ y)

/-- The region's output array is the reference's message-passing step of the previous dense layer's output. -/
theorem value : W22 m ρ c (Proc.devRef .tc main_v104) = convOf (W18 m ρ c (Proc.devRef .tc main_v82)) (W0 m ρ c (Proc.devRef .tc main_arg1)) (W0 m ρ c (Proc.devRef .tc main_arg13)) (W0 m ρ c (Proc.devRef .tc main_arg14)) := by
  refine (show W22 m ρ c (Proc.devRef .tc main_v104) = (dat5 (V21 m ρ) c).arrAt 5 cfg5.N from W22_arr m ρ c 5).trans ?_
  rw [KBn5.bn5_final (V21 m ρ) c (var_nonneg m ρ c), mean_eq, var_eq, scale_eq, shift_eq, rowOf64_rowTo64, rowOf64_rowTo64, rowOf64_rowTo64, rowOf64_rowTo64, agg_eq, src_eq, dst_eq, nrm_eq]
  rfl

end AtIdeal

end Cert.KernelIdeal.KS5

end
-- ==== Proof.KMlp.lean ====
/-
  The two-layer head (region 6 of the kernel's run).  The grid has one point and every window's block is its whole
  array: the pooled features p (128 × 64), the transposed weight matrices wt1 (64 × 64) and wt2 (64 × 10) and the
  one-row biases b1 (1 × 64) and b2 (1 × 10).  The body stores max(p · wt1 + b1, 0) · wt2 + b2.  Entry (r, c) of the
  hidden layer is max(Σ_k p(r, k) · wt1(k, c) + b1(0, c), 0) in the kernel and in the reference alike, and entry (r, q)
  of the result is Σ_c hidden(r, c) · wt2(c, q) + b2(0, q) in both, so the array after the region is the reference's
  head of the arrays the region finds.
-/
import proofs.«117444_j67095979098699_1_alg».proof.Proof.Gen.KernelIdeal.Frame
import proofs.«117444_j67095979098699_1_alg».proof.Proof.Gen.ReferenceIdeal
import proofs.«117444_j67095979098699_1_alg».proof.Proof.Stages
import proofs.«117444_j67095979098699_1_alg».proof.Proof.KLinLib
import Idealize.ShloMosaic.Lib.StableHlo.Run
import Idealize.ShloMosaic.PureOps.Ideal.Laws

set_option maxRecDepth 16384

noncomputable section

namespace Cert.KernelIdeal.KMlp
open Idealize.ShloMosaic Idealize.ShloMosaic.StableHlo Idealize.ShloMosaic.TcCoe Idealize.SL.Sem Cert.KernelIdeal Cert.KernelIdeal.Gen
open Idealize.ShloMosaic.Pipeline (Dat Cfg Window)
open Idealize.ShloMosaic.ValueIdx Cert.KLinLib

/-- The kernel's head on whole arrays is the reference's head of the same arrays: the hidden layer
    max(p · wt1 + b1, 0) agrees entry by entry, and so does its product with wt2 plus b2. -/
theorem pay6_eq (x0 : Vec Ideal S128x64 .f32) (x1 : Vec Ideal S64x64 .f32) (x2 : Vec Ideal S1x64 .f32)
    (x3 : Vec Ideal S64x10 .f32) (x4 : Vec Ideal S1x10 .f32) :
    out6_5 x0 x1 x2 x3 x4 = Cert.Stages.mlpCore x0 x1 (Cert.Stages.rowOf64 x2) x3 (Cert.Stages.rowOf10 x4) := by
  unfold out6_5
  rw [View.canon_unit_zero hz2]
  simp only [View.ld_unit_zero (S := S128x64) hz2, View.ld_unit_zero (S := S64x64) hz2, View.ld_unit_zero (S := S1x64) hz2,
    View.ld_unit_zero (S := S64x10) hz2, View.ld_unit_zero (S := S1x10) hz2]
  unfold k6_pay1 Cert.Stages.mlpCore Cert.Stages.rowOf64 Cert.Stages.rowOf10
  rw [shapeCast_self, shapeCast_self, shapeCast_self, shapeCast_self, shapeCast_self]
  funext j
  obtain ⟨r, q, rfl⟩ : ∃ (r : Fin 128) (q : Fin 10), j = ix2 r q := ⟨j 0, j 1, eq_ix2 j⟩
  refine (linKernel_apply dot_S128x64_S64x10_S128x10_1_0_0_1_n_n rfl broadcasts_S1x10_S128x10 _ _ x4 r q).trans ?_
  refine Eq.trans ?_ (linHost_apply Cert.ReferenceIdeal.dot_S128x64_S64x10_S128x10_1_0_0_1_n_n rfl _ _ _ _ x3 x4 r q).symm
  refine congrArg (· + x4 (ix2 0 q)) (Finset.sum_congr rfl fun c _ => ?_)
  rw [truncf_apply, truncf_apply, maximumf_apply, maximumf_apply]
  refine congrArg (· * x3 (ix2 c q)) ?_
  refine congrArg₂ max ?_ rfl
  exact (linKernel_apply dot_S128x64_S64x64_S128x64_1_0_0_1_n_n rfl broadcasts_S1x64_S128x64 _ _ x2 r c).trans
    (linHost_apply Cert.ReferenceIdeal.dot_S128x64_S64x64_S128x64_1_0_0_1_n_n rfl _ _ _ x0 x1 x2 r c).symm

/-- The block indices at the one grid point: every window's block is its whole array. -/
theorem idx_facts6 : ∀ t : Fin cfg6.N, win6_0.index t (0 : Fin 2) = 0 ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = 0 ∧ win6_5.index t (1 : Fin 2) = 0 :=
  (by decide +kernel : ∀ t : Fin grid6.N, _)

/-- Window 0's block is its whole array (128 × 64). -/
theorem read6_0 (X : Vec Ideal S128x64 .f32) (t : Fin cfg6.N) (a : Fin 128) (b : Fin 64) :
    ((cfg6.win 0).blk t).view.read (Elt Ideal) X (ix2 a b) = X (ix2 a b) := by
  obtain ⟨e0, e1, -⟩ := idx_facts6 t
  show X (((cfg6.win 0).blk t).view.emb (ix2 a b)) = _
  refine congrArg X (funext fun d => Fin.ext ?_)
  match d with
  | ⟨0, _⟩ => show win6_0.index t (0 : Fin 2) * 128 + 1 * a.val = a.val; rw [e0]; omega
  | ⟨1, _⟩ => show win6_0.index t (1 : Fin 2) * 64 + 1 * b.val = b.val; rw [e1]; omega

/-- Window 1's block is its whole array (64 × 64). -/
theorem read6_1 (X : Vec Ideal S64x64 .f32) (t : Fin cfg6.N) (a : Fin 64) (b : Fin 64) :
    ((cfg6.win 1).blk t).view.read (Elt Ideal) X (ix2 a b) = X (ix2 a b) := by
  obtain ⟨-, -, e0, e1, -⟩ := idx_facts6 t
  show X (((cfg6.win 1).blk t).view.emb (ix2 a b)) = _
  refine congrArg X (funext fun d => Fin.ext ?_)
  match d with
  | ⟨0, _⟩ => show win6_1.index t (0 : Fin 2) * 64 + 1 * a.val = a.val; rw [e0]; omega
  | ⟨1, _⟩ => show win6_1.index t (1 : Fin 2) * 64 + 1 * b.val = b.val; rw [e1]; omega

/-- Window 2's block is its whole array (1 × 64). -/
theorem read6_2 (X : Vec Ideal S1x64 .f32) (t : Fin cfg6.N) (a : Fin 1) (b : Fin 64) :
    ((cfg6.win 2).blk t).view.read (Elt Ideal) X (ix2 a b) = X (ix2 a b) := by
  obtain ⟨-, -, -, -, e0, e1, -⟩ := idx_facts6 t
  show X (((cfg6.win 2).blk t).view.emb (ix2 a b)) = _
  refine congrArg X (funext fun d => Fin.ext ?_)
  match d with
  | ⟨0, _⟩ => show win6_2.index t (0 : Fin 2) * 1 + 1 * a.val = a.val; rw [e0]; omega
  | ⟨1, _⟩ => show win6_2.index t (1 : Fin 2) * 64 + 1 * b.val = b.val; rw [e1]; omega

/-- Window 3's block is its whole array (64 × 10). -/
theorem read6_3 (X : Vec Ideal S64x10 .f32) (t : Fin cfg6.N) (a : Fin 64) (b : Fin 10) :
    ((cfg6.win 3).blk t).view.read (Elt Ideal) X (ix2 a b) = X (ix2 a b) := by
  obtain ⟨-, -, -, -, -, -, e0, e1, -⟩ := idx_facts6 t
  show X (((cfg6.win 3).blk t).view.emb (ix2 a b)) = _
  refine congrArg X (funext fun d => Fin.ext ?_)
  match d with
  | ⟨0, _⟩ => show win6_3.index t (0 : Fin 2) * 64 + 1 * a.val = a.val; rw [e0]; omega
  | ⟨1, _⟩ => show win6_3.index t (1 : Fin 2) * 10 + 1 * b.val = b.val; rw [e1]; omega

/-- Window 4's block is its whole array (1 × 10). -/
theorem read6_4 (X : Vec Ideal S1x10 .f32) (t : Fin cfg6.N) (a : Fin 1) (b : Fin 10) :
    ((cfg6.win 4).blk t).view.read (Elt Ideal) X (ix2 a b) = X (ix2 a b) := by
  obtain ⟨-, -, -, -, -, -, -, -, e0, e1, -⟩ := idx_facts6 t
  show X (((cfg6.win 4).blk t).view.emb (ix2 a b)) = _
  refine congrArg X (funext fun d => Fin.ext ?_)
  match d with
  | ⟨0, _⟩ => show win6_4.index t (0 : Fin 2) * 1 + 1 * a.val = a.val; rw [e0]; omega
  | ⟨1, _⟩ => show win6_4.index t (1 : Fin 2) * 10 + 1 * b.val = b.val; rw [e1]; omega

/-- Window 5's block is its whole array (128 × 10). -/
theorem read6_5 (X : Vec Ideal S128x10 .f32) (t : Fin cfg6.N) (a : Fin 128) (b : Fin 10) :
    ((cfg6.win 5).blk t).view.read (Elt Ideal) X (ix2 a b) = X (ix2 a b) := by
  obtain ⟨-, -, -, -, -, -, -, -, -, -, e0, e1⟩ := idx_facts6 t
  show X (((cfg6.win 5).blk t).view.emb (ix2 a b)) = _
  refine congrArg X (funext fun d => Fin.ext ?_)
  match d with
  | ⟨0, _⟩ => show win6_5.index t (0 : Fin 2) * 128 + 1 * a.val = a.val; rw [e0]; omega
  | ⟨1, _⟩ => show win6_5.index t (1 : Fin 2) * 10 + 1 * b.val = b.val; rw [e1]; omega

variable (V : (c : Dev nD) → (b : Ref sig .tc) → Buf (Elt Ideal) ((c : Thread nD τ).loc b))

/-- Input window 0's block at the one grid point is the array the region finds. -/
theorem iblk6_0_eq (c : Dev nD) (t : Fin cfg6.N) : (iblk6 V c 0 t : Vec Ideal S128x64 .f32) = V c main_v107 := by
  funext j
  obtain ⟨a, b, rfl⟩ : ∃ (a : Fin 128) (b : Fin 64), j = ix2 a b := ⟨j 0, j 1, eq_ix2 j⟩
  exact read6_0 (V c main_v107) t a b

/-- Input window 1's block at the one grid point is the array the region finds. -/
theorem iblk6_1_eq (c : Dev nD) (t : Fin cfg6.N) : (iblk6 V c 1 t : Vec Ideal S64x64 .f32) = V c main_v108 := by
  funext j
  obtain ⟨a, b, rfl⟩ : ∃ (a : Fin 64) (b : Fin 64), j = ix2 a b := ⟨j 0, j 1, eq_ix2 j⟩
  exact read6_1 (V c main_v108) t a b

/-- Input window 2's block at the one grid point is the array the region finds. -/
theorem iblk6_2_eq (c : Dev nD) (t : Fin cfg6.N) : (iblk6 V c 2 t : Vec Ideal S1x64 .f32) = V c main_v110 := by
  funext j
  obtain ⟨a, b, rfl⟩ : ∃ (a : Fin 1) (b : Fin 64), j = ix2 a b := ⟨j 0, j 1, eq_ix2 j⟩
  exact read6_2 (V c main_v110) t a b

/-- Input window 3's block at the one grid point is the array the region finds. -/
theorem iblk6_3_eq (c : Dev nD) (t : Fin cfg6.N) : (iblk6 V c 3 t : Vec Ideal S64x10 .f32) = V c main_v109 := by
  funext j
  obtain ⟨a, b, rfl⟩ : ∃ (a : Fin 64) (b : Fin 10), j = ix2 a b := ⟨j 0, j 1, eq_ix2 j⟩
  exact read6_3 (V c main_v109) t a b

/-- Input window 4's block at the one grid point is the array the region finds. -/
theorem iblk6_4_eq (c : Dev nD) (t : Fin cfg6.N) : (iblk6 V c 4 t : Vec Ideal S1x10 .f32) = V c main_v111 := by
  funext j
  obtain ⟨a, b, rfl⟩ : ∃ (a : Fin 1) (b : Fin 10), j = ix2 a b := ⟨j 0, j 1, eq_ix2 j⟩
  exact read6_4 (V c main_v111) t a b

/-- WHAT THE ONE POINT WRITES BACK is the reference's head of the arrays the region finds (the block is the array). -/
theorem flushed5_eq (c : Dev nD) (t : Fin cfg6.N) :
    (dat6 (F := Ideal) V c).flushed 5 t = ((cfg6.win 5).blk t).view.read (Elt Ideal)
      (Cert.Stages.mlpCore (V c main_v107) (V c main_v108) (Cert.Stages.rowOf64 (V c main_v110)) (V c main_v109) (Cert.Stages.rowOf10 (V c main_v111))) := by
  show (cfg6.win 5).cut (grid6.coords t) ((dat6 V c).after 5 t) = _
  rw [after6_5]
  funext j
  obtain ⟨r, q, rfl⟩ : ∃ (r : Fin 128) (q : Fin 10), j = ix2 r q := ⟨j 0, j 1, eq_ix2 j⟩
  rw [read6_5 _ t r q]
  show out6_5 (iblk6 V c 0 t) (iblk6 V c 1 t) (iblk6 V c 2 t) (iblk6 V c 3 t) (iblk6 V c 4 t) (ix2 r q) = _
  rw [pay6_eq (iblk6 V c 0 t) (iblk6 V c 1 t) (iblk6 V c 2 t) (iblk6 V c 3 t) (iblk6 V c 4 t),
    iblk6_0_eq V c t, iblk6_1_eq V c t, iblk6_2_eq V c t, iblk6_3_eq V c t, iblk6_4_eq V c t]

/-- An index of the array is in the point's block iff each coordinate is in the block's range on its axis. -/
theorem mem_blk5 (t : Fin cfg6.N) (i : S128x10.Idx) :
    i ∈ ((cfg6.win 5).blk t).view.set ↔ ∀ a : Fin 2, win6_5.index t a * S128x10.size a ≤ (i a).val ∧ (i a).val < win6_5.index t a * S128x10.size a + S128x10.size a := by
  show i ∈ ((View.whole main_v112).slice (win6_5.rect t)).set ↔ _
  rw [View.set_slice_whole, Rect.mem_set_unit]
  exact Iff.rfl

/-- The one block covers the array. -/
theorem cover5 (i : S128x10.Idx) : ∃ t : Fin cfg6.N, (cfg6.win 5).flush t = true ∧ i ∈ ((cfg6.win 5).blk t).view.set := by
  have hi0 : (i 0).val < 128 := (i 0).isLt
  have hi1 : (i 1).val < 10 := (i 1).isLt
  have hN : cfg6.N = 1 := N_6
  obtain ⟨t, -⟩ : ∃ t : Fin cfg6.N, t.val = 0 := ⟨⟨0, by rw [hN]; omega⟩, rfl⟩
  refine ⟨t, flush6_5 t, ?_⟩
  rw [mem_blk5]
  obtain ⟨-, -, -, -, -, -, -, -, -, -, e0, e1⟩ := idx_facts6 t
  intro a
  match a with
  | ⟨0, _⟩ => show win6_5.index t (0 : Fin 2) * 128 ≤ (i 0).val ∧ (i 0).val < win6_5.index t (0 : Fin 2) * 128 + 128; rw [e0]; omega
  | ⟨1, _⟩ => show win6_5.index t (1 : Fin 2) * 10 ≤ (i 1).val ∧ (i 1).val < win6_5.index t (1 : Fin 2) * 10 + 10; rw [e1]; omega

/-- THE ARRAY after region 6: the reference's two-layer head of the arrays the region finds. -/
theorem mlp6_final (c : Dev nD) :
    (dat6 (F := Ideal) V c).arrAt 5 cfg6.N = Cert.Stages.mlpCore (V c main_v107) (V c main_v108) (Cert.Stages.rowOf64 (V c main_v110)) (V c main_v109) (Cert.Stages.rowOf10 (V c main_v111)) :=
  (dat6 V c).arrAt_eq_of_cover 5 _ (fun t _ => flushed5_eq V c t) cover5

end Cert.KernelIdeal.KMlp

end
-- ==== Proof.KS6.lean ====
/-
  Sum pooling followed by the head region, read at the region's exit: the stretch of host operations before the region scatter-adds the last normalised layer's rows at their graphs; the region's output array — the program's result — is the reference's two-layer head of the pooled rows.
-/
import proofs.«117444_j67095979098699_1_alg».proof.Proof.KCommon
import proofs.«117444_j67095979098699_1_alg».proof.Proof.KMlp

set_option maxRecDepth 16384

noncomputable section

namespace Cert.KernelIdeal.KS6

open Idealize.ShloMosaic Idealize.ShloMosaic.StableHlo Idealize.ShloMosaic.TcCoe Idealize.SL.Sem
open Cert.KernelIdeal Cert.KernelIdeal.Gen Cert.KernelIdeal.KCommon Cert.Stages

section Walk

variable {F : FTy → Type} [FloatOps F]
variable (m : (ℓ : Loc nD τ sig) → Buf (Elt F) ℓ) (ρ : Dev nD → PrngReg) (c : Dev nD)

attribute [local irreducible] Host.gather Host.scatterAdd Host.reduceAdd Host.powf in
set_option maxHeartbeats 8000000 in
/-- The region's first operand is the pooled output of the last normalisation. -/
theorem pooled_eq : V23 m ρ c main_v107 = pool (W22 m ρ c (Proc.devRef .tc main_v104)) (W0 m ρ c (Proc.devRef .tc main_arg2)) := by
  kstep
  rw [W22_of_ne m ρ c main_arg2 (by decide)]
  kstep
  rw [W18_of_ne m ρ c main_arg2 (by decide)]
  kstep
  rw [W16_of_ne m ρ c main_arg2 (by decide)]
  kstep
  rw [W12_of_ne m ρ c main_arg2 (by decide)]
  kstep
  rw [W10_of_ne m ρ c main_arg2 (by decide)]
  kstep
  rw [W6_of_ne m ρ c main_arg2 (by decide)]
  kstep
  all_goals rfl

attribute [local irreducible] Host.gather Host.scatterAdd Host.reduceAdd Host.powf in
set_option maxHeartbeats 8000000 in
/-- The first weight operand is the transposed first head matrix. -/
theorem weight1_eq : V23 m ρ c main_v108 = transpSq (W0 m ρ c (Proc.devRef .tc main_arg15)) := by
  kstep
  rw [W22_of_ne m ρ c main_arg15 (by decide)]
  kstep
  rw [W18_of_ne m ρ c main_arg15 (by decide)]
  kstep
  rw [W16_of_ne m ρ c main_arg15 (by decide)]
  kstep
  rw [W12_of_ne m ρ c main_arg15 (by decide)]
  kstep
  rw [W10_of_ne m ρ c main_arg15 (by decide)]
  kstep
  rw [W6_of_ne m ρ c main_arg15 (by decide)]
  kstep
  all_goals rfl

attribute [local irreducible] Host.gather Host.scatterAdd Host.reduceAdd Host.powf in
set_option maxHeartbeats 8000000 in
/-- The first bias operand is the first head bias laid as a row. -/
theorem bias1_eq : V23 m ρ c main_v110 = rowTo64 (W0 m ρ c (Proc.devRef .tc main_arg16)) := by
  kstep
  rw [W22_of_ne m ρ c main_arg16 (by decide)]
  kstep
  rw [W18_of_ne m ρ c main_arg16 (by decide)]
  kstep
  rw [W16_of_ne m ρ c main_arg16 (by decide)]
  kstep
  rw [W12_of_ne m ρ c main_arg16 (by decide)]
  kstep
  rw [W10_of_ne m ρ c main_arg16 (by decide)]
  kstep
  rw [W6_of_ne m ρ c main_arg16 (by decide)]
  kstep
  all_goals rfl

attribute [local irreducible] Host.gather Host.scatterAdd Host.reduceAdd Host.powf in
set_option maxHeartbeats 8000000 in
/-- The second weight operand is the transposed second head matrix. -/
theorem weight2_eq : V23 m ρ c main_v109 = transpOut (W0 m ρ c (Proc.devRef .tc main_arg17)) := by
  kstep
  rw [W22_of_ne m ρ c main_arg17 (by decide)]
  kstep
  rw [W18_of_ne m ρ c main_arg17 (by decide)]
  kstep
  rw [W16_of_ne m ρ c main_arg17 (by decide)]
  kstep
  rw [W12_of_ne m ρ c main_arg17 (by decide)]
  kstep
  rw [W10_of_ne m ρ c main_arg17 (by decide)]
  kstep
  rw [W6_of_ne m ρ c main_arg17 (by decide)]
  kstep
  all_goals rfl

attribute [local irreducible] Host.gather Host.scatterAdd Host.reduceAdd Host.powf in
set_option maxHeartbeats 8000000 in
/-- The second bias operand is the second head bias laid as a row. -/
theorem bias2_eq : V23 m ρ c main_v111 = rowTo10 (W0 m ρ c (Proc.devRef .tc main_arg18)) := by
  kstep
  rw [W22_of_ne m ρ c main_arg18 (by decide)]
  kstep
  rw [W18_of_ne m ρ c main_arg18 (by decide)]
  kstep
  rw [W16_of_ne m ρ c main_arg18 (by decide)]
  kstep
  rw [W12_of_ne m ρ c main_arg18 (by decide)]
  kstep
  rw [W10_of_ne m ρ c main_arg18 (by decide)]
  kstep
  rw [W6_of_ne m ρ c main_arg18 (by decide)]
  kstep
  all_goals rfl

end Walk

section AtIdeal

variable (m : (ℓ : Loc nD τ sig) → Buf (Elt Ideal) ℓ) (ρ : Dev nD → PrngReg) (c : Dev nD)

/-- The result array is the reference's head applied to the pooled output of the last normalisation. -/
theorem value : W24 m ρ c (Proc.devRef .tc main_v112) = mlpRef (pool (W22 m ρ c (Proc.devRef .tc main_v104)) (W0 m ρ c (Proc.devRef .tc main_arg2))) (W0 m ρ c (Proc.devRef .tc main_arg15)) (W0 m ρ c (Proc.devRef .tc main_arg16)) (W0 m ρ c (Proc.devRef .tc main_arg17)) (W0 m ρ c (Proc.devRef .tc main_arg18)) := by
  refine (show W24 m ρ c (Proc.devRef .tc main_v112) = (dat6 (V23 m ρ) c).arrAt 5 cfg6.N from W24_arr m ρ c 5).trans ?_
  rw [KMlp.mlp6_final (V23 m ρ) c, pooled_eq, weight1_eq, bias1_eq, weight2_eq, bias2_eq, rowOf64_rowTo64, rowOf10_rowTo10, ← mlpRef_eq]

end AtIdeal

end Cert.KernelIdeal.KS6

end
-- ==== Proof.KFinal.lean ====
/-
  The idealized kernel's result as one function of its nineteen argument arrays: the seven regions and the
  stretches of host operations between them compose to the reference's own composition of stages — three rounds
  of dense layer, message passing, normalisation, then pooling and the head.
-/
import proofs.«117444_j67095979098699_1_alg».proof.Proof.KS0
import proofs.«117444_j67095979098699_1_alg».proof.Proof.KS1
import proofs.«117444_j67095979098699_1_alg».proof.Proof.KS2
import proofs.«117444_j67095979098699_1_alg».proof.Proof.KS3
import proofs.«117444_j67095979098699_1_alg».proof.Proof.KS4
import proofs.«117444_j67095979098699_1_alg».proof.Proof.KS5
import proofs.«117444_j67095979098699_1_alg».proof.Proof.KS6

noncomputable section

namespace Cert.KernelIdeal.KFinal

open Idealize.ShloMosaic Idealize.ShloMosaic.StableHlo Idealize.ShloMosaic.TcCoe Idealize.SL.Sem
open Cert.KernelIdeal Cert.KernelIdeal.Gen Cert.Stages

variable (m : (ℓ : Loc nD τ sig) → Buf (Elt Ideal) ℓ) (ρ : Dev nD → PrngReg) (c : Dev nD)

/-- The result buffer at the last segment boundary is the reference's function of the launch contents of the
    argument arrays. -/
theorem kernel_value : W24 m ρ c (Proc.devRef .tc main_v112) = refOut (W0 m ρ c (Proc.devRef .tc main_arg0)) (W0 m ρ c (Proc.devRef .tc main_arg1)) (W0 m ρ c (Proc.devRef .tc main_arg2)) (W0 m ρ c (Proc.devRef .tc main_arg3)) (W0 m ρ c (Proc.devRef .tc main_arg4)) (W0 m ρ c (Proc.devRef .tc main_arg5)) (W0 m ρ c (Proc.devRef .tc main_arg6)) (W0 m ρ c (Proc.devRef .tc main_arg7)) (W0 m ρ c (Proc.devRef .tc main_arg8)) (W0 m ρ c (Proc.devRef .tc main_arg9)) (W0 m ρ c (Proc.devRef .tc main_arg10)) (W0 m ρ c (Proc.devRef .tc main_arg11)) (W0 m ρ c (Proc.devRef .tc main_arg12)) (W0 m ρ c (Proc.devRef .tc main_arg13)) (W0 m ρ c (Proc.devRef .tc main_arg14)) (W0 m ρ c (Proc.devRef .tc main_arg15)) (W0 m ρ c (Proc.devRef .tc main_arg16)) (W0 m ρ c (Proc.devRef .tc main_arg17)) (W0 m ρ c (Proc.devRef .tc main_arg18)) := by
  rw [KS6.value, KS5.value, KS4.value, KS3.value, KS2.value, KS1.value, KS0.value]
  rfl

end Cert.KernelIdeal.KFinal

end
-- ==== Proof.RefRun.lean ====
/-
  The reference program is a straight line of host operations: the functions it calls (the infinity test, the
  two selections, the variance, the two rectifiers) are unfolded at their call sites over each call's own
  buffers.  Listed in order, the line is `ops`; running it from any launch memory terminates, and every buffer
  ends at the fold of the operations' results over the launch contents.
-/
import proofs.«117444_j67095979098699_1_alg».proof.ReferenceIdeal
import Idealize.ShloMosaic.Lib.StableHlo.Run

noncomputable section

namespace Cert.ReferenceIdeal.RefRun

open Idealize.ShloMosaic Idealize.ShloMosaic.StableHlo Idealize.SL.Sem Cert.ReferenceIdeal

variable {F : FTy → Type} [FloatOps F] [Facts]

open Cert.ReferenceIdeal.Facts₀ Cert.ReferenceIdeal.Facts

/-- The reference's @main as one list of host operations, calls unfolded. -/
abbrev ops : List (HloOp τ sig (Elt F)) :=
  [ unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000,
    nullary main_v4 (iotaInDim S100000 32 0),
    binary main_v1 main_v4 main_v5 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    binary main_v3 main_v4 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    nullary main_cst (constant S_ .f32 0x3F800000#32),
    unary main_cst main_v7 (broadcastInDim S1700000 ![] bcast_S_S1700000 : (⟨S_, .f32⟩ : BufTy).Contents (Elt F) → (⟨S1700000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S1700000x1 ![0] bcast_S1700000_S1700000x1_0 : (⟨S1700000, .i32⟩ : BufTy).Contents (Elt F) → (⟨S1700000x1, .i32⟩ : BufTy).Contents (Elt F)),
    ternary main_v8 main_v9 main_v7 main_v10 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_c (constantI S_ 32 0#32),
    unary main_c main_v11 (broadcastInDim S1700000 ![] bcast_S_S1700000 : (⟨S_, .i32⟩ : BufTy).Contents (Elt F) → (⟨S1700000, .i32⟩ : BufTy).Contents (Elt F)),
    binary main_v5 main_v11 main_v12 (cmpi .slt : (⟨S1700000, .i32⟩ : BufTy).Contents (Elt F) → (⟨S1700000, .i32⟩ : BufTy).Contents (Elt F) → (⟨S1700000, .i1⟩ : BufTy).Contents (Elt F)),
    nullary main_c_1 (constantI S_ 32 100000#32),
    unary main_c_1 main_v13 (broadcastInDim S1700000 ![] bcast_S_S1700000 : (⟨S_, .i32⟩ : BufTy).Contents (Elt F) → (⟨S1700000, .i32⟩ : BufTy).Contents (Elt F)),
    binary main_v5 main_v13 main_v14 (addi : (⟨S1700000, .i32⟩ : BufTy).Contents (Elt F) → (⟨S1700000, .i32⟩ : BufTy).Contents (Elt F) → (⟨S1700000, .i32⟩ : BufTy).Contents (Elt F)),
    ternary main_v12 main_v14 main_v5 main_v15 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v15 main_v16 (broadcastInDim S1700000x1 ![0] bcast_S1700000_S1700000x1_0 : (⟨S1700000, .i32⟩ : BufTy).Contents (Elt F) → (⟨S1700000x1, .i32⟩ : BufTy).Contents (Elt F)),
    binary main_v10 main_v16 main_v17 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_2 (constantI S_ 32 0#32),
    unary main_c_2 main_v18 (broadcastInDim S1700000 ![] bcast_S_S1700000 : (⟨S_, .i32⟩ : BufTy).Contents (Elt F) → (⟨S1700000, .i32⟩ : BufTy).Contents (Elt F)),
    binary main_v6 main_v18 main_v19 (cmpi .slt : (⟨S1700000, .i32⟩ : BufTy).Contents (Elt F) → (⟨S1700000, .i32⟩ : BufTy).Contents (Elt F) → (⟨S1700000, .i1⟩ : BufTy).Contents (Elt F)),
    nullary main_c_3 (constantI S_ 32 100000#32),
    unary main_c_3 main_v20 (broadcastInDim S1700000 ![] bcast_S_S1700000 : (⟨S_, .i32⟩ : BufTy).Contents (Elt F) → (⟨S1700000, .i32⟩ : BufTy).Contents (Elt F)),
    binary main_v6 main_v20 main_v21 (addi : (⟨S1700000, .i32⟩ : BufTy).Contents (Elt F) → (⟨S1700000, .i32⟩ : BufTy).Contents (Elt F) → (⟨S1700000, .i32⟩ : BufTy).Contents (Elt F)),
    ternary main_v19 main_v21 main_v6 main_v22 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v22 main_v23 (broadcastInDim S1700000x1 ![0] bcast_S1700000_S1700000x1_0 : (⟨S1700000, .i32⟩ : BufTy).Contents (Elt F) → (⟨S1700000x1, .i32⟩ : BufTy).Contents (Elt F)),
    binary main_v10 main_v23 main_v24 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v17 main_v24 main_v25 (mulf : (⟨S1700000, .f32⟩ : BufTy).Contents (Elt F) → (⟨S1700000, .f32⟩ : BufTy).Contents (Elt F) → (⟨S1700000, .f32⟩ : BufTy).Contents (Elt F)),
    nullary main_cst_4 (constant S_ .f32 0xBF000000#32),
    unary main_cst_4 main_v26 (broadcastInDim S1700000 ![] bcast_S_S1700000 : (⟨S_, .f32⟩ : BufTy).Contents (Elt F) → (⟨S1700000, .f32⟩ : BufTy).Contents (Elt F)),
    binary main_v25 main_v26 main_v27 (Host.powf : (⟨S1700000, .f32⟩ : BufTy).Contents (Elt F) → (⟨S1700000, .f32⟩ : BufTy).Contents (Elt F) → (⟨S1700000, .f32⟩ : BufTy).Contents (Elt F)),
    TRef.unary (.of main_v27) main_call0.v0 Host.absf,
    TRef.nullary main_call0.cst (constant S_ .f32 0x7F800000#32),
    TRef.unary main_call0.cst main_call0.v1 (broadcastInDim S1700000 ![] bcast_S_S1700000),
    TRef.binary main_call0.v0 main_call0.v1 main_call0.v2 (cmpf .oeq),
    nullary main_cst_5 (constant S_ .f32 0x00000000#32),
    TRef.unary (.of main_cst_5) main_call1.v0 id,
    TRef.unary main_call1.v0 main_call1.v1 (broadcastInDim S1700000 ![] bcast_S_S1700000),
    TRef.ternary (.of main_v28) main_call1.v1 (.of main_v27) main_call1.v2 select,
    unary main_arg3 main_v30 ((transpose S128x64 [1, 0] · transposes_S64x128_S128x64_1_0) : (⟨S64x128, .f32⟩ : BufTy).Contents (Elt F) → (⟨S128x64, .f32⟩ : BufTy).Contents (Elt F)),
    binary main_arg0 main_v30 main_v31 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    unary main_arg4 main_v32 (broadcastInDim S1x64 ![1] bcast_S64_S1x64_1 : (⟨S64, .f32⟩ : BufTy).Contents (Elt F) → (⟨S1x64, .f32⟩ : BufTy).Contents (Elt F)),
    unary main_v32 main_v33 (broadcastInDim S100000x64 ![0, 1] bcast_S1x64_S100000x64_0_1 : (⟨S1x64, .f32⟩ : BufTy).Contents (Elt F) → (⟨S100000x64, .f32⟩ : BufTy).Contents (Elt F)),
    binary main_v31 main_v33 main_v34 (addf : (⟨S100000x64, .f32⟩ : BufTy).Contents (Elt F) → (⟨S100000x64, .f32⟩ : BufTy).Contents (Elt F) → (⟨S100000x64, .f32⟩ : BufTy).Contents (Elt F)),
    nullary main_c_6 (constantI S_ 32 0#32),
    unary main_c_6 main_v35 (broadcastInDim S1700000 ![] bcast_S_S1700000 : (⟨S_, .i32⟩ : BufTy).Contents (Elt F) → (⟨S1700000, .i32⟩ : BufTy).Contents (Elt F)),
    binary main_v5 main_v35 main_v36 (cmpi .slt : (⟨S1700000, .i32⟩ : BufTy).Contents (Elt F) → (⟨S1700000, .i32⟩ : BufTy).Contents (Elt F) → (⟨S1700000, .i1⟩ : BufTy).Contents (Elt F)),
    nullary main_c_7 (constantI S_ 32 100000#32),
    unary main_c_7 main_v37 (broadcastInDim S1700000 ![] bcast_S_S1700000 : (⟨S_, .i32⟩ : BufTy).Contents (Elt F) → (⟨S1700000, .i32⟩ : BufTy).Contents (Elt F)),
    binary main_v5 main_v37 main_v38 (addi : (⟨S1700000, .i32⟩ : BufTy).Contents (Elt F) → (⟨S1700000, .i32⟩ : BufTy).Contents (Elt F) → (⟨S1700000, .i32⟩ : BufTy).Contents (Elt F)),
    ternary main_v36 main_v38 main_v5 main_v39 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v39 main_v40 (broadcastInDim S1700000x1 ![0] bcast_S1700000_S1700000x1_0 : (⟨S1700000, .i32⟩ : BufTy).Contents (Elt F) → (⟨S1700000x1, .i32⟩ : BufTy).Contents (Elt F)),
    binary main_v34 main_v40 main_v41 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    unary main_v29 main_v42 (broadcastInDim S1700000x1 ![0] bcast_S1700000_S1700000x1_0 : (⟨S1700000, .f32⟩ : BufTy).Contents (Elt F) → (⟨S1700000x1, .f32⟩ : BufTy).Contents (Elt F)),
    unary main_v42 main_v43 (broadcastInDim S1700000x64 ![0, 1] bcast_S1700000x1_S1700000x64_0_1 : (⟨S1700000x1, .f32⟩ : BufTy).Contents (Elt F) → (⟨S1700000x64, .f32⟩ : BufTy).Contents (Elt F)),
    binary main_v41 main_v43 main_v44 (mulf : (⟨S1700000x64, .f32⟩ : BufTy).Contents (Elt F) → (⟨S1700000x64, .f32⟩ : BufTy).Contents (Elt F) → (⟨S1700000x64, .f32⟩ : BufTy).Contents (Elt F)),
    nullary main_cst_8 (constant S_ .f32 0x00000000#32),
    unary main_cst_8 main_v45 (broadcastInDim S100000x64 ![] bcast_S_S100000x64 : (⟨S_, .f32⟩ : BufTy).Contents (Elt F) → (⟨S100000x64, .f32⟩ : BufTy).Contents (Elt F)),
    unary main_v6 main_v46 (broadcastInDim S1700000x1 ![0] bcast_S1700000_S1700000x1_0 : (⟨S1700000, .i32⟩ : BufTy).Contents (Elt F) → (⟨S1700000x1, .i32⟩ : BufTy).Contents (Elt F)),
    ternary main_v45 main_v46 main_v44 main_v47 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)),
    nullary main_cst_9 (constant S_ .f32 0x00000000#32),
    binary main_v47 main_cst_9 main_v48 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    nullary main_cst_10 (constant S_ .f32 0x47C35000#32),
    unary main_cst_10 main_v49 (broadcastInDim S64 ![] bcast_S_S64 : (⟨S_, .f32⟩ : BufTy).Contents (Elt F) → (⟨S64, .f32⟩ : BufTy).Contents (Elt F)),
    binary main_v48 main_v49 main_v50 (Host.divf : (⟨S64, .f32⟩ : BufTy).Contents (Elt F) → (⟨S64, .f32⟩ : BufTy).Contents (Elt F) → (⟨S64, .f32⟩ : BufTy).Contents (Elt F)),
    nullary main_c_11 (constantI S_ 32 0#32),
    TRef.nullary main_call2.cst (constant S_ .f32 0x00000000#32),
    TRef.binary (.of main_v47) main_call2.cst main_call2.v0 (fun x v => Host.reduceAdd x v reducesTo_S100000x64_S64_d0 h_S_),
    TRef.unary main_call2.v0 main_call2.v1 (broadcastInDim S1x64 ![1] bcast_S64_S1x64_1),
    TRef.nullary main_call2.cst_0 (constant S_ .f32 0x47C35000#32),
    TRef.unary main_call2.cst_0 main_call2.v2 (broadcastInDim S1x64 ![] bcast_S_S1x64),
    TRef.binary main_call2.v1 main_call2.v2 main_call2.v3 Host.divf,
    TRef.unary main_call2.v3 main_call2.v4 (broadcastInDim S100000x64 ![0, 1] bcast_S1x64_S100000x64_0_1),
    TRef.binary (.of main_v47) main_call2.v4 main_call2.v5 subf,
    TRef.binary main_call2.v5 main_call2.v5 main_call2.v6 mulf,
    TRef.unary (.of main_c_11) main_call2.v7 (sitofp .f32),
    TRef.nullary main_call2.cst_1 (constant S_ .f32 0x47C35000#32),
    TRef.binary main_call2.cst_1 main_call2.v7 main_call2.v8 subf,
    TRef.nullary main_call2.cst_2 (constant S_ .f32 0x00000000#32),
    TRef.binary main_call2.v6 main_call2.cst_2 main_call2.v9 (fun x v => Host.reduceAdd x v reducesTo_S100000x64_S64_d0 h_S_),
    TRef.unary main_call2.v8 main_call2.v10 (broadcastInDim S64 ![] bcast_S_S64),
    TRef.binary main_call2.v9 main_call2.v10 main_call2.v11 Host.divf,
    TRef.nullary main_call2.cst_3 (constant S_ .f32 0x00000000#32),
    TRef.binary main_call2.v8 main_call2.cst_3 main_call2.v12 (cmpf .ogt),
    TRef.nullary main_call2.cst_4 (constant S_ .f32 0x7FC00000#32),
    TRef.unary main_call2.cst_4 main_call2_call0.v0 id,
    TRef.unary main_call2_call0.v0 main_call2_call0.v1 (broadcastInDim S64 ![] bcast_S_S64),
    TRef.ternary main_call2.v12 main_call2.v11 main_call2_call0.v1 main_call2_call0.v2 (fun p a b => select (broadcastInDim S64 ![] bcast_S_S64 p) a b),
    unary main_v50 main_v52 (broadcastInDim S1x64 ![1] bcast_S64_S1x64_1 : (⟨S64, .f32⟩ : BufTy).Contents (Elt F) → (⟨S1x64, .f32⟩ : BufTy).Contents (Elt F)),
    unary main_v52 main_v53 (broadcastInDim S100000x64 ![0, 1] bcast_S1x64_S100000x64_0_1 : (⟨S1x64, .f32⟩ : BufTy).Contents (Elt F) → (⟨S100000x64, .f32⟩ : BufTy).Contents (Elt F)),
    binary main_v47 main_v53 main_v54 (subf : (⟨S100000x64, .f32⟩ : BufTy).Contents (Elt F) → (⟨S100000x64, .f32⟩ : BufTy).Contents (Elt F) → (⟨S100000x64, .f32⟩ : BufTy).Contents (Elt F)),
    unary main_arg5 main_v55 (broadcastInDim S1x64 ![1] bcast_S64_S1x64_1 : (⟨S64, .f32⟩ : BufTy).Contents (Elt F) → (⟨S1x64, .f32⟩ : BufTy).Contents (Elt F)),
    unary main_v55 main_v56 (broadcastInDim S100000x64 ![0, 1] bcast_S1x64_S100000x64_0_1 : (⟨S1x64, .f32⟩ : BufTy).Contents (Elt F) → (⟨S100000x64, .f32⟩ : BufTy).Contents (Elt F)),
    binary main_v56 main_v54 main_v57 (mulf : (⟨S100000x64, .f32⟩ : BufTy).Contents (Elt F) → (⟨S100000x64, .f32⟩ : BufTy).Contents (Elt F) → (⟨S100000x64, .f32⟩ : BufTy).Contents (Elt F)),
    nullary main_cst_12 (constant S_ .f32 0x3727C5AC#32),
    unary main_cst_12 main_v58 (broadcastInDim S64 ![] bcast_S_S64 : (⟨S_, .f32⟩ : BufTy).Contents (Elt F) → (⟨S64, .f32⟩ : BufTy).Contents (Elt F)),
    binary main_v51 main_v58 main_v59 (addf : (⟨S64, .f32⟩ : BufTy).Contents (Elt F) → (⟨S64, .f32⟩ : BufTy).Contents (Elt F) → (⟨S64, .f32⟩ : BufTy).Contents (Elt F)),
    unary main_v59 main_v60 (Host.sqrt : (⟨S64, .f32⟩ : BufTy).Contents (Elt F) → (⟨S64, .f32⟩ : BufTy).Contents (Elt F)),
    unary main_v60 main_v61 (broadcastInDim S1x64 ![1] bcast_S64_S1x64_1 : (⟨S64, .f32⟩ : BufTy).Contents (Elt F) → (⟨S1x64, .f32⟩ : BufTy).Contents (Elt F)),
    unary main_v61 main_v62 (broadcastInDim S100000x64 ![0, 1] bcast_S1x64_S100000x64_0_1 : (⟨S1x64, .f32⟩ : BufTy).Contents (Elt F) → (⟨S100000x64, .f32⟩ : BufTy).Contents (Elt F)),
    binary main_v57 main_v62 main_v63 (Host.divf : (⟨S100000x64, .f32⟩ : BufTy).Contents (Elt F) → (⟨S100000x64, .f32⟩ : BufTy).Contents (Elt F) → (⟨S100000x64, .f32⟩ : BufTy).Contents (Elt F)),
    unary main_arg6 main_v64 (broadcastInDim S1x64 ![1] bcast_S64_S1x64_1 : (⟨S64, .f32⟩ : BufTy).Contents (Elt F) → (⟨S1x64, .f32⟩ : BufTy).Contents (Elt F)),
    unary main_v64 main_v65 (broadcastInDim S100000x64 ![0, 1] bcast_S1x64_S100000x64_0_1 : (⟨S1x64, .f32⟩ : BufTy).Contents (Elt F) → (⟨S100000x64, .f32⟩ : BufTy).Contents (Elt F)),
    binary main_v63 main_v65 main_v66 (addf : (⟨S100000x64, .f32⟩ : BufTy).Contents (Elt F) → (⟨S100000x64, .f32⟩ : BufTy).Contents (Elt F) → (⟨S100000x64, .f32⟩ : BufTy).Contents (Elt F)),
    TRef.nullary main_call3.cst (constant S_ .f32 0x00000000#32),
    TRef.unary main_call3.cst main_call3.v0 (broadcastInDim S100000x64 ![] bcast_S_S100000x64),
    TRef.binary (.of main_v66) main_call3.v0 main_call3.v1 maximumf,
    unary main_arg7 main_v68 ((transpose S64x64 [1, 0] · transposes_S64x64_S64x64_1_0) : (⟨S64x64, .f32⟩ : BufTy).Contents (Elt F) → (⟨S64x64, .f32⟩ : BufTy).Contents (Elt F)),
    binary main_v67 main_v68 main_v69 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_arg8 main_v70 (broadcastInDim S1x64 ![1] bcast_S64_S1x64_1 : (⟨S64, .f32⟩ : BufTy).Contents (Elt F) → (⟨S1x64, .f32⟩ : BufTy).Contents (Elt F)),
    unary main_v70 main_v71 (broadcastInDim S100000x64 ![0, 1] bcast_S1x64_S100000x64_0_1 : (⟨S1x64, .f32⟩ : BufTy).Contents (Elt F) → (⟨S100000x64, .f32⟩ : BufTy).Contents (Elt F)),
    binary main_v69 main_v71 main_v72 (addf : (⟨S100000x64, .f32⟩ : BufTy).Contents (Elt F) → (⟨S100000x64, .f32⟩ : BufTy).Contents (Elt F) → (⟨S100000x64, .f32⟩ : BufTy).Contents (Elt F)),
    nullary main_c_13 (constantI S_ 32 0#32),
    unary main_c_13 main_v73 (broadcastInDim S1700000 ![] bcast_S_S1700000 : (⟨S_, .i32⟩ : BufTy).Contents (Elt F) → (⟨S1700000, .i32⟩ : BufTy).Contents (Elt F)),
    binary main_v5 main_v73 main_v74 (cmpi .slt : (⟨S1700000, .i32⟩ : BufTy).Contents (Elt F) → (⟨S1700000, .i32⟩ : BufTy).Contents (Elt F) → (⟨S1700000, .i1⟩ : BufTy).Contents (Elt F)),
    nullary main_c_14 (constantI S_ 32 100000#32),
    unary main_c_14 main_v75 (broadcastInDim S1700000 ![] bcast_S_S1700000 : (⟨S_, .i32⟩ : BufTy).Contents (Elt F) → (⟨S1700000, .i32⟩ : BufTy).Contents (Elt F)),
    binary main_v5 main_v75 main_v76 (addi : (⟨S1700000, .i32⟩ : BufTy).Contents (Elt F) → (⟨S1700000, .i32⟩ : BufTy).Contents (Elt F) → (⟨S1700000, .i32⟩ : BufTy).Contents (Elt F)),
    ternary main_v74 main_v76 main_v5 main_v77 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v77 main_v78 (broadcastInDim S1700000x1 ![0] bcast_S1700000_S1700000x1_0 : (⟨S1700000, .i32⟩ : BufTy).Contents (Elt F) → (⟨S1700000x1, .i32⟩ : BufTy).Contents (Elt F)),
    binary main_v72 main_v78 main_v79 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    unary main_v29 main_v80 (broadcastInDim S1700000x1 ![0] bcast_S1700000_S1700000x1_0 : (⟨S1700000, .f32⟩ : BufTy).Contents (Elt F) → (⟨S1700000x1, .f32⟩ : BufTy).Contents (Elt F)),
    unary main_v80 main_v81 (broadcastInDim S1700000x64 ![0, 1] bcast_S1700000x1_S1700000x64_0_1 : (⟨S1700000x1, .f32⟩ : BufTy).Contents (Elt F) → (⟨S1700000x64, .f32⟩ : BufTy).Contents (Elt F)),
    binary main_v79 main_v81 main_v82 (mulf : (⟨S1700000x64, .f32⟩ : BufTy).Contents (Elt F) → (⟨S1700000x64, .f32⟩ : BufTy).Contents (Elt F) → (⟨S1700000x64, .f32⟩ : BufTy).Contents (Elt F)),
    nullary main_cst_15 (constant S_ .f32 0x00000000#32),
    unary main_cst_15 main_v83 (broadcastInDim S100000x64 ![] bcast_S_S100000x64 : (⟨S_, .f32⟩ : BufTy).Contents (Elt F) → (⟨S100000x64, .f32⟩ : BufTy).Contents (Elt F)),
    unary main_v6 main_v84 (broadcastInDim S1700000x1 ![0] bcast_S1700000_S1700000x1_0 : (⟨S1700000, .i32⟩ : BufTy).Contents (Elt F) → (⟨S1700000x1, .i32⟩ : BufTy).Contents (Elt F)),
    ternary main_v83 main_v84 main_v82 main_v85 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)),
    nullary main_cst_16 (constant S_ .f32 0x00000000#32),
    binary main_v85 main_cst_16 main_v86 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    nullary main_cst_17 (constant S_ .f32 0x47C35000#32),
    unary main_cst_17 main_v87 (broadcastInDim S64 ![] bcast_S_S64 : (⟨S_, .f32⟩ : BufTy).Contents (Elt F) → (⟨S64, .f32⟩ : BufTy).Contents (Elt F)),
    binary main_v86 main_v87 main_v88 (Host.divf : (⟨S64, .f32⟩ : BufTy).Contents (Elt F) → (⟨S64, .f32⟩ : BufTy).Contents (Elt F) → (⟨S64, .f32⟩ : BufTy).Contents (Elt F)),
    nullary main_c_18 (constantI S_ 32 0#32),
    TRef.nullary main_call4.cst (constant S_ .f32 0x00000000#32),
    TRef.binary (.of main_v85) main_call4.cst main_call4.v0 (fun x v => Host.reduceAdd x v reducesTo_S100000x64_S64_d0 h_S_),
    TRef.unary main_call4.v0 main_call4.v1 (broadcastInDim S1x64 ![1] bcast_S64_S1x64_1),
    TRef.nullary main_call4.cst_0 (constant S_ .f32 0x47C35000#32),
    TRef.unary main_call4.cst_0 main_call4.v2 (broadcastInDim S1x64 ![] bcast_S_S1x64),
    TRef.binary main_call4.v1 main_call4.v2 main_call4.v3 Host.divf,
    TRef.unary main_call4.v3 main_call4.v4 (broadcastInDim S100000x64 ![0, 1] bcast_S1x64_S100000x64_0_1),
    TRef.binary (.of main_v85) main_call4.v4 main_call4.v5 subf,
    TRef.binary main_call4.v5 main_call4.v5 main_call4.v6 mulf,
    TRef.unary (.of main_c_18) main_call4.v7 (sitofp .f32),
    TRef.nullary main_call4.cst_1 (constant S_ .f32 0x47C35000#32),
    TRef.binary main_call4.cst_1 main_call4.v7 main_call4.v8 subf,
    TRef.nullary main_call4.cst_2 (constant S_ .f32 0x00000000#32),
    TRef.binary main_call4.v6 main_call4.cst_2 main_call4.v9 (fun x v => Host.reduceAdd x v reducesTo_S100000x64_S64_d0 h_S_),
    TRef.unary main_call4.v8 main_call4.v10 (broadcastInDim S64 ![] bcast_S_S64),
    TRef.binary main_call4.v9 main_call4.v10 main_call4.v11 Host.divf,
    TRef.nullary main_call4.cst_3 (constant S_ .f32 0x00000000#32),
    TRef.binary main_call4.v8 main_call4.cst_3 main_call4.v12 (cmpf .ogt),
    TRef.nullary main_call4.cst_4 (constant S_ .f32 0x7FC00000#32),
    TRef.unary main_call4.cst_4 main_call4_call0.v0 id,
    TRef.unary main_call4_call0.v0 main_call4_call0.v1 (broadcastInDim S64 ![] bcast_S_S64),
    TRef.ternary main_call4.v12 main_call4.v11 main_call4_call0.v1 main_call4_call0.v2 (fun p a b => select (broadcastInDim S64 ![] bcast_S_S64 p) a b),
    unary main_v88 main_v90 (broadcastInDim S1x64 ![1] bcast_S64_S1x64_1 : (⟨S64, .f32⟩ : BufTy).Contents (Elt F) → (⟨S1x64, .f32⟩ : BufTy).Contents (Elt F)),
    unary main_v90 main_v91 (broadcastInDim S100000x64 ![0, 1] bcast_S1x64_S100000x64_0_1 : (⟨S1x64, .f32⟩ : BufTy).Contents (Elt F) → (⟨S100000x64, .f32⟩ : BufTy).Contents (Elt F)),
    binary main_v85 main_v91 main_v92 (subf : (⟨S100000x64, .f32⟩ : BufTy).Contents (Elt F) → (⟨S100000x64, .f32⟩ : BufTy).Contents (Elt F) → (⟨S100000x64, .f32⟩ : BufTy).Contents (Elt F)),
    unary main_arg9 main_v93 (broadcastInDim S1x64 ![1] bcast_S64_S1x64_1 : (⟨S64, .f32⟩ : BufTy).Contents (Elt F) → (⟨S1x64, .f32⟩ : BufTy).Contents (Elt F)),
    unary main_v93 main_v94 (broadcastInDim S100000x64 ![0, 1] bcast_S1x64_S100000x64_0_1 : (⟨S1x64, .f32⟩ : BufTy).Contents (Elt F) → (⟨S100000x64, .f32⟩ : BufTy).Contents (Elt F)),
    binary main_v94 main_v92 main_v95 (mulf : (⟨S100000x64, .f32⟩ : BufTy).Contents (Elt F) → (⟨S100000x64, .f32⟩ : BufTy).Contents (Elt F) → (⟨S100000x64, .f32⟩ : BufTy).Contents (Elt F)),
    nullary main_cst_19 (constant S_ .f32 0x3727C5AC#32),
    unary main_cst_19 main_v96 (broadcastInDim S64 ![] bcast_S_S64 : (⟨S_, .f32⟩ : BufTy).Contents (Elt F) → (⟨S64, .f32⟩ : BufTy).Contents (Elt F)),
    binary main_v89 main_v96 main_v97 (addf : (⟨S64, .f32⟩ : BufTy).Contents (Elt F) → (⟨S64, .f32⟩ : BufTy).Contents (Elt F) → (⟨S64, .f32⟩ : BufTy).Contents (Elt F)),
    unary main_v97 main_v98 (Host.sqrt : (⟨S64, .f32⟩ : BufTy).Contents (Elt F) → (⟨S64, .f32⟩ : BufTy).Contents (Elt F)),
    unary main_v98 main_v99 (broadcastInDim S1x64 ![1] bcast_S64_S1x64_1 : (⟨S64, .f32⟩ : BufTy).Contents (Elt F) → (⟨S1x64, .f32⟩ : BufTy).Contents (Elt F)),
    unary main_v99 main_v100 (broadcastInDim S100000x64 ![0, 1] bcast_S1x64_S100000x64_0_1 : (⟨S1x64, .f32⟩ : BufTy).Contents (Elt F) → (⟨S100000x64, .f32⟩ : BufTy).Contents (Elt F)),
    binary main_v95 main_v100 main_v101 (Host.divf : (⟨S100000x64, .f32⟩ : BufTy).Contents (Elt F) → (⟨S100000x64, .f32⟩ : BufTy).Contents (Elt F) → (⟨S100000x64, .f32⟩ : BufTy).Contents (Elt F)),
    unary main_arg10 main_v102 (broadcastInDim S1x64 ![1] bcast_S64_S1x64_1 : (⟨S64, .f32⟩ : BufTy).Contents (Elt F) → (⟨S1x64, .f32⟩ : BufTy).Contents (Elt F)),
    unary main_v102 main_v103 (broadcastInDim S100000x64 ![0, 1] bcast_S1x64_S100000x64_0_1 : (⟨S1x64, .f32⟩ : BufTy).Contents (Elt F) → (⟨S100000x64, .f32⟩ : BufTy).Contents (Elt F)),
    binary main_v101 main_v103 main_v104 (addf : (⟨S100000x64, .f32⟩ : BufTy).Contents (Elt F) → (⟨S100000x64, .f32⟩ : BufTy).Contents (Elt F) → (⟨S100000x64, .f32⟩ : BufTy).Contents (Elt F)),
    TRef.nullary main_call5.cst (constant S_ .f32 0x00000000#32),
    TRef.unary main_call5.cst main_call5.v0 (broadcastInDim S100000x64 ![] bcast_S_S100000x64),
    TRef.binary (.of main_v104) main_call5.v0 main_call5.v1 maximumf,
    unary main_arg11 main_v106 ((transpose S64x64 [1, 0] · transposes_S64x64_S64x64_1_0) : (⟨S64x64, .f32⟩ : BufTy).Contents (Elt F) → (⟨S64x64, .f32⟩ : BufTy).Contents (Elt F)),
    binary main_v105 main_v106 main_v107 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_arg12 main_v108 (broadcastInDim S1x64 ![1] bcast_S64_S1x64_1 : (⟨S64, .f32⟩ : BufTy).Contents (Elt F) → (⟨S1x64, .f32⟩ : BufTy).Contents (Elt F)),
    unary main_v108 main_v109 (broadcastInDim S100000x64 ![0, 1] bcast_S1x64_S100000x64_0_1 : (⟨S1x64, .f32⟩ : BufTy).Contents (Elt F) → (⟨S100000x64, .f32⟩ : BufTy).Contents (Elt F)),
    binary main_v107 main_v109 main_v110 (addf : (⟨S100000x64, .f32⟩ : BufTy).Contents (Elt F) → (⟨S100000x64, .f32⟩ : BufTy).Contents (Elt F) → (⟨S100000x64, .f32⟩ : BufTy).Contents (Elt F)),
    nullary main_c_20 (constantI S_ 32 0#32),
    unary main_c_20 main_v111 (broadcastInDim S1700000 ![] bcast_S_S1700000 : (⟨S_, .i32⟩ : BufTy).Contents (Elt F) → (⟨S1700000, .i32⟩ : BufTy).Contents (Elt F)),
    binary main_v5 main_v111 main_v112 (cmpi .slt : (⟨S1700000, .i32⟩ : BufTy).Contents (Elt F) → (⟨S1700000, .i32⟩ : BufTy).Contents (Elt F) → (⟨S1700000, .i1⟩ : BufTy).Contents (Elt F)),
    nullary main_c_21 (constantI S_ 32 100000#32),
    unary main_c_21 main_v113 (broadcastInDim S1700000 ![] bcast_S_S1700000 : (⟨S_, .i32⟩ : BufTy).Contents (Elt F) → (⟨S1700000, .i32⟩ : BufTy).Contents (Elt F)),
    binary main_v5 main_v113 main_v114 (addi : (⟨S1700000, .i32⟩ : BufTy).Contents (Elt F) → (⟨S1700000, .i32⟩ : BufTy).Contents (Elt F) → (⟨S1700000, .i32⟩ : BufTy).Contents (Elt F)),
    ternary main_v112 main_v114 main_v5 main_v115 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v115 main_v116 (broadcastInDim S1700000x1 ![0] bcast_S1700000_S1700000x1_0 : (⟨S1700000, .i32⟩ : BufTy).Contents (Elt F) → (⟨S1700000x1, .i32⟩ : BufTy).Contents (Elt F)),
    binary main_v110 main_v116 main_v117 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    unary main_v29 main_v118 (broadcastInDim S1700000x1 ![0] bcast_S1700000_S1700000x1_0 : (⟨S1700000, .f32⟩ : BufTy).Contents (Elt F) → (⟨S1700000x1, .f32⟩ : BufTy).Contents (Elt F)),
    unary main_v118 main_v119 (broadcastInDim S1700000x64 ![0, 1] bcast_S1700000x1_S1700000x64_0_1 : (⟨S1700000x1, .f32⟩ : BufTy).Contents (Elt F) → (⟨S1700000x64, .f32⟩ : BufTy).Contents (Elt F)),
    binary main_v117 main_v119 main_v120 (mulf : (⟨S1700000x64, .f32⟩ : BufTy).Contents (Elt F) → (⟨S1700000x64, .f32⟩ : BufTy).Contents (Elt F) → (⟨S1700000x64, .f32⟩ : BufTy).Contents (Elt F)),
    nullary main_cst_22 (constant S_ .f32 0x00000000#32),
    unary main_cst_22 main_v121 (broadcastInDim S100000x64 ![] bcast_S_S100000x64 : (⟨S_, .f32⟩ : BufTy).Contents (Elt F) → (⟨S100000x64, .f32⟩ : BufTy).Contents (Elt F)),
    unary main_v6 main_v122 (broadcastInDim S1700000x1 ![0] bcast_S1700000_S1700000x1_0 : (⟨S1700000, .i32⟩ : BufTy).Contents (Elt F) → (⟨S1700000x1, .i32⟩ : BufTy).Contents (Elt F)),
    ternary main_v121 main_v122 main_v120 main_v123 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)),
    nullary main_cst_23 (constant S_ .f32 0x00000000#32),
    binary main_v123 main_cst_23 main_v124 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    nullary main_cst_24 (constant S_ .f32 0x47C35000#32),
    unary main_cst_24 main_v125 (broadcastInDim S64 ![] bcast_S_S64 : (⟨S_, .f32⟩ : BufTy).Contents (Elt F) → (⟨S64, .f32⟩ : BufTy).Contents (Elt F)),
    binary main_v124 main_v125 main_v126 (Host.divf : (⟨S64, .f32⟩ : BufTy).Contents (Elt F) → (⟨S64, .f32⟩ : BufTy).Contents (Elt F) → (⟨S64, .f32⟩ : BufTy).Contents (Elt F)),
    nullary main_c_25 (constantI S_ 32 0#32),
    TRef.nullary main_call6.cst (constant S_ .f32 0x00000000#32),
    TRef.binary (.of main_v123) main_call6.cst main_call6.v0 (fun x v => Host.reduceAdd x v reducesTo_S100000x64_S64_d0 h_S_),
    TRef.unary main_call6.v0 main_call6.v1 (broadcastInDim S1x64 ![1] bcast_S64_S1x64_1),
    TRef.nullary main_call6.cst_0 (constant S_ .f32 0x47C35000#32),
    TRef.unary main_call6.cst_0 main_call6.v2 (broadcastInDim S1x64 ![] bcast_S_S1x64),
    TRef.binary main_call6.v1 main_call6.v2 main_call6.v3 Host.divf,
    TRef.unary main_call6.v3 main_call6.v4 (broadcastInDim S100000x64 ![0, 1] bcast_S1x64_S100000x64_0_1),
    TRef.binary (.of main_v123) main_call6.v4 main_call6.v5 subf,
    TRef.binary main_call6.v5 main_call6.v5 main_call6.v6 mulf,
    TRef.unary (.of main_c_25) main_call6.v7 (sitofp .f32),
    TRef.nullary main_call6.cst_1 (constant S_ .f32 0x47C35000#32),
    TRef.binary main_call6.cst_1 main_call6.v7 main_call6.v8 subf,
    TRef.nullary main_call6.cst_2 (constant S_ .f32 0x00000000#32),
    TRef.binary main_call6.v6 main_call6.cst_2 main_call6.v9 (fun x v => Host.reduceAdd x v reducesTo_S100000x64_S64_d0 h_S_),
    TRef.unary main_call6.v8 main_call6.v10 (broadcastInDim S64 ![] bcast_S_S64),
    TRef.binary main_call6.v9 main_call6.v10 main_call6.v11 Host.divf,
    TRef.nullary main_call6.cst_3 (constant S_ .f32 0x00000000#32),
    TRef.binary main_call6.v8 main_call6.cst_3 main_call6.v12 (cmpf .ogt),
    TRef.nullary main_call6.cst_4 (constant S_ .f32 0x7FC00000#32),
    TRef.unary main_call6.cst_4 main_call6_call0.v0 id,
    TRef.unary main_call6_call0.v0 main_call6_call0.v1 (broadcastInDim S64 ![] bcast_S_S64),
    TRef.ternary main_call6.v12 main_call6.v11 main_call6_call0.v1 main_call6_call0.v2 (fun p a b => select (broadcastInDim S64 ![] bcast_S_S64 p) a b),
    unary main_v126 main_v128 (broadcastInDim S1x64 ![1] bcast_S64_S1x64_1 : (⟨S64, .f32⟩ : BufTy).Contents (Elt F) → (⟨S1x64, .f32⟩ : BufTy).Contents (Elt F)),
    unary main_v128 main_v129 (broadcastInDim S100000x64 ![0, 1] bcast_S1x64_S100000x64_0_1 : (⟨S1x64, .f32⟩ : BufTy).Contents (Elt F) → (⟨S100000x64, .f32⟩ : BufTy).Contents (Elt F)),
    binary main_v123 main_v129 main_v130 (subf : (⟨S100000x64, .f32⟩ : BufTy).Contents (Elt F) → (⟨S100000x64, .f32⟩ : BufTy).Contents (Elt F) → (⟨S100000x64, .f32⟩ : BufTy).Contents (Elt F)),
    unary main_arg13 main_v131 (broadcastInDim S1x64 ![1] bcast_S64_S1x64_1 : (⟨S64, .f32⟩ : BufTy).Contents (Elt F) → (⟨S1x64, .f32⟩ : BufTy).Contents (Elt F)),
    unary main_v131 main_v132 (broadcastInDim S100000x64 ![0, 1] bcast_S1x64_S100000x64_0_1 : (⟨S1x64, .f32⟩ : BufTy).Contents (Elt F) → (⟨S100000x64, .f32⟩ : BufTy).Contents (Elt F)),
    binary main_v132 main_v130 main_v133 (mulf : (⟨S100000x64, .f32⟩ : BufTy).Contents (Elt F) → (⟨S100000x64, .f32⟩ : BufTy).Contents (Elt F) → (⟨S100000x64, .f32⟩ : BufTy).Contents (Elt F)),
    nullary main_cst_26 (constant S_ .f32 0x3727C5AC#32),
    unary main_cst_26 main_v134 (broadcastInDim S64 ![] bcast_S_S64 : (⟨S_, .f32⟩ : BufTy).Contents (Elt F) → (⟨S64, .f32⟩ : BufTy).Contents (Elt F)),
    binary main_v127 main_v134 main_v135 (addf : (⟨S64, .f32⟩ : BufTy).Contents (Elt F) → (⟨S64, .f32⟩ : BufTy).Contents (Elt F) → (⟨S64, .f32⟩ : BufTy).Contents (Elt F)),
    unary main_v135 main_v136 (Host.sqrt : (⟨S64, .f32⟩ : BufTy).Contents (Elt F) → (⟨S64, .f32⟩ : BufTy).Contents (Elt F)),
    unary main_v136 main_v137 (broadcastInDim S1x64 ![1] bcast_S64_S1x64_1 : (⟨S64, .f32⟩ : BufTy).Contents (Elt F) → (⟨S1x64, .f32⟩ : BufTy).Contents (Elt F)),
    unary main_v137 main_v138 (broadcastInDim S100000x64 ![0, 1] bcast_S1x64_S100000x64_0_1 : (⟨S1x64, .f32⟩ : BufTy).Contents (Elt F) → (⟨S100000x64, .f32⟩ : BufTy).Contents (Elt F)),
    binary main_v133 main_v138 main_v139 (Host.divf : (⟨S100000x64, .f32⟩ : BufTy).Contents (Elt F) → (⟨S100000x64, .f32⟩ : BufTy).Contents (Elt F) → (⟨S100000x64, .f32⟩ : BufTy).Contents (Elt F)),
    unary main_arg14 main_v140 (broadcastInDim S1x64 ![1] bcast_S64_S1x64_1 : (⟨S64, .f32⟩ : BufTy).Contents (Elt F) → (⟨S1x64, .f32⟩ : BufTy).Contents (Elt F)),
    unary main_v140 main_v141 (broadcastInDim S100000x64 ![0, 1] bcast_S1x64_S100000x64_0_1 : (⟨S1x64, .f32⟩ : BufTy).Contents (Elt F) → (⟨S100000x64, .f32⟩ : BufTy).Contents (Elt F)),
    binary main_v139 main_v141 main_v142 (addf : (⟨S100000x64, .f32⟩ : BufTy).Contents (Elt F) → (⟨S100000x64, .f32⟩ : BufTy).Contents (Elt F) → (⟨S100000x64, .f32⟩ : BufTy).Contents (Elt F)),
    TRef.nullary main_call7.cst (constant S_ .f32 0x00000000#32),
    TRef.unary main_call7.cst main_call7.v0 (broadcastInDim S100000x64 ![] bcast_S_S100000x64),
    TRef.binary (.of main_v142) main_call7.v0 main_call7.v1 maximumf,
    nullary main_cst_27 (constant S_ .f32 0x00000000#32),
    unary main_cst_27 main_v144 (broadcastInDim S128x64 ![] bcast_S_S128x64 : (⟨S_, .f32⟩ : BufTy).Contents (Elt F) → (⟨S128x64, .f32⟩ : BufTy).Contents (Elt F)),
    unary main_arg2 main_v145 (broadcastInDim S100000x1 ![0] bcast_S100000_S100000x1_0 : (⟨S100000, .i32⟩ : BufTy).Contents (Elt F) → (⟨S100000x1, .i32⟩ : BufTy).Contents (Elt F)),
    ternary main_v144 main_v145 main_v143 main_v146 ((fun x i u => Host.scatterAdd scatter_S128x64_S100000x1_S100000x64_1_0_0_1 x i u) : (⟨S128x64, .f32⟩ : BufTy).Contents (Elt F) → (⟨S100000x1, .i32⟩ : BufTy).Contents (Elt F) → (⟨S100000x64, .f32⟩ : BufTy).Contents (Elt F) → (⟨S128x64, .f32⟩ : BufTy).Contents (Elt F)),
    unary main_arg15 main_v147 ((transpose S64x64 [1, 0] · transposes_S64x64_S64x64_1_0) : (⟨S64x64, .f32⟩ : BufTy).Contents (Elt F) → (⟨S64x64, .f32⟩ : BufTy).Contents (Elt F)),
    binary main_v146 main_v147 main_v148 ((fun l r => Host.dotGeneral dot_S128x64_S64x64_S128x64_1_0_0_1_n_n none l r) : (⟨S128x64, .f32⟩ : BufTy).Contents (Elt F) → (⟨S64x64, .f32⟩ : BufTy).Contents (Elt F) → (⟨S128x64, .f32⟩ : BufTy).Contents (Elt F)),
    unary main_arg16 main_v149 (broadcastInDim S1x64 ![1] bcast_S64_S1x64_1 : (⟨S64, .f32⟩ : BufTy).Contents (Elt F) → (⟨S1x64, .f32⟩ : BufTy).Contents (Elt F)),
    unary main_v149 main_v150 (broadcastInDim S128x64 ![0, 1] bcast_S1x64_S128x64_0_1 : (⟨S1x64, .f32⟩ : BufTy).Contents (Elt F) → (⟨S128x64, .f32⟩ : BufTy).Contents (Elt F)),
    binary main_v148 main_v150 main_v151 (addf : (⟨S128x64, .f32⟩ : BufTy).Contents (Elt F) → (⟨S128x64, .f32⟩ : BufTy).Contents (Elt F) → (⟨S128x64, .f32⟩ : BufTy).Contents (Elt F)),
    TRef.nullary main_call8.cst (constant S_ .f32 0x00000000#32),
    TRef.unary main_call8.cst main_call8.v0 (broadcastInDim S128x64 ![] bcast_S_S128x64),
    TRef.binary (.of main_v151) main_call8.v0 main_call8.v1 maximumf,
    unary main_arg17 main_v153 ((transpose S64x10 [1, 0] · transposes_S10x64_S64x10_1_0) : (⟨S10x64, .f32⟩ : BufTy).Contents (Elt F) → (⟨S64x10, .f32⟩ : BufTy).Contents (Elt F)),
    binary main_v152 main_v153 main_v154 ((fun l r => Host.dotGeneral dot_S128x64_S64x10_S128x10_1_0_0_1_n_n none l r) : (⟨S128x64, .f32⟩ : BufTy).Contents (Elt F) → (⟨S64x10, .f32⟩ : BufTy).Contents (Elt F) → (⟨S128x10, .f32⟩ : BufTy).Contents (Elt F)),
    unary main_arg18 main_v155 (broadcastInDim S1x10 ![1] bcast_S10_S1x10_1 : (⟨S10, .f32⟩ : BufTy).Contents (Elt F) → (⟨S1x10, .f32⟩ : BufTy).Contents (Elt F)),
    unary main_v155 main_v156 (broadcastInDim S128x10 ![0, 1] bcast_S1x10_S128x10_0_1 : (⟨S1x10, .f32⟩ : BufTy).Contents (Elt F) → (⟨S128x10, .f32⟩ : BufTy).Contents (Elt F)),
    binary main_v154 main_v156 main_v157 (addf : (⟨S128x10, .f32⟩ : BufTy).Contents (Elt F) → (⟨S128x10, .f32⟩ : BufTy).Contents (Elt F) → (⟨S128x10, .f32⟩ : BufTy).Contents (Elt F)) ]

set_option maxRecDepth 65536 in
set_option maxHeartbeats 4000000 in
/-- @main is that line: the called functions' bodies unfolded at their calls, sequencing reassociated. -/
theorem main_eq (c : Dev nD) : main (F := F) c = seq ops := by
  simp only [main, main_part0, main_part1, main_part2, main_part3, fn_isinf.body, fn_where.body, fn_where_0.body, fn_var.body, fn_relu.body, fn_relu_1.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation touches TensorCore buffers only. -/
theorem ops_sub : (ops : List (HloOp τ sig (Elt F))).Forall fun op => op.bufs ⊆ tcRefs τ sig :=
  ⟨unary_bufs_sub .., reshape_bufs_sub .., unary_bufs_sub .., reshape_bufs_sub .., nullary_bufs_sub .., binary_bufs_sub .., binary_bufs_sub .., nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., unary_bufs_sub .., nullary_bufs_sub .., unary_bufs_sub .., binary_bufs_sub .., nullary_bufs_sub .., unary_bufs_sub .., unary_bufs_sub .., ternary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., nullary_bufs_sub .., unary_bufs_sub .., binary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., nullary_bufs_sub .., unary_bufs_sub .., binary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., unary_bufs_sub .., ternary_bufs_sub .., unary_bufs_sub .., binary_bufs_sub .., unary_bufs_sub .., unary_bufs_sub .., binary_bufs_sub .., nullary_bufs_sub .., unary_bufs_sub .., binary_bufs_sub .., unary_bufs_sub .., binary_bufs_sub .., unary_bufs_sub .., unary_bufs_sub .., binary_bufs_sub ..⟩

/-- No operation allocates a buffer. -/
theorem ops_fresh : (ops : List (HloOp τ sig (Elt F))).Forall fun op => op.fresh = ∅ := by
  simp only [List.Forall]; repeat' constructor

/-- From any memory with zero counters every weakly fair execution of the reference terminates, and every
    buffer ends at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ
    (fun _ => List.forall_iff_forall_mem.mp ops_fresh)

end Cert.ReferenceIdeal.RefRun

end
-- ==== Proof.RefValue.lean ====
/-
  The reference's result buffer, after its whole line of operations has run from contents `V`, holds the
  composition of the stage functions applied to the nineteen argument arrays: evaluating the fold at the result
  buffer walks the operations backwards — each operation's result at its own buffer is its function of its
  operands' contents — until only argument arrays are left.
-/
import proofs.«117444_j67095979098699_1_alg».proof.Proof.RefRun
import proofs.«117444_j67095979098699_1_alg».proof.Proof.Stages

noncomputable section

namespace Cert.ReferenceIdeal.RefValue

open Idealize.ShloMosaic Idealize.ShloMosaic.StableHlo Idealize.SL.Sem Cert.ReferenceIdeal Cert.ReferenceIdeal.RefRun

variable {F : FTy → Type} [FloatOps F] [Facts]

open Cert.ReferenceIdeal.Facts₀ Cert.ReferenceIdeal.Facts

attribute [local irreducible] Host.gather Host.scatterAdd Host.reduceAdd Host.powf in
set_option maxRecDepth 65536 in
set_option maxHeartbeats 40000000 in
/-- The fold of the reference's operations, read at the result buffer, is `refOut` of the argument arrays. -/
theorem out_eq (V : Valuation τ sig (Elt F)) :
    after ops V (Proc.devRef .tc main_v157) = Cert.Stages.refOut (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) := by
  after_results_simp
  rfl

end Cert.ReferenceIdeal.RefValue

end
-- ==== Proof.RefArgs.lean ====
/-
  No operation of the reference writes an argument array: read at an argument's buffer, the fold of the whole
  line of operations is the contents the line started from.
-/
import proofs.«117444_j67095979098699_1_alg».proof.Proof.RefRun

noncomputable section

namespace Cert.ReferenceIdeal.RefArgs

open Idealize.ShloMosaic Idealize.ShloMosaic.StableHlo Idealize.SL.Sem Cert.ReferenceIdeal Cert.ReferenceIdeal.RefRun

variable {F : FTy → Type} [FloatOps F] [Facts]

open Cert.ReferenceIdeal.Facts₀ Cert.ReferenceIdeal.Facts

set_option maxRecDepth 65536 in
set_option maxHeartbeats 4000000 in
theorem arg0_eq (V : Valuation τ sig (Elt F)) :
    after ops V (Proc.devRef .tc main_arg0) = V (Proc.devRef .tc main_arg0) := by
  after_results_simp

set_option maxRecDepth 65536 in
set_option maxHeartbeats 4000000 in
theorem arg1_eq (V : Valuation τ sig (Elt F)) :
    after ops V (Proc.devRef .tc main_arg1) = V (Proc.devRef .tc main_arg1) := by
  after_results_simp

set_option maxRecDepth 65536 in
set_option maxHeartbeats 4000000 in
theorem arg2_eq (V : Valuation τ sig (Elt F)) :
    after ops V (Proc.devRef .tc main_arg2) = V (Proc.devRef .tc main_arg2) := by
  after_results_simp

set_option maxRecDepth 65536 in
set_option maxHeartbeats 4000000 in
theorem arg3_eq (V : Valuation τ sig (Elt F)) :
    after ops V (Proc.devRef .tc main_arg3) = V (Proc.devRef .tc main_arg3) := by
  after_results_simp

set_option maxRecDepth 65536 in
set_option maxHeartbeats 4000000 in
theorem arg4_eq (V : Valuation τ sig (Elt F)) :
    after ops V (Proc.devRef .tc main_arg4) = V (Proc.devRef .tc main_arg4) := by
  after_results_simp

set_option maxRecDepth 65536 in
set_option maxHeartbeats 4000000 in
theorem arg5_eq (V : Valuation τ sig (Elt F)) :
    after ops V (Proc.devRef .tc main_arg5) = V (Proc.devRef .tc main_arg5) := by
  after_results_simp

set_option maxRecDepth 65536 in
set_option maxHeartbeats 4000000 in
theorem arg6_eq (V : Valuation τ sig (Elt F)) :
    after ops V (Proc.devRef .tc main_arg6) = V (Proc.devRef .tc main_arg6) := by
  after_results_simp

set_option maxRecDepth 65536 in
set_option maxHeartbeats 4000000 in
theorem arg7_eq (V : Valuation τ sig (Elt F)) :
    after ops V (Proc.devRef .tc main_arg7) = V (Proc.devRef .tc main_arg7) := by
  after_results_simp

set_option maxRecDepth 65536 in
set_option maxHeartbeats 4000000 in
theorem arg8_eq (V : Valuation τ sig (Elt F)) :
    after ops V (Proc.devRef .tc main_arg8) = V (Proc.devRef .tc main_arg8) := by
  after_results_simp

set_option maxRecDepth 65536 in
set_option maxHeartbeats 4000000 in
theorem arg9_eq (V : Valuation τ sig (Elt F)) :
    after ops V (Proc.devRef .tc main_arg9) = V (Proc.devRef .tc main_arg9) := by
  after_results_simp

set_option maxRecDepth 65536 in
set_option maxHeartbeats 4000000 in
theorem arg10_eq (V : Valuation τ sig (Elt F)) :
    after ops V (Proc.devRef .tc main_arg10) = V (Proc.devRef .tc main_arg10) := by
  after_results_simp

set_option maxRecDepth 65536 in
set_option maxHeartbeats 4000000 in
theorem arg11_eq (V : Valuation τ sig (Elt F)) :
    after ops V (Proc.devRef .tc main_arg11) = V (Proc.devRef .tc main_arg11) := by
  after_results_simp

set_option maxRecDepth 65536 in
set_option maxHeartbeats 4000000 in
theorem arg12_eq (V : Valuation τ sig (Elt F)) :
    after ops V (Proc.devRef .tc main_arg12) = V (Proc.devRef .tc main_arg12) := by
  after_results_simp

set_option maxRecDepth 65536 in
set_option maxHeartbeats 4000000 in
theorem arg13_eq (V : Valuation τ sig (Elt F)) :
    after ops V (Proc.devRef .tc main_arg13) = V (Proc.devRef .tc main_arg13) := by
  after_results_simp

set_option maxRecDepth 65536 in
set_option maxHeartbeats 4000000 in
theorem arg14_eq (V : Valuation τ sig (Elt F)) :
    after ops V (Proc.devRef .tc main_arg14) = V (Proc.devRef .tc main_arg14) := by
  after_results_simp

set_option maxRecDepth 65536 in
set_option maxHeartbeats 4000000 in
theorem arg15_eq (V : Valuation τ sig (Elt F)) :
    after ops V (Proc.devRef .tc main_arg15) = V (Proc.devRef .tc main_arg15) := by
  after_results_simp

set_option maxRecDepth 65536 in
set_option maxHeartbeats 4000000 in
theorem arg16_eq (V : Valuation τ sig (Elt F)) :
    after ops V (Proc.devRef .tc main_arg16) = V (Proc.devRef .tc main_arg16) := by
  after_results_simp

set_option maxRecDepth 65536 in
set_option maxHeartbeats 4000000 in
theorem arg17_eq (V : Valuation τ sig (Elt F)) :
    after ops V (Proc.devRef .tc main_arg17) = V (Proc.devRef .tc main_arg17) := by
  after_results_simp

set_option maxRecDepth 65536 in
set_option maxHeartbeats 4000000 in
theorem arg18_eq (V : Valuation τ sig (Elt F)) :
    after ops V (Proc.devRef .tc main_arg18) = V (Proc.devRef .tc main_arg18) := by
  after_results_simp

end Cert.ReferenceIdeal.RefArgs

end
-- ==== Proof.lean ====
/-
  Equivalence of a graph-convolution network written with seven kernel regions and its plain reference, on the
  extended reals.  Both programs compute, from node features x, an edge list E, graph labels and the layer
  parameters: three rounds of [dense layer x·Wᵀ + b; message passing — rows gathered at the edge sources, scaled
  by the edge weights (deg(src)·deg(dst))^(-1/2), scatter-added at the edge targets, self loops included;
  normalisation of each column by its mean and variance with scale g and shift be, then max(·, 0)], then sum
  pooling per graph and a two-layer head.  The edge lists, the edge weights, the aggregation, the column
  statistics and the pooling are the same host operations in both programs.  The programs differ in three places.
  A dense layer is, in the kernel, a matrix product of a block of 5000 rows with the transposed weights
  accumulated into zero plus the bias row, and in the reference one product over all rows plus the broadcast
  bias: the same sums over the contracted axis, row by row.  The normalisation is g·(s − mean)·rsqrt(var + eps)
  + be in the kernel and g·(s − mean) / sqrt(var + eps) + be in the reference: on the extended reals
  a·rsqrt(v) = a / sqrt(v) exactly when 0 < v, and var + eps is positive because a variance is a sum of squares
  divided by a positive count and eps is a positive constant.  The head is two matrix products with a maximum in
  between in both.  No finiteness of the inputs is used: no law is applied that fails at the infinities.

  The frames of the two kernel programs are the generated ones.  The reference is a straight line of host
  operations, so its run is the fold of its operations; the idealized kernel's run is the fold of its stretches
  of host operations and its regions, each region leaving in its output array the blocks its grid points wrote.
  Both folds, read at the result buffer, are the same composition of stage functions of the argument arrays.
-/
import proofs.«117444_j67095979098699_1_alg».proof.Defs
import proofs.«117444_j67095979098699_1_alg».proof.Proof.Gen.Kernel
import proofs.«117444_j67095979098699_1_alg».proof.Proof.Gen.Kernel.Skeleton
import proofs.«117444_j67095979098699_1_alg».proof.Proof.Gen.Kernel.Launch
import proofs.«117444_j67095979098699_1_alg».proof.Proof.Gen.Kernel.Points
import proofs.«117444_j67095979098699_1_alg».proof.Proof.Gen.Kernel.Frame
import proofs.«117444_j67095979098699_1_alg».proof.Proof.Gen.KernelIdeal
import proofs.«117444_j67095979098699_1_alg».proof.Proof.Gen.KernelIdeal.Skeleton
import proofs.«117444_j67095979098699_1_alg».proof.Proof.Gen.KernelIdeal.Launch
import proofs.«117444_j67095979098699_1_alg».proof.Proof.Gen.KernelIdeal.Points
import proofs.«117444_j67095979098699_1_alg».proof.Proof.Gen.KernelIdeal.Frame
import proofs.«117444_j67095979098699_1_alg».proof.Proof.Gen.ReferenceIdeal
import proofs.«117444_j67095979098699_1_alg».proof.Proof.Gen.Pre_finite_inputs
import proofs.«117444_j67095979098699_1_alg».proof.Proof.KRun
import proofs.«117444_j67095979098699_1_alg».proof.Proof.KFinal
import proofs.«117444_j67095979098699_1_alg».proof.Proof.RefRun
import proofs.«117444_j67095979098699_1_alg».proof.Proof.RefValue
import proofs.«117444_j67095979098699_1_alg».proof.Proof.RefArgs
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference terminates and writes no argument array: its run is the fold of its operations, and no
    operation's result buffer is an argument. -/
theorem frame_ri : Cert.frame_ReferenceIdeal := fun m ρ _ =>
  (θ_run Cert.ReferenceIdeal.defs _ _).mono (fun r h c =>
    ⟨(h c Cert.ReferenceIdeal.main_arg0).trans (Cert.ReferenceIdeal.RefArgs.arg0_eq _),
     (h c Cert.ReferenceIdeal.main_arg1).trans (Cert.ReferenceIdeal.RefArgs.arg1_eq _),
     (h c Cert.ReferenceIdeal.main_arg2).trans (Cert.ReferenceIdeal.RefArgs.arg2_eq _),
     (h c Cert.ReferenceIdeal.main_arg3).trans (Cert.ReferenceIdeal.RefArgs.arg3_eq _),
     (h c Cert.ReferenceIdeal.main_arg4).trans (Cert.ReferenceIdeal.RefArgs.arg4_eq _),
     (h c Cert.ReferenceIdeal.main_arg5).trans (Cert.ReferenceIdeal.RefArgs.arg5_eq _),
     (h c Cert.ReferenceIdeal.main_arg6).trans (Cert.ReferenceIdeal.RefArgs.arg6_eq _),
     (h c Cert.ReferenceIdeal.main_arg7).trans (Cert.ReferenceIdeal.RefArgs.arg7_eq _),
     (h c Cert.ReferenceIdeal.main_arg8).trans (Cert.ReferenceIdeal.RefArgs.arg8_eq _),
     (h c Cert.ReferenceIdeal.main_arg9).trans (Cert.ReferenceIdeal.RefArgs.arg9_eq _),
     (h c Cert.ReferenceIdeal.main_arg10).trans (Cert.ReferenceIdeal.RefArgs.arg10_eq _),
     (h c Cert.ReferenceIdeal.main_arg11).trans (Cert.ReferenceIdeal.RefArgs.arg11_eq _),
     (h c Cert.ReferenceIdeal.main_arg12).trans (Cert.ReferenceIdeal.RefArgs.arg12_eq _),
     (h c Cert.ReferenceIdeal.main_arg13).trans (Cert.ReferenceIdeal.RefArgs.arg13_eq _),
     (h c Cert.ReferenceIdeal.main_arg14).trans (Cert.ReferenceIdeal.RefArgs.arg14_eq _),
     (h c Cert.ReferenceIdeal.main_arg15).trans (Cert.ReferenceIdeal.RefArgs.arg15_eq _),
     (h c Cert.ReferenceIdeal.main_arg16).trans (Cert.ReferenceIdeal.RefArgs.arg16_eq _),
     (h c Cert.ReferenceIdeal.main_arg17).trans (Cert.ReferenceIdeal.RefArgs.arg17_eq _),
     (h c Cert.ReferenceIdeal.main_arg18).trans (Cert.ReferenceIdeal.RefArgs.arg18_eq _)⟩)
    (Cert.ReferenceIdeal.RefRun.run_main (F := Ideal) m ρ)

/-- Both idealized programs end with the same result array: the reference's composition of stages applied to the
    argument arrays, on which the two launch memories agree. -/
theorem algebraic : Cert.algebraic_KernelIdeal_ReferenceIdeal := by
  intro m ρ m' ρ' _ hagree
  refine ⟨fun c => Cert.Stages.refOut (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14))
      (m ((c.tc : Thread Cert.KernelIdeal.nD Cert.KernelIdeal.τ).loc Cert.KernelIdeal.main_arg15))
      (m ((c.tc : Thread Cert.KernelIdeal.nD Cert.KernelIdeal.τ).loc Cert.KernelIdeal.main_arg16))
      (m ((c.tc : Thread Cert.KernelIdeal.nD Cert.KernelIdeal.τ).loc Cert.KernelIdeal.main_arg17))
      (m ((c.tc : Thread Cert.KernelIdeal.nD Cert.KernelIdeal.τ).loc Cert.KernelIdeal.main_arg18)), ?_, ?_⟩
  · exact (θ_run (Cert.KernelIdeal.defs (F := Ideal)) _ _).mono
      (fun r h c => ⟨(h c).1.trans (Cert.KernelIdeal.KFinal.kernel_value m ρ c), (h c).2⟩)
      (Cert.KernelIdeal.KRun.run_value m ρ)
  · refine (θ_run (Cert.ReferenceIdeal.defs (F := Ideal)) _ _).mono (fun r h c => ⟨?_,
      (h c Cert.ReferenceIdeal.main_arg0).trans (Cert.ReferenceIdeal.RefArgs.arg0_eq _),
      (h c Cert.ReferenceIdeal.main_arg1).trans (Cert.ReferenceIdeal.RefArgs.arg1_eq _),
      (h c Cert.ReferenceIdeal.main_arg2).trans (Cert.ReferenceIdeal.RefArgs.arg2_eq _),
      (h c Cert.ReferenceIdeal.main_arg3).trans (Cert.ReferenceIdeal.RefArgs.arg3_eq _),
      (h c Cert.ReferenceIdeal.main_arg4).trans (Cert.ReferenceIdeal.RefArgs.arg4_eq _),
      (h c Cert.ReferenceIdeal.main_arg5).trans (Cert.ReferenceIdeal.RefArgs.arg5_eq _),
      (h c Cert.ReferenceIdeal.main_arg6).trans (Cert.ReferenceIdeal.RefArgs.arg6_eq _),
      (h c Cert.ReferenceIdeal.main_arg7).trans (Cert.ReferenceIdeal.RefArgs.arg7_eq _),
      (h c Cert.ReferenceIdeal.main_arg8).trans (Cert.ReferenceIdeal.RefArgs.arg8_eq _),
      (h c Cert.ReferenceIdeal.main_arg9).trans (Cert.ReferenceIdeal.RefArgs.arg9_eq _),
      (h c Cert.ReferenceIdeal.main_arg10).trans (Cert.ReferenceIdeal.RefArgs.arg10_eq _),
      (h c Cert.ReferenceIdeal.main_arg11).trans (Cert.ReferenceIdeal.RefArgs.arg11_eq _),
      (h c Cert.ReferenceIdeal.main_arg12).trans (Cert.ReferenceIdeal.RefArgs.arg12_eq _),
      (h c Cert.ReferenceIdeal.main_arg13).trans (Cert.ReferenceIdeal.RefArgs.arg13_eq _),
      (h c Cert.ReferenceIdeal.main_arg14).trans (Cert.ReferenceIdeal.RefArgs.arg14_eq _),
      (h c Cert.ReferenceIdeal.main_arg15).trans (Cert.ReferenceIdeal.RefArgs.arg15_eq _),
      (h c Cert.ReferenceIdeal.main_arg16).trans (Cert.ReferenceIdeal.RefArgs.arg16_eq _),
      (h c Cert.ReferenceIdeal.main_arg17).trans (Cert.ReferenceIdeal.RefArgs.arg17_eq _),
      (h c Cert.ReferenceIdeal.main_arg18).trans (Cert.ReferenceIdeal.RefArgs.arg18_eq _)⟩)
      (Cert.ReferenceIdeal.RefRun.run_main (F := Ideal) m' ρ')
    obtain ⟨h0, h1, h2, h3, h4, h5, h6, h7, h8, h9, h10, h11, h12, h13, h14, h15, h16, h17, h18⟩ := hagree c
    refine ((h c Cert.ReferenceIdeal.main_v157).trans (Cert.ReferenceIdeal.RefValue.out_eq _)).trans ?_
    show _ = Cert.Stages.refOut (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14))
      (m ((c.tc : Thread Cert.KernelIdeal.nD Cert.KernelIdeal.τ).loc Cert.KernelIdeal.main_arg15))
      (m ((c.tc : Thread Cert.KernelIdeal.nD Cert.KernelIdeal.τ).loc Cert.KernelIdeal.main_arg16))
      (m ((c.tc : Thread Cert.KernelIdeal.nD Cert.KernelIdeal.τ).loc Cert.KernelIdeal.main_arg17))
      (m ((c.tc : Thread Cert.KernelIdeal.nD Cert.KernelIdeal.τ).loc Cert.KernelIdeal.main_arg18))
    rw [← h0, ← h1, ← h2, ← h3, ← h4, ← h5, ← h6, ← h7, ← h8, ← h9, ← h10, ← h11, ← h12, ← h13, ← h14, ← h15, ← h16, ← h17, ← h18]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
